-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x512 : Shape := ⟨3, ![16, 4096, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel

variable [Facts]

def fn {F : FTy → Type} [FloatOps F] (main_arg0 : IVec S16x4096 32) (main_arg1 : FVec F S16x4096x512 .f32) : IVec S_ 1 :=
  let main_v0 : FVec F S16x4096x512 .f32 := Host.absf main_arg1
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  main_v3
-- ==== Kernel.lean ====
abbrev S16x4096 : Shape := ⟨2, ![16, 4096]⟩
abbrev S16x4096x512 : Shape := ⟨3, ![16, 4096, 512]⟩
abbrev S_ : Shape := ⟨0, ![]⟩
abbrev S4096 : Shape := ⟨1, ![4096]⟩
abbrev S1x4096 : Shape := ⟨2, ![1, 4096]⟩
abbrev S16x1 : Shape := ⟨2, ![16, 1]⟩
abbrev S16x4095 : Shape := ⟨2, ![16, 4095]⟩
abbrev S16x4096x1 : Shape := ⟨3, ![16, 4096, 1]⟩
abbrev S1 : Shape := ⟨1, ![1]⟩
abbrev S1x1x1 : Shape := ⟨3, ![1, 1, 1]⟩
abbrev S16x128 : Shape := ⟨2, ![16, 128]⟩
abbrev S16x128x512 : Shape := ⟨3, ![16, 128, 512]⟩
abbrev S16x128x1 : Shape := ⟨3, ![16, 128, 1]⟩
abbrev S16x1x128 : Shape := ⟨3, ![16, 1, 128]⟩
abbrev S16x128x128 : Shape := ⟨3, ![16, 128, 128]⟩

abbrev nBuf : Space → Nat
  | .hbm => 63
  | .vmem => 10
  | .smem => 0
  | _ => 0

abbrev bufTy : (tb : Table) → Fin (tcTables nBuf tb) → BufTy
  | .hbm, ⟨0, _⟩ => ⟨S16x4096, .i32⟩
  | .hbm, ⟨1, _⟩ => ⟨S16x4096x512, .f32⟩
  | .hbm, ⟨2, _⟩ => ⟨S_, .i32⟩
  | .hbm, ⟨3, _⟩ => ⟨S16x4096, .i32⟩
  | .hbm, ⟨4, _⟩ => ⟨S16x4096, .i1⟩
  | .hbm, ⟨5, _⟩ => ⟨S4096, .i32⟩
  | .hbm, ⟨6, _⟩ => ⟨S1x4096, .i32⟩
  | .hbm, ⟨7, _⟩ => ⟨S_, .i32⟩
  | .hbm, ⟨8, _⟩ => ⟨S_, .i32⟩
  | .hbm, ⟨9, _⟩ => ⟨S16x4096, .i32⟩
  | .hbm, ⟨10, _⟩ => ⟨S16x4096, .i32⟩
  | .hbm, ⟨11, _⟩ => ⟨S16x4096, .i32⟩
  | .hbm, ⟨12, _⟩ => ⟨S_, .i32⟩
  | .hbm, ⟨13, _⟩ => ⟨S_, .i32⟩
  | .hbm, ⟨14, _⟩ => ⟨S16x4096, .i32⟩
  | .hbm, ⟨15, _⟩ => ⟨S_, .i32⟩
  | .hbm, ⟨16, _⟩ => ⟨S16x1, .i32⟩
  | .hbm, ⟨17, _⟩ => ⟨S16x4095, .i32⟩
  | .hbm, ⟨18, _⟩ => ⟨S16x4096, .i32⟩
  | .hbm, ⟨19, _⟩ => ⟨S_, .i32⟩
  | .hbm, ⟨20, _⟩ => ⟨S_, .i32⟩
  | .hbm, ⟨21, _⟩ => ⟨S16x4096, .i32⟩
  | .hbm, ⟨22, _⟩ => ⟨S16x4096, .i32⟩
  | .hbm, ⟨23, _⟩ => ⟨S_, .i32⟩
  | .hbm, ⟨24, _⟩ => ⟨S16x4096, .i32⟩
  | .hbm, ⟨25, _⟩ => ⟨S16x4096, .i1⟩
  | .hbm, ⟨26, _⟩ => ⟨S_, .i32⟩
  | .hbm, ⟨27, _⟩ => ⟨S16x4096, .i32⟩
  | .hbm, ⟨28, _⟩ => ⟨S16x4096, .i32⟩
  | .hbm, ⟨29, _⟩ => ⟨S16x4096, .i32⟩
  | .hbm, ⟨30, _⟩ => ⟨S16x4096x1, .i32⟩
  | .hbm, ⟨31, _⟩ => ⟨S1, .i32⟩
  | .hbm, ⟨32, _⟩ => ⟨S_, .i32⟩
  | .hbm, ⟨33, _⟩ => ⟨S16x4096x1, .i32⟩
  | .hbm, ⟨34, _⟩ => ⟨S16x4096x1, .i1⟩
  | .hbm, ⟨35, _⟩ => ⟨S1x1x1, .i32⟩
  | .hbm, ⟨36, _⟩ => ⟨S16x4096x1, .i32⟩
  | .hbm, ⟨37, _⟩ => ⟨S16x4096x1, .i1⟩
  | .hbm, ⟨38, _⟩ => ⟨S16x4096x1, .i1⟩
  | .hbm, ⟨39, _⟩ => ⟨S_, .i1⟩
  | .hbm, ⟨40, _⟩ => ⟨S16x4096, .i1⟩
  | .hbm, ⟨41, _⟩ => ⟨S16x4096, .i32⟩
  | .hbm, ⟨42, _⟩ => ⟨S_, .i32⟩
  | .hbm, ⟨43, _⟩ => ⟨S16x4096, .i32⟩
  | .hbm, ⟨44, _⟩ => ⟨S16x4096, .i32⟩
  | .hbm, ⟨45, _⟩ => ⟨S_, .i32⟩
  | .hbm, ⟨46, _⟩ => ⟨S16x4096, .i32⟩
  | .hbm, ⟨47, _⟩ => ⟨S16x4096, .i1⟩
  | .hbm, ⟨48, _⟩ => ⟨S16x4096, .i1⟩
  | .hbm, ⟨49, _⟩ => ⟨S16x4096, .i1⟩
  | .hbm, ⟨50, _⟩ => ⟨S16x4096, .i1⟩
  | .hbm, ⟨51, _⟩ => ⟨S16x4096, .i32⟩
  | .hbm, ⟨52, _⟩ => ⟨S_, .i32⟩
  | .hbm, ⟨53, _⟩ => ⟨S_, .i32⟩
  | .hbm, ⟨54, _⟩ => ⟨S16x4096, .i32⟩
  | .hbm, ⟨55, _⟩ => ⟨S_, .i32⟩
  | .hbm, ⟨56, _⟩ => ⟨S16x4096, .i32⟩
  | .hbm, ⟨57, _⟩ => ⟨S16x4096, .i32⟩
  | .hbm, ⟨58, _⟩ => ⟨S_, .i32⟩
  | .hbm, ⟨59, _⟩ => ⟨S_, .i32⟩
  | .hbm, ⟨60, _⟩ => ⟨S16x4096, .i32⟩
  | .hbm, ⟨61, _⟩ => ⟨S16x4096, .i32⟩
  | .hbm, ⟨62, _⟩ => ⟨S16x4096x512, .f32⟩
  | .local _ .vmem, ⟨0, _⟩ => ⟨S16x128, .i32⟩
  | .local _ .vmem, ⟨1, _⟩ => ⟨S16x128, .i32⟩
  | .local _ .vmem, ⟨2, _⟩ => ⟨S16x128, .i32⟩
  | .local _ .vmem, ⟨3, _⟩ => ⟨S16x128, .i32⟩
  | .local _ .vmem, ⟨4, _⟩ => ⟨S16x128x512, .f32⟩
  | .local _ .vmem, ⟨5, _⟩ => ⟨S16x128x512, .f32⟩
  | .local _ .vmem, ⟨6, _⟩ => ⟨S16x128x512, .f32⟩
  | .local _ .vmem, ⟨7, _⟩ => ⟨S16x128x512, .f32⟩
  | .local _ .vmem, ⟨8, _⟩ => ⟨S16x128x512, .f32⟩
  | .local _ .vmem, ⟨9, _⟩ => ⟨S16x128, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_call1_c : Ref sig .tc := ⟨.hbm, 12, rfl⟩
abbrev main_call1_v0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_v9 : Ref sig .tc := ⟨.hbm, 22, rfl⟩
abbrev main_call3_c : Ref sig .tc := ⟨.hbm, 23, rfl⟩
abbrev main_call3_v0 : Ref sig .tc := ⟨.hbm, 24, rfl⟩
abbrev main_call3_v1 : Ref sig .tc := ⟨.hbm, 25, rfl⟩
abbrev main_call3_c_0 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_call3_v5 : Ref sig .tc := ⟨.hbm, 30, rfl⟩
abbrev main_call3_c_1 : Ref sig .tc := ⟨.hbm, 31, rfl⟩
abbrev main_call3_c_2 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_v9 : Ref sig .tc := ⟨.hbm, 36, rfl⟩
abbrev main_call3_v10 : Ref sig .tc := ⟨.hbm, 37, rfl⟩
abbrev main_call3_v11 : Ref sig .tc := ⟨.hbm, 38, rfl⟩
abbrev main_call3_c_3 : Ref sig .tc := ⟨.hbm, 39, rfl⟩
abbrev main_call3_v12 : Ref sig .tc := ⟨.hbm, 40, rfl⟩
abbrev main_call3_v13 : Ref sig .tc := ⟨.hbm, 41, rfl⟩
abbrev main_call3_c_4 : Ref sig .tc := ⟨.hbm, 42, rfl⟩
abbrev main_call3_v14 : Ref sig .tc := ⟨.hbm, 43, rfl⟩
abbrev main_v10 : Ref sig .tc := ⟨.hbm, 44, rfl⟩
abbrev main_c_3 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_call4_call0_c : Ref sig .tc := ⟨.hbm, 52, rfl⟩
abbrev main_call4_call0_v0 : Ref sig .tc := ⟨.hbm, 53, rfl⟩
abbrev main_v17 : Ref sig .tc := ⟨.hbm, 54, rfl⟩
abbrev main_c_4 : Ref sig .tc := ⟨.hbm, 55, rfl⟩
abbrev main_v18 : Ref sig .tc := ⟨.hbm, 56, rfl⟩
abbrev main_v19 : Ref sig .tc := ⟨.hbm, 57, rfl⟩
abbrev main_c_5 : Ref sig .tc := ⟨.hbm, 58, rfl⟩
abbrev main_call5_v0 : Ref sig .tc := ⟨.hbm, 59, rfl⟩
abbrev main_call5_v1 : Ref sig .tc := ⟨.hbm, 60, rfl⟩
abbrev main_v20 : Ref sig .tc := ⟨.hbm, 61, rfl⟩
abbrev main_v21 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16x4096 : S_.BroadcastsInDim S16x4096 (![] : Fin 0 → Fin S16x4096.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  bcast_S_S_ : S_.BroadcastsInDim S_ (![] : Fin 0 → Fin S_.rank)
  reduceWindows_S16x4096_S16x4096_w1s1p0_0_w4096s1p4095_0 : S16x4096.ReduceWindows (![1, 4096] : Fin 2 → Nat) ![1, 1] ![0, 4095] ![0, 0] S16x4096
  h_S_ : 0 < S_.numel
  bcast_S_S16x1 : S_.BroadcastsInDim S16x1 (![] : Fin 0 → Fin S16x1.rank)
  slices_S16x4096_S16x4095_0_0 : S16x4096.Slices ![0, 0] S16x4095
  concatenates_S16x1_S16x4095_S16x4096_d1 : Shape.Concatenates [S16x1, S16x4095] S16x4096 1
  shapeCasts_S16x4096_S16x4096x1 : S16x4096.ShapeCasts S16x4096x1
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  natLt_1_32 : 1 < 32
  inb_S16x128x512_S16x128x512_0_0_0 : ∀ a, (![0, 0, 0] : Fin 3 → Nat) a + S16x128x512.size a ≤ S16x128x512.size a
  h_S16x128x512 : 0 < S16x128x512.numel
  shapeCasts_S16x128x512_S16x128x512 : S16x128x512.ShapeCasts S16x128x512
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  shapeCasts_S16x128_S16x1x128 : S16x128.ShapeCasts S16x1x128
  broadcasts_S16x128x1_S16x128x128 : S16x128x1.Broadcasts S16x128x128
  broadcasts_S16x1x128_S16x128x128 : S16x1x128.Broadcasts S16x128x128
  bitsLt_bf16_f32 : FTy.bits .bf16 < FTy.bits .f32
  reduces_S16x128x128_S16x128 : S16x128x128.Reduces [2] S16x128
  broadcasts_S16x128x1_S16x128x512 : S16x128x1.Broadcasts S16x128x512
  gather_S16x4096_S16x4096x1_S16x4096_n_1_0_0_1_2_11_wf : GatherDims.WF S16x4096 S16x4096x1 S16x4096 [] [1] [0] [1] [0] 2 ![1, 1]
  dot_S16x128x128_S16x128x512_S16x128x512_2_1_1_2_0_0_wf : DotDims.WF S16x128x128 S16x128x512 S16x128x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x4096.size a
  hwx0_0 : ∀ i : grid0.Coords, EltTy.bits .i32 = 32 ∨ (Rect.block (s := S16x4096) S16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x4096.size a
  hwx0_1 : ∀ i : grid0.Coords, EltTy.bits .i32 = 32 ∨ (Rect.block (s := S16x4096) S16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x512.size a ≤ S16x4096x512.size a
  hwx0_2 : ∀ i : grid0.Coords, EltTy.bits .f32 = 32 ∨ (Rect.block (s := S16x4096x512) S16x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x512.size a ≤ S16x4096x512.size a
  hwx0_3 : ∀ i : grid0.Coords, EltTy.bits .f32 = 32 ∨ (Rect.block (s := S16x4096x512) S16x128x512.size (cc0_transform_3 i) (hinb0_3 i)).WholeWords (EltTy.packing .f32)

variable [Facts₀]

def gather_S16x4096_S16x4096x1_S16x4096_n_1_0_0_1_2_11 : GatherDims S16x4096 S16x4096x1 S16x4096 where
  offsetDims := []
  collapsedSliceDims := [1]
  operandBatchingDims := [0]
  startIndicesBatchingDims := [0]
  startIndexMap := [1]
  indexVectorDim := 2
  sliceSizes := ![1, 1]
  wf := gather_S16x4096_S16x4096x1_S16x4096_n_1_0_0_1_2_11_wf
def dot_S16x128x128_S16x128x512_S16x128x512_2_1_1_2_0_0 : DotDims S16x128x128 S16x128x512 S16x128x512 where
  lhsContracting := [2]
  rhsContracting := [1]
  lhsNonContracting := [1]
  rhsNonContracting := [2]
  lhsBatch := [0]
  rhsBatch := [0]
  wf := dot_S16x128x128_S16x128x512_S16x128x512_2_1_1_2_0_0_wf

abbrev win0_0 : Pipeline.Window sig grid0 :=
  Pipeline.Window.ofSpec (Memref.whole main_v20) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096 : Shape := ⟨2, ![16, 4096]⟩
abbrev S16x4096x512 : Shape := ⟨3, ![16, 4096, 512]⟩
abbrev S_ : Shape := ⟨0, ![]⟩
abbrev S4096 : Shape := ⟨1, ![4096]⟩
abbrev S1x4096 : Shape := ⟨2, ![1, 4096]⟩
abbrev S16x1 : Shape := ⟨2, ![16, 1]⟩
abbrev S16x4095 : Shape := ⟨2, ![16, 4095]⟩
abbrev S16x4096x1 : Shape := ⟨3, ![16, 4096, 1]⟩
abbrev S1 : Shape := ⟨1, ![1]⟩
abbrev S1x1x1 : Shape := ⟨3, ![1, 1, 1]⟩
abbrev S16 : Shape := ⟨1, ![16]⟩
abbrev S65536 : Shape := ⟨1, ![65536]⟩
abbrev S65536x512 : Shape := ⟨2, ![65536, 512]⟩
abbrev S65552x512 : Shape := ⟨2, ![65552, 512]⟩
abbrev S65536x1 : Shape := ⟨2, ![65536, 1]⟩
abbrev S65552 : Shape := ⟨1, ![65552]⟩
abbrev S16x4097x512 : Shape := ⟨3, ![16, 4097, 512]⟩
abbrev S16x4097 : Shape := ⟨2, ![16, 4097]⟩

abbrev nBuf : Space → Nat
  | .hbm => 135
  | .vmem => 0
  | .smem => 0
  | _ => 0

abbrev hbmTy0_0 (i : Nat) : BufTy := match i % 128 with
  | 0 => ⟨S16x4096, .i32⟩
  | 1 => ⟨S16x4096x512, .f32⟩
  | 2 => ⟨S_, .i32⟩
  | 3 => ⟨S16x4096, .i32⟩
  | 4 => ⟨S16x4096, .i1⟩
  | 5 => ⟨S4096, .i32⟩
  | 6 => ⟨S1x4096, .i32⟩
  | 7 => ⟨S_, .i32⟩
  | 8 => ⟨S_, .i32⟩
  | 9 => ⟨S16x4096, .i32⟩
  | 10 => ⟨S16x4096, .i32⟩
  | 11 => ⟨S16x4096, .i32⟩
  | 12 => ⟨S_, .i32⟩
  | 13 => ⟨S_, .i32⟩
  | 14 => ⟨S16x4096, .i32⟩
  | 15 => ⟨S_, .i32⟩
  | 16 => ⟨S16x1, .i32⟩
  | 17 => ⟨S16x4095, .i32⟩
  | 18 => ⟨S16x4096, .i32⟩
  | 19 => ⟨S_, .i32⟩
  | 20 => ⟨S_, .i32⟩
  | 21 => ⟨S16x4096, .i32⟩
  | 22 => ⟨S16x4096, .i32⟩
  | 23 => ⟨S_, .i32⟩
  | 24 => ⟨S16x4096, .i32⟩
  | 25 => ⟨S16x4096, .i1⟩
  | 26 => ⟨S_, .i32⟩
  | 27 => ⟨S16x4096, .i32⟩
  | 28 => ⟨S16x4096, .i32⟩
  | 29 => ⟨S16x4096, .i32⟩
  | 30 => ⟨S16x4096x1, .i32⟩
  | 31 => ⟨S1, .i32⟩
  | 32 => ⟨S_, .i32⟩
  | 33 => ⟨S16x4096x1, .i32⟩
  | 34 => ⟨S16x4096x1, .i1⟩
  | 35 => ⟨S1x1x1, .i32⟩
  | 36 => ⟨S16x4096x1, .i32⟩
  | 37 => ⟨S16x4096x1, .i1⟩
  | 38 => ⟨S16x4096x1, .i1⟩
  | 39 => ⟨S_, .i1⟩
  | 40 => ⟨S16x4096, .i1⟩
  | 41 => ⟨S16x4096, .i32⟩
  | 42 => ⟨S_, .i32⟩
  | 43 => ⟨S16x4096, .i32⟩
  | 44 => ⟨S16x4096, .i32⟩
  | 45 => ⟨S_, .i32⟩
  | 46 => ⟨S16x4096, .i32⟩
  | 47 => ⟨S16x4096, .i1⟩
  | 48 => ⟨S16x4096, .i1⟩
  | 49 => ⟨S16x4096, .i1⟩
  | 50 => ⟨S16x4096, .i1⟩
  | 51 => ⟨S16x4096, .i32⟩
  | 52 => ⟨S_, .i32⟩
  | 53 => ⟨S_, .i32⟩
  | 54 => ⟨S16x4096, .i32⟩
  | 55 => ⟨S_, .i32⟩
  | 56 => ⟨S16x4096, .i32⟩
  | 57 => ⟨S16x4096, .i32⟩
  | 58 => ⟨S_, .i32⟩
  | 59 => ⟨S_, .i32⟩
  | 60 => ⟨S16x4096, .i32⟩
  | 61 => ⟨S16x4096, .i32⟩
  | 62 => ⟨S16, .i32⟩
  | 63 => ⟨S16x1, .i32⟩
  | 64 => ⟨S_, .i32⟩
  | 65 => ⟨S16x1, .i32⟩
  | 66 => ⟨S16x1, .i32⟩
  | 67 => ⟨S16x4096, .i32⟩
  | 68 => ⟨S16x4096, .i32⟩
  | 69 => ⟨S65536, .i32⟩
  | 70 => ⟨S16x4096x1, .i1⟩
  | 71 => ⟨S_, .f32⟩
  | 72 => ⟨S_, .f32⟩
  | 73 => ⟨S16x4096x512, .i1⟩
  | 74 => ⟨S16x4096x512, .f32⟩
  | 75 => ⟨S16x4096x512, .f32⟩
  | 76 => ⟨S65536x512, .f32⟩
  | 77 => ⟨S_, .f32⟩
  | 78 => ⟨S65552x512, .f32⟩
  | 79 => ⟨S65536x1, .i32⟩
  | 80 => ⟨S65552x512, .f32⟩
  | 81 => ⟨S16x4096, .f32⟩
  | 82 => ⟨S65536, .f32⟩
  | 83 => ⟨S_, .f32⟩
  | 84 => ⟨S65552, .f32⟩
  | 85 => ⟨S65536x1, .i32⟩
  | 86 => ⟨S65552, .f32⟩
  | 87 => ⟨S16x4097x512, .f32⟩
  | 88 => ⟨S16x4096x512, .f32⟩
  | 89 => ⟨S16x4097, .f32⟩
  | 90 => ⟨S16x4096, .f32⟩
  | 91 => ⟨S_, .f32⟩
  | 92 => ⟨S_, .f32⟩
  | 93 => ⟨S16x4096, .f32⟩
  | 94 => ⟨S16x4096, .f32⟩
  | 95 => ⟨S16x4096x1, .f32⟩
  | 96 => ⟨S16x4096x512, .f32⟩
  | 97 => ⟨S16x4096x512, .f32⟩
  | 98 => ⟨S_, .i32⟩
  | 99 => ⟨S_, .i32⟩
  | 100 => ⟨S_, .i32⟩
  | 101 => ⟨S16x4096, .i32⟩
  | 102 => ⟨S16x4096, .i32⟩
  | 103 => ⟨S_, .i32⟩
  | 104 => ⟨S16x4096, .i32⟩
  | 105 => ⟨S16x4096, .i32⟩
  | 106 => ⟨S16x4096x1, .i32⟩
  | 107 => ⟨S_, .i32⟩
  | 108 => ⟨S16x4096x1, .i32⟩
  | 109 => ⟨S16x4096x1, .i1⟩
  | 110 => ⟨S_, .i32⟩
  | 111 => ⟨S16x4096x1, .i32⟩
  | 112 => ⟨S16x4096x1, .i32⟩
  | 113 => ⟨S16x4096x1, .i32⟩
  | 114 => ⟨S1, .i32⟩
  | 115 => ⟨S_, .i32⟩
  | 116 => ⟨S16x4096x1, .i32⟩
  | 117 => ⟨S16x4096x1, .i1⟩
  | 118 => ⟨S1x1x1, .i32⟩
  | 119 => ⟨S16x4096x1, .i32⟩
  | 120 => ⟨S16x4096x1, .i1⟩
  | 121 => ⟨S16x4096x1, .i1⟩
  | 122 => ⟨S_, .i1⟩
  | 123 => ⟨S16x4096, .i1⟩
  | 124 => ⟨S16x4096x512, .f32⟩
  | 125 => ⟨S16x4096x512, .i1⟩
  | 126 => ⟨S_, .f32⟩
  | 127 => ⟨S16x4096x512, .f32⟩
  | _ => ⟨S16x4096, .i32⟩

abbrev hbmTy0_1 (i : Nat) : BufTy := match i % 128 with
  | 0 => ⟨S16x4096x512, .f32⟩
  | 1 => ⟨S16x4096x1, .i1⟩
  | 2 => ⟨S_, .f32⟩
  | 3 => ⟨S_, .f32⟩
  | 4 => ⟨S16x4096x512, .i1⟩
  | 5 => ⟨S16x4096x512, .f32⟩
  | 6 => ⟨S16x4096x512, .f32⟩
  | _ => ⟨S16x4096, .i32⟩

abbrev hbmTy (i : Nat) : BufTy := match i / 128 with
  | 0 => hbmTy0_0 i
  | 1 => hbmTy0_1 i
  | _ => ⟨S16x4096, .i32⟩

abbrev bufTy : (tb : Table) → Fin (tcTables nBuf tb) → BufTy
  | .hbm, ⟨i, _⟩ => hbmTy i
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_call1_c : Ref sig .tc := ⟨.hbm, 12, rfl⟩
abbrev main_call1_v0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_v9 : Ref sig .tc := ⟨.hbm, 22, rfl⟩
abbrev main_call3_c : Ref sig .tc := ⟨.hbm, 23, rfl⟩
abbrev main_call3_v0 : Ref sig .tc := ⟨.hbm, 24, rfl⟩
abbrev main_call3_v1 : Ref sig .tc := ⟨.hbm, 25, rfl⟩
abbrev main_call3_c_0 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_call3_v5 : Ref sig .tc := ⟨.hbm, 30, rfl⟩
abbrev main_call3_c_1 : Ref sig .tc := ⟨.hbm, 31, rfl⟩
abbrev main_call3_c_2 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_v9 : Ref sig .tc := ⟨.hbm, 36, rfl⟩
abbrev main_call3_v10 : Ref sig .tc := ⟨.hbm, 37, rfl⟩
abbrev main_call3_v11 : Ref sig .tc := ⟨.hbm, 38, rfl⟩
abbrev main_call3_c_3 : Ref sig .tc := ⟨.hbm, 39, rfl⟩
abbrev main_call3_v12 : Ref sig .tc := ⟨.hbm, 40, rfl⟩
abbrev main_call3_v13 : Ref sig .tc := ⟨.hbm, 41, rfl⟩
abbrev main_call3_c_4 : Ref sig .tc := ⟨.hbm, 42, rfl⟩
abbrev main_call3_v14 : Ref sig .tc := ⟨.hbm, 43, rfl⟩
abbrev main_v10 : Ref sig .tc := ⟨.hbm, 44, rfl⟩
abbrev main_c_3 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_call4_call0_c : Ref sig .tc := ⟨.hbm, 52, rfl⟩
abbrev main_call4_call0_v0 : Ref sig .tc := ⟨.hbm, 53, rfl⟩
abbrev main_v17 : Ref sig .tc := ⟨.hbm, 54, rfl⟩
abbrev main_c_4 : Ref sig .tc := ⟨.hbm, 55, rfl⟩
abbrev main_v18 : Ref sig .tc := ⟨.hbm, 56, rfl⟩
abbrev main_v19 : Ref sig .tc := ⟨.hbm, 57, rfl⟩
abbrev main_c_5 : Ref sig .tc := ⟨.hbm, 58, rfl⟩
abbrev main_call5_v0 : Ref sig .tc := ⟨.hbm, 59, rfl⟩
abbrev main_call5_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_6 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst : Ref sig .tc := ⟨.hbm, 71, rfl⟩
abbrev main_call6_v0 : Ref sig .tc := ⟨.hbm, 72, rfl⟩
abbrev main_call6_v1 : Ref sig .tc := ⟨.hbm, 73, rfl⟩
abbrev main_call6_v2 : Ref sig .tc := ⟨.hbm, 74, rfl⟩
abbrev main_v29 : Ref sig .tc := ⟨.hbm, 75, rfl⟩
abbrev main_v30 : Ref sig .tc := ⟨.hbm, 76, rfl⟩
abbrev main_cst_7 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_8 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_9 : Ref sig .tc := ⟨.hbm, 91, rfl⟩
abbrev main_call7_v0 : Ref sig .tc := ⟨.hbm, 92, rfl⟩
abbrev main_call7_v1 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_10 : Ref sig .tc := ⟨.hbm, 98, rfl⟩
abbrev main_c_11 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_v47 : Ref sig .tc := ⟨.hbm, 105, rfl⟩
abbrev main_v48 : Ref sig .tc := ⟨.hbm, 106, rfl⟩
abbrev main_call9_c : Ref sig .tc := ⟨.hbm, 107, rfl⟩
abbrev main_call9_v0 : Ref sig .tc := ⟨.hbm, 108, rfl⟩
abbrev main_call9_v1 : Ref sig .tc := ⟨.hbm, 109, rfl⟩
abbrev main_call9_c_0 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_call9_c_1 : Ref sig .tc := ⟨.hbm, 114, rfl⟩
abbrev main_call9_c_2 : Ref sig .tc := ⟨.hbm, 115, rfl⟩
abbrev main_call9_v5 : Ref sig .tc := ⟨.hbm, 116, rfl⟩
abbrev main_call9_v6 : Ref sig .tc := ⟨.hbm, 117, rfl⟩
abbrev main_call9_v7 : Ref sig .tc := ⟨.hbm, 118, rfl⟩
abbrev main_call9_v8 : Ref sig .tc := ⟨.hbm, 119, rfl⟩
abbrev main_call9_v9 : Ref sig .tc := ⟨.hbm, 120, rfl⟩
abbrev main_call9_v10 : Ref sig .tc := ⟨.hbm, 121, rfl⟩
abbrev main_call9_c_3 : Ref sig .tc := ⟨.hbm, 122, rfl⟩
abbrev main_call9_v11 : Ref sig .tc := ⟨.hbm, 123, rfl⟩
abbrev main_call9_v12 : Ref sig .tc := ⟨.hbm, 124, rfl⟩
abbrev main_call9_v13 : Ref sig .tc := ⟨.hbm, 125, rfl⟩
abbrev main_call9_cst : Ref sig .tc := ⟨.hbm, 126, rfl⟩
abbrev main_call9_v14 : Ref sig .tc := ⟨.hbm, 127, rfl⟩
abbrev main_v49 : Ref sig .tc := ⟨.hbm, 128, rfl⟩
abbrev main_v50 : Ref sig .tc := ⟨.hbm, 129, rfl⟩
abbrev main_cst_12 : Ref sig .tc := ⟨.hbm, 130, rfl⟩
abbrev main_call10_v0 : Ref sig .tc := ⟨.hbm, 131, rfl⟩
abbrev main_call10_v1 : Ref sig .tc := ⟨.hbm, 132, rfl⟩
abbrev main_call10_v2 : Ref sig .tc := ⟨.hbm, 133, rfl⟩
abbrev main_v51 : Ref sig .tc := ⟨.hbm, 134, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  bcast_S_S_ : S_.BroadcastsInDim S_ (![] : Fin 0 → Fin S_.rank)
  reduceWindows_S16x4096_S16x4096_w1s1p0_0_w4096s1p4095_0 : S16x4096.ReduceWindows (![1, 4096] : Fin 2 → Nat) ![1, 1] ![0, 4095] ![0, 0] S16x4096
  h_S_ : 0 < S_.numel
  bcast_S_S16x1 : S_.BroadcastsInDim S16x1 (![] : Fin 0 → Fin S16x1.rank)
  slices_S16x4096_S16x4095_0_0 : S16x4096.Slices ![0, 0] S16x4095
  concatenates_S16x1_S16x4095_S16x4096_d1 : Shape.Concatenates [S16x1, S16x4095] S16x4096 1
  shapeCasts_S16x4096_S16x4096x1 : S16x4096.ShapeCasts S16x4096x1
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  natLt_1_32 : 1 < 32
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  shapeCasts_S16x4096_S65536 : S16x4096.ShapeCasts S65536
  bcast_S16x4096_S16x4096x1_0_1 : S16x4096.BroadcastsInDim S16x4096x1 (![0, 1] : Fin 2 → Fin S16x4096x1.rank)
  bcast_S16x4096x1_S16x4096x512_0_1_2 : S16x4096x1.BroadcastsInDim S16x4096x512 (![0, 1, 2] : Fin 3 → Fin S16x4096x512.rank)
  bcast_S_S16x4096x512 : S_.BroadcastsInDim S16x4096x512 (![] : Fin 0 → Fin S16x4096x512.rank)
  shapeCasts_S16x4096x512_S65536x512 : S16x4096x512.ShapeCasts S65536x512
  bcast_S_S65552x512 : S_.BroadcastsInDim S65552x512 (![] : Fin 0 → Fin S65552x512.rank)
  bcast_S65536_S65536x1_0 : S65536.BroadcastsInDim S65536x1 (![0] : Fin 1 → Fin S65536x1.rank)
  bcast_S_S65552 : S_.BroadcastsInDim S65552 (![] : Fin 0 → Fin S65552.rank)
  shapeCasts_S65552x512_S16x4097x512 : S65552x512.ShapeCasts S16x4097x512
  slices_S16x4097x512_S16x4096x512_0_0_0 : S16x4097x512.Slices ![0, 0, 0] S16x4096x512
  shapeCasts_S65552_S16x4097 : S65552.ShapeCasts S16x4097
  slices_S16x4097_S16x4096_0_0 : S16x4097.Slices ![0, 0] S16x4096
  bcast_S16x4096_S16x4096x512_0_1 : S16x4096.BroadcastsInDim S16x4096x512 (![0, 1] : Fin 2 → Fin S16x4096x512.rank)
  gather_S16x4096_S16x4096x1_S16x4096_n_1_0_0_1_2_11_wf : GatherDims.WF S16x4096 S16x4096x1 S16x4096 [] [1] [0] [1] [0] 2 ![1, 1]
  scatter_S65552x512_S65536x1_S65536x512_1_0_0_1_wf : ScatterDims.WF S65552x512 S65536x1 S65536x512 [1] [0] [0] 1
  scatter_S65552_S65536x1_S65536_n_0_0_1_wf : ScatterDims.WF S65552 S65536x1 S65536 [] [0] [0] 1
  gather_S16x4096x512_S16x4096x1_S16x4096x512_2_1_0_0_1_2_11512_wf : GatherDims.WF S16x4096x512 S16x4096x1 S16x4096x512 [2] [1] [0] [1] [0] 2 ![1, 1, 512]

variable [Facts₀]

def gather_S16x4096_S16x4096x1_S16x4096_n_1_0_0_1_2_11 : GatherDims S16x4096 S16x4096x1 S16x4096 where
  offsetDims := []
  collapsedSliceDims := [1]
  operandBatchingDims := [0]
  startIndicesBatchingDims := [0]
  startIndexMap := [1]
  indexVectorDim := 2
  sliceSizes := ![1, 1]
  wf := gather_S16x4096_S16x4096x1_S16x4096_n_1_0_0_1_2_11_wf
def scatter_S65552x512_S65536x1_S65536x512_1_0_0_1 : ScatterDims S65552x512 S65536x1 S65536x512 where
  updateWindowDims := [1]
  insertedWindowDims := [0]
  scatterDimsToOperandDims := [0]
  indexVectorDim := 1
  wf := scatter_S65552x512_S65536x1_S65536x512_1_0_0_1_wf
def scatter_S65552_S65536x1_S65536_n_0_0_1 : ScatterDims S65552 S65536x1 S65536 where
  updateWindowDims := []
  insertedWindowDims := [0]
  scatterDimsToOperandDims := [0]
  indexVectorDim := 1
  wf := scatter_S65552_S65536x1_S65536_n_0_0_1_wf
def gather_S16x4096x512_S16x4096x1_S16x4096x512_2_1_0_0_1_2_11512 : GatherDims S16x4096x512 S16x4096x1 S16x4096x512 where
  offsetDims := [2]
  collapsedSliceDims := [1]
  operandBatchingDims := [0]
  startIndicesBatchingDims := [0]
  startIndexMap := [1]
  indexVectorDim := 2
  sliceSizes := ![1, 1, 512]
  wf := gather_S16x4096x512_S16x4096x1_S16x4096x512_2_1_0_0_1_2_11512_wf

class Facts : Prop extends Facts₀ where

variable [Facts]
-- ==== Proof.RefOps.lean ====
/-
  The reference program's @main as a list of its 133 host operations, in order: @main's own 68 statements with the
  body of every function it calls written out at the call, over that call's buffers (a called function that itself
  calls another is written out twice over).  The list is cut into eight consecutive stretches P0 … P7:
    P0  the validity mask, the positions, the running maximum, its shift by one, the clamp at 0       (%1 … %9)
    P1  the word id read along the row at the clamped shifted position                                  (%10)
    P2  the start-of-segment mask, its running sum, the segment id                                      (%11 … %20)
    P3  the global bucket id, the masked values, the bucket sums                                        (%21 … %33)
    P4  the bucket counts, the per-sample reshapes, the bucket means                                    (%34 … %46)
    P5  the clamped segment id as a column of indices                                                   (%47, %48)
    P6  the bucket means read back along the row                                                        (%49)
    P7  the invalid positions zeroed                                                                    (%50, %51)
  "main_eq" says @main IS that straight line; the rest are the side conditions of the run theorem: every operation
  touches TensorCore buffers only and none allocates.
-/
import proofs.«126040_j66219805770053_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape s and element type e. -/
local notation "𝒞[" s ", " e "]" => BufTy.Contents (Elt F) (BufTy.mk s e)

/-- %c … %9: valid = (W ≥ 0); pos = valid ? t : -1; the running maximum of pos along the row; that shifted right by
    one with -1 entering; its maximum with 0. -/
abbrev P0 : List (HloOp τ sig (Elt F)) :=
  [ nullary main_c (constantI S_ 32 0#32),
    unary main_c main_v0 (broadcastInDim S16x4096 ![] bcast_S_S16x4096 : 𝒞[S_, .i32] → 𝒞[S16x4096, .i32]),
    binary main_arg0 main_v0 main_v1 (cmpi .sge : 𝒞[S16x4096, .i32] → 𝒞[S16x4096, .i32] → 𝒞[S16x4096, .i1]),
    nullary main_v2 (iotaInDim S4096 32 0),
    unary main_v2 main_v3 (broadcastInDim S1x4096 ![1] bcast_S4096_S1x4096_1 : 𝒞[S4096, .i32] → 𝒞[S1x4096, .i32]),
    nullary main_c_0 (constantI S_ 32 4294967295#32),
    -- %4 = _where(%1, %3, %c_0)
    TRef.unary (.of main_c_0) main_call0.v0 id,
    TRef.unary (.of main_v3 : TRef sig ⟨S1x4096, .i32⟩) main_call0.v1 (broadcastInDim S16x4096 ![0, 1] bcast_S1x4096_S16x4096_0_1),
    TRef.unary main_call0.v0 main_call0.v2 (broadcastInDim S16x4096 ![] bcast_S_S16x4096),
    TRef.ternary (.of main_v1) main_call0.v1 main_call0.v2 main_call0.v3 select,
    -- %5 = cummax(%4)
    TRef.nullary main_call1.c (constantI S_ 32 2147483648#32),
    TRef.unary main_call1.c main_call1.v0 (broadcastInDim S_ ![] bcast_S_S_),
    TRef.binary (.of main_v4) main_call1.v0 main_call1.v1 (fun x v => Host.reduceWindow IntOp.maxsi ![1, 4096] ![1, 1] ![0, 4095] ![0, 0] x v reduceWindows_S16x4096_S16x4096_w1s1p0_0_w4096s1p4095_0 h_S_),
    nullary main_c_1 (constantI S_ 32 4294967295#32),
    unary main_c_1 main_v6 (broadcastInDim S16x1 ![] bcast_S_S16x1 : 𝒞[S_, .i32] → 𝒞[S16x1, .i32]),
    unary main_v5 main_v7 ((extractStridedSlice S16x4095 ![0, 0] · slices_S16x4096_S16x4095_0_0) : 𝒞[S16x4096, .i32] → 𝒞[S16x4095, .i32]),
    binary main_v6 main_v7 main_v8 ((fun a b => concatenate S16x4096 1 [⟨S16x1, a⟩, ⟨S16x4095, b⟩] concatenates_S16x1_S16x4095_S16x4096_d1) : 𝒞[S16x1, .i32] → 𝒞[S16x4095, .i32] → 𝒞[S16x4096, .i32]),
    nullary main_c_2 (constantI S_ 32 0#32),
    -- %9 = clip(%8, %c_2)
    TRef.unary (.of main_c_2) main_call2.v0 id,
    TRef.unary main_call2.v0 main_call2.v1 (broadcastInDim S16x4096 ![] bcast_S_S16x4096),
    TRef.binary main_call2.v1 (.of main_v8) main_call2.v2 maxsi ]

/-- %10 = take_along_axis(%arg0, %9): the index wrapped if negative, as a column of index vectors; whether it lies in
    [0, 4095]; the word ids gathered along the row; the out-of-range positions set to the least integer. -/
abbrev P1 : List (HloOp τ sig (Elt F)) :=
  [ TRef.nullary main_call3.c (constantI S_ 32 0#32),
    TRef.unary main_call3.c main_call3.v0 (broadcastInDim S16x4096 ![] bcast_S_S16x4096),
    TRef.binary (.of main_v9) main_call3.v0 main_call3.v1 (cmpi .slt),
    TRef.nullary main_call3.c_0 (constantI S_ 32 4096#32),
    TRef.unary main_call3.c_0 main_call3.v2 (broadcastInDim S16x4096 ![] bcast_S_S16x4096),
    TRef.binary (.of main_v9) main_call3.v2 main_call3.v3 addi,
    TRef.ternary main_call3.v1 main_call3.v3 (.of main_v9) main_call3.v4 select,
    TRef.reshape main_call3.v4 main_call3.v5 rfl shapeCasts_S16x4096_S16x4096x1,
    TRef.nullary main_call3.c_1 (constantI S1 32 4095#32),
    TRef.nullary main_call3.c_2 (constantI S_ 32 0#32),
    TRef.unary main_call3.c_2 main_call3.v6 (broadcastInDim S16x4096x1 ![] bcast_S_S16x4096x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S16x4096x1 ![0, 1, 2] bcast_S1x1x1_S16x4096x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16x4096x1_S16x4096_d2 h_S_),
    TRef.binary (.of main_arg0) main_call3.v5 main_call3.v13 (fun x i => Host.gather gather_S16x4096_S16x4096x1_S16x4096_n_1_0_0_1_2_11 x i),
    TRef.nullary main_call3.c_4 (constantI S_ 32 2147483648#32),
    TRef.unary main_call3.c_4 main_call3.v14 (broadcastInDim S16x4096 ![] bcast_S_S16x4096),
    TRef.ternary main_call3.v12 main_call3.v13 main_call3.v14 main_call3.v15 select ]

/-- %c_3 … %20: start = valid ∧ (shifted < 0 ∨ W ≠ previous word); its running sum along the row; minus one; 4096 at
    the invalid positions. -/
abbrev P2 : List (HloOp τ sig (Elt F)) :=
  [ nullary main_c_3 (constantI S_ 32 0#32),
    unary main_c_3 main_v11 (broadcastInDim S16x4096 ![] bcast_S_S16x4096 : 𝒞[S_, .i32] → 𝒞[S16x4096, .i32]),
    binary main_v8 main_v11 main_v12 (cmpi .slt : 𝒞[S16x4096, .i32] → 𝒞[S16x4096, .i32] → 𝒞[S16x4096, .i1]),
    binary main_arg0 main_v10 main_v13 (cmpi .ne : 𝒞[S16x4096, .i32] → 𝒞[S16x4096, .i32] → 𝒞[S16x4096, .i1]),
    binary main_v12 main_v13 main_v14 (ori : 𝒞[S16x4096, .i1] → 𝒞[S16x4096, .i1] → 𝒞[S16x4096, .i1]),
    binary main_v1 main_v14 main_v15 (andi : 𝒞[S16x4096, .i1] → 𝒞[S16x4096, .i1] → 𝒞[S16x4096, .i1]),
    unary main_v15 main_v16 ((extui 32 · natLt_1_32) : 𝒞[S16x4096, .i1] → 𝒞[S16x4096, .i32]),
    -- %17 = cumsum(%16), which is cumsum_0(%16)
    TRef.nullary main_call4.call0.c (constantI S_ 32 0#32),
    TRef.unary main_call4.call0.c main_call4.call0.v0 (broadcastInDim S_ ![] bcast_S_S_),
    TRef.binary (.of main_v16) main_call4.call0.v0 main_call4.call0.v1 (fun x v => Host.reduceWindow IntOp.addi ![1, 4096] ![1, 1] ![0, 4095] ![0, 0] x v reduceWindows_S16x4096_S16x4096_w1s1p0_0_w4096s1p4095_0 h_S_),
    nullary main_c_4 (constantI S_ 32 1#32),
    unary main_c_4 main_v18 (broadcastInDim S16x4096 ![] bcast_S_S16x4096 : 𝒞[S_, .i32] → 𝒞[S16x4096, .i32]),
    binary main_v17 main_v18 main_v19 (subi : 𝒞[S16x4096, .i32] → 𝒞[S16x4096, .i32] → 𝒞[S16x4096, .i32]),
    nullary main_c_5 (constantI S_ 32 4096#32),
    -- %20 = _where_1(%1, %19, %c_5)
    TRef.unary (.of main_c_5) main_call5.v0 id,
    TRef.unary main_call5.v0 main_call5.v1 (broadcastInDim S16x4096 ![] bcast_S_S16x4096),
    TRef.ternary (.of main_v1) (.of main_v19) main_call5.v1 main_call5.v2 select ]

/-- %21 … %33: gid = 4097·b + seg, flattened; the values zeroed at invalid positions, flattened; their sums by gid. -/
abbrev P3 : List (HloOp τ sig (Elt F)) :=
  [ nullary main_v21 (iotaInDim S16 32 0),
    unary main_v21 main_v22 (broadcastInDim S16x1 ![0] bcast_S16_S16x1_0 : 𝒞[S16, .i32] → 𝒞[S16x1, .i32]),
    nullary main_c_6 (constantI S_ 32 4097#32),
    unary main_c_6 main_v23 (broadcastInDim S16x1 ![] bcast_S_S16x1 : 𝒞[S_, .i32] → 𝒞[S16x1, .i32]),
    binary main_v22 main_v23 main_v24 (muli : 𝒞[S16x1, .i32] → 𝒞[S16x1, .i32] → 𝒞[S16x1, .i32]),
    unary main_v24 main_v25 (broadcastInDim S16x4096 ![0, 1] bcast_S16x1_S16x4096_0_1 : 𝒞[S16x1, .i32] → 𝒞[S16x4096, .i32]),
    binary main_v25 main_v20 main_v26 (addi : 𝒞[S16x4096, .i32] → 𝒞[S16x4096, .i32] → 𝒞[S16x4096, .i32]),
    reshape main_v26 main_v27 rfl shapeCasts_S16x4096_S65536,
    unary main_v1 main_v28 (broadcastInDim S16x4096x1 ![0, 1] bcast_S16x4096_S16x4096x1_0_1 : 𝒞[S16x4096, .i1] → 𝒞[S16x4096x1, .i1]),
    nullary main_cst (constant S_ .f32 0x00000000#32),
    -- %29 = _where_2(%28, %arg1, %cst)
    TRef.unary (.of main_cst) main_call6.v0 id,
    TRef.unary (.of main_v28 : TRef sig ⟨S16x4096x1, .i1⟩) main_call6.v1 (broadcastInDim S16x4096x512 ![0, 1, 2] bcast_S16x4096x1_S16x4096x512_0_1_2),
    TRef.unary main_call6.v0 main_call6.v2 (broadcastInDim S16x4096x512 ![] bcast_S_S16x4096x512),
    TRef.ternary main_call6.v1 (.of main_arg1) main_call6.v2 main_call6.v3 select,
    reshape main_v29 main_v30 rfl shapeCasts_S16x4096x512_S65536x512,
    nullary main_cst_7 (constant S_ .f32 0x00000000#32),
    unary main_cst_7 main_v31 (broadcastInDim S65552x512 ![] bcast_S_S65552x512 : 𝒞[S_, .f32] → 𝒞[S65552x512, .f32]),
    unary main_v27 main_v32 (broadcastInDim S65536x1 ![0] bcast_S65536_S65536x1_0 : 𝒞[S65536, .i32] → 𝒞[S65536x1, .i32]),
    ternary main_v31 main_v32 main_v30 main_v33 ((fun x i u => Host.scatterAdd scatter_S65552x512_S65536x1_S65536x512_1_0_0_1 x i u) : 𝒞[S65552x512, .f32] → 𝒞[S65536x1, .i32] → 𝒞[S65536x512, .f32] → 𝒞[S65552x512, .f32]) ]

/-- %34 … %c_10: the mask's sums by gid (the counts); sums and counts per sample with the last bucket dropped;
    the sums divided by max(1, count). -/
abbrev P4 : List (HloOp τ sig (Elt F)) :=
  [ unary main_v1 main_v34 (uitofp .f32 : 𝒞[S16x4096, .i1] → 𝒞[S16x4096, .f32]),
    reshape main_v34 main_v35 rfl shapeCasts_S16x4096_S65536,
    nullary main_cst_8 (constant S_ .f32 0x00000000#32),
    unary main_cst_8 main_v36 (broadcastInDim S65552 ![] bcast_S_S65552 : 𝒞[S_, .f32] → 𝒞[S65552, .f32]),
    unary main_v27 main_v37 (broadcastInDim S65536x1 ![0] bcast_S65536_S65536x1_0 : 𝒞[S65536, .i32] → 𝒞[S65536x1, .i32]),
    ternary main_v36 main_v37 main_v35 main_v38 ((fun x i u => Host.scatterAdd scatter_S65552_S65536x1_S65536_n_0_0_1 x i u) : 𝒞[S65552, .f32] → 𝒞[S65536x1, .i32] → 𝒞[S65536, .f32] → 𝒞[S65552, .f32]),
    reshape main_v33 main_v39 rfl shapeCasts_S65552x512_S16x4097x512,
    unary main_v39 main_v40 ((extractStridedSlice S16x4096x512 ![0, 0, 0] · slices_S16x4097x512_S16x4096x512_0_0_0) : 𝒞[S16x4097x512, .f32] → 𝒞[S16x4096x512, .f32]),
    reshape main_v38 main_v41 rfl shapeCasts_S65552_S16x4097,
    unary main_v41 main_v42 ((extractStridedSlice S16x4096 ![0, 0] · slices_S16x4097_S16x4096_0_0) : 𝒞[S16x4097, .f32] → 𝒞[S16x4096, .f32]),
    nullary main_cst_9 (constant S_ .f32 0x3F800000#32),
    -- %43 = clip_3(%42, %cst_9)
    TRef.unary (.of main_cst_9) main_call7.v0 id,
    TRef.unary main_call7.v0 main_call7.v1 (broadcastInDim S16x4096 ![] bcast_S_S16x4096),
    TRef.binary main_call7.v1 (.of main_v42) main_call7.v2 maximumf,
    unary main_v43 main_v44 (broadcastInDim S16x4096x1 ![0, 1] bcast_S16x4096_S16x4096x1_0_1 : 𝒞[S16x4096, .f32] → 𝒞[S16x4096x1, .f32]),
    unary main_v44 main_v45 (broadcastInDim S16x4096x512 ![0, 1, 2] bcast_S16x4096x1_S16x4096x512_0_1_2 : 𝒞[S16x4096x1, .f32] → 𝒞[S16x4096x512, .f32]),
    binary main_v40 main_v45 main_v46 (Host.divf : 𝒞[S16x4096x512, .f32] → 𝒞[S16x4096x512, .f32] → 𝒞[S16x4096x512, .f32]),
    nullary main_c_10 (constantI S_ 32 0#32) ]

/-- %c_11 … %48: the segment id clamped to [0, 4095], as a column of index vectors. -/
abbrev P5 : List (HloOp τ sig (Elt F)) :=
  [ nullary main_c_11 (constantI S_ 32 4095#32),
    -- %47 = clip_4(%20, %c_10, %c_11)
    TRef.unary (.of main_c_10) main_call8.v0 id,
    TRef.unary main_call8.v0 main_call8.v1 (broadcastInDim S16x4096 ![] bcast_S_S16x4096),
    TRef.binary main_call8.v1 (.of main_v20) main_call8.v2 maxsi,
    TRef.unary (.of main_c_11) main_call8.v3 id,
    TRef.unary main_call8.v3 main_call8.v4 (broadcastInDim S16x4096 ![] bcast_S_S16x4096),
    TRef.binary main_call8.v4 main_call8.v2 main_call8.v5 minsi,
    unary main_v47 main_v48 (broadcastInDim S16x4096x1 ![0, 1] bcast_S16x4096_S16x4096x1_0_1 : 𝒞[S16x4096, .i32] → 𝒞[S16x4096x1, .i32]) ]

/-- %49 = take_along_axis_5(%46, %48): the index wrapped if negative; whether it lies in [0, 4095]; the bucket means
    gathered along the row; the out-of-range positions set to the quiet NaN. -/
abbrev P6 : List (HloOp τ sig (Elt F)) :=
  [ TRef.nullary main_call9.c (constantI S_ 32 0#32),
    TRef.unary main_call9.c main_call9.v0 (broadcastInDim S16x4096x1 ![] bcast_S_S16x4096x1),
    TRef.binary (.of main_v48) main_call9.v0 main_call9.v1 (cmpi .slt),
    TRef.nullary main_call9.c_0 (constantI S_ 32 4096#32),
    TRef.unary main_call9.c_0 main_call9.v2 (broadcastInDim S16x4096x1 ![] bcast_S_S16x4096x1),
    TRef.binary (.of main_v48) main_call9.v2 main_call9.v3 addi,
    TRef.ternary main_call9.v1 main_call9.v3 (.of main_v48) main_call9.v4 select,
    TRef.nullary main_call9.c_1 (constantI S1 32 4095#32),
    TRef.nullary main_call9.c_2 (constantI S_ 32 0#32),
    TRef.unary main_call9.c_2 main_call9.v5 (broadcastInDim S16x4096x1 ![] bcast_S_S16x4096x1),
    TRef.binary main_call9.v4 main_call9.v5 main_call9.v6 (cmpi .sge),
    TRef.unary main_call9.c_1 main_call9.v7 (broadcastInDim S1x1x1 ![2] bcast_S1_S1x1x1_2),
    TRef.unary main_call9.v7 main_call9.v8 (broadcastInDim S16x4096x1 ![0, 1, 2] bcast_S1x1x1_S16x4096x1_0_1_2),
    TRef.binary main_call9.v4 main_call9.v8 main_call9.v9 (cmpi .sle),
    TRef.binary main_call9.v6 main_call9.v9 main_call9.v10 andi,
    TRef.nullary main_call9.c_3 (constantI S_ 1 1#1),
    TRef.binary main_call9.v10 main_call9.c_3 main_call9.v11 (fun x v => Host.reduce IntOp.andi x v reducesTo_S16x4096x1_S16x4096_d2 h_S_),
    TRef.binary (.of main_v46) main_call9.v4 main_call9.v12 (fun x i => Host.gather gather_S16x4096x512_S16x4096x1_S16x4096x512_2_1_0_0_1_2_11512 x i),
    TRef.unary main_call9.v11 main_call9.v13 (broadcastInDim S16x4096x512 ![0, 1] bcast_S16x4096_S16x4096x512_0_1),
    TRef.nullary main_call9.cst (constant S_ .f32 0x7FC00000#32),
    TRef.unary main_call9.cst main_call9.v14 (broadcastInDim S16x4096x512 ![] bcast_S_S16x4096x512),
    TRef.ternary main_call9.v13 main_call9.v12 main_call9.v14 main_call9.v15 select ]

/-- %50, %51 = _where_6(%50, %49, %cst_12): zero at the invalid positions. -/
abbrev P7 : List (HloOp τ sig (Elt F)) :=
  [ unary main_v1 main_v50 (broadcastInDim S16x4096x1 ![0, 1] bcast_S16x4096_S16x4096x1_0_1 : 𝒞[S16x4096, .i1] → 𝒞[S16x4096x1, .i1]),
    nullary main_cst_12 (constant S_ .f32 0x00000000#32),
    TRef.unary (.of main_cst_12) main_call10.v0 id,
    TRef.unary (.of main_v50 : TRef sig ⟨S16x4096x1, .i1⟩) main_call10.v1 (broadcastInDim S16x4096x512 ![0, 1, 2] bcast_S16x4096x1_S16x4096x512_0_1_2),
    TRef.unary main_call10.v0 main_call10.v2 (broadcastInDim S16x4096x512 ![] bcast_S_S16x4096x512),
    TRef.ternary main_call10.v1 (.of main_v49) main_call10.v2 main_call10.v3 select ]

/-- @main's 133 operations, in order. -/
abbrev ops : List (HloOp τ sig (Elt F)) := P0 ++ (P1 ++ (P2 ++ (P3 ++ (P4 ++ (P5 ++ (P6 ++ P7))))))

/-! ## @main is that straight line

Each window of @main, with the called functions' definitions unfolded at their calls and the call records at their
fields, is one chain of operation steps once sequencing is reassociated. -/

set_option maxRecDepth 16384 in
set_option maxHeartbeats 4000000 in
theorem main_part0_eq (c : Dev nD) :
    main_part0 (F := F) c = seq (P0 ++ (P1 ++ (P2 ++ (P3 ++ P4)))) := by
  simp only [main_part0, fn_where.body, fn_cummax.body, fn_clip.body, fn_take_along_axis.body, fn_cumsum.body,
    fn_cumsum_0.body, fn_where_1.body, fn_where_2.body, fn_clip_3.body, P0, P1, P2, P3, P4, List.cons_append,
    List.nil_append, seq, bind_assoc, pure_bind]
  rfl

set_option maxRecDepth 16384 in
set_option maxHeartbeats 4000000 in
theorem main_part1_eq (c : Dev nD) :
    main_part1 (F := F) c = seq (P5 ++ (P6 ++ P7)) := by
  simp only [main_part1, fn_clip_4.body, fn_take_along_axis_5.body, fn_where_6.body, P5, P6, P7, List.cons_append,
    List.nil_append, seq, bind_assoc, pure_bind] <;> rfl

theorem main_eq (c : Dev nD) : main (F := F) c = seq ops := by
  have h : (ops : List (HloOp τ sig (Elt F))) = (P0 ++ (P1 ++ (P2 ++ (P3 ++ P4)))) ++ (P5 ++ (P6 ++ P7)) := by
    simp only [ops, List.append_assoc]
  rw [h, seq_append, ← main_part0_eq c, ← main_part1_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem P0_sub : (P0 : List (HloOp τ sig (Elt F))).Forall fun op => op.bufs ⊆ tcRefs τ sig :=
  ⟨nullary_bufs_sub .., unary_bufs_sub .., binary_bufs_sub .., nullary_bufs_sub .., unary_bufs_sub .., nullary_bufs_sub ..,
    unary_bufs_sub .., unary_bufs_sub .., unary_bufs_sub .., ternary_bufs_sub ..,
    nullary_bufs_sub .., unary_bufs_sub .., binary_bufs_sub ..,
    nullary_bufs_sub .., unary_bufs_sub .., unary_bufs_sub .., binary_bufs_sub .., nullary_bufs_sub ..,
    unary_bufs_sub .., unary_bufs_sub .., binary_bufs_sub ..⟩

theorem P1_sub : (P1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem P2_sub : (P2 : List (HloOp τ sig (Elt F))).Forall fun op => op.bufs ⊆ tcRefs τ sig :=
  ⟨nullary_bufs_sub .., unary_bufs_sub .., binary_bufs_sub .., binary_bufs_sub .., binary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub ..⟩

theorem P3_sub : (P3 : List (HloOp τ sig (Elt F))).Forall fun op => op.bufs ⊆ tcRefs τ sig :=
  ⟨nullary_bufs_sub .., unary_bufs_sub .., nullary_bufs_sub .., unary_bufs_sub .., binary_bufs_sub .., unary_bufs_sub ..,
    binary_bufs_sub .., reshape_bufs_sub .., unary_bufs_sub .., nullary_bufs_sub ..,
    unary_bufs_sub .., unary_bufs_sub .., unary_bufs_sub .., ternary_bufs_sub ..,
    reshape_bufs_sub .., nullary_bufs_sub .., unary_bufs_sub .., unary_bufs_sub .., ternary_bufs_sub ..⟩

theorem P4_sub : (P4 : List (HloOp τ sig (Elt F))).Forall fun op => op.bufs ⊆ tcRefs τ sig :=
  ⟨unary_bufs_sub .., reshape_bufs_sub .., nullary_bufs_sub .., unary_bufs_sub .., unary_bufs_sub .., ternary_bufs_sub ..,
    reshape_bufs_sub .., unary_bufs_sub .., reshape_bufs_sub .., unary_bufs_sub .., nullary_bufs_sub ..,
    unary_bufs_sub .., unary_bufs_sub .., binary_bufs_sub ..,
    unary_bufs_sub .., unary_bufs_sub .., binary_bufs_sub .., nullary_bufs_sub ..⟩

theorem P5_sub : (P5 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub ..⟩

theorem P6_sub : (P6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem P7_sub : (P7 : List (HloOp τ sig (Elt F))).Forall fun op => op.bufs ⊆ tcRefs τ sig :=
  ⟨unary_bufs_sub .., nullary_bufs_sub .., unary_bufs_sub .., unary_bufs_sub .., unary_bufs_sub .., ternary_bufs_sub ..⟩

/-- Every operation of @main touches TensorCore buffers only. -/
theorem ops_sub : (ops : List (HloOp τ sig (Elt F))).Forall fun op => op.bufs ⊆ tcRefs τ sig := by
  simp only [ops, List.forall_append]
  exact ⟨P0_sub, P1_sub, P2_sub, P3_sub, P4_sub, P5_sub, P6_sub, P7_sub⟩

theorem P0_fresh : ∀ op ∈ (P0 : List (HloOp τ sig (Elt F))), op.fresh = ∅ := by
  intro _ h; (repeat (cases h with | head => rfl | tail _ h => ?_)); exact nomatch h
theorem P1_fresh : ∀ op ∈ (P1 : List (HloOp τ sig (Elt F))), op.fresh = ∅ := by
  intro _ h; (repeat (cases h with | head => rfl | tail _ h => ?_)); exact nomatch h
theorem P2_fresh : ∀ op ∈ (P2 : List (HloOp τ sig (Elt F))), op.fresh = ∅ := by
  intro _ h; (repeat (cases h with | head => rfl | tail _ h => ?_)); exact nomatch h
theorem P3_fresh : ∀ op ∈ (P3 : List (HloOp τ sig (Elt F))), op.fresh = ∅ := by
  intro _ h; (repeat (cases h with | head => rfl | tail _ h => ?_)); exact nomatch h
theorem P4_fresh : ∀ op ∈ (P4 : List (HloOp τ sig (Elt F))), op.fresh = ∅ := by
  intro _ h; (repeat (cases h with | head => rfl | tail _ h => ?_)); exact nomatch h
theorem P5_fresh : ∀ op ∈ (P5 : List (HloOp τ sig (Elt F))), op.fresh = ∅ := by
  intro _ h; (repeat (cases h with | head => rfl | tail _ h => ?_)); exact nomatch h
theorem P6_fresh : ∀ op ∈ (P6 : List (HloOp τ sig (Elt F))), op.fresh = ∅ := by
  intro _ h; (repeat (cases h with | head => rfl | tail _ h => ?_)); exact nomatch h
theorem P7_fresh : ∀ op ∈ (P7 : List (HloOp τ sig (Elt F))), op.fresh = ∅ := by
  intro _ h; (repeat (cases h with | head => rfl | tail _ h => ?_)); exact nomatch h

/-- No operation of @main allocates: each determines its results. -/
theorem ops_fresh : ∀ op ∈ (ops : List (HloOp τ sig (Elt F))), op.fresh = ∅ := by
  intro op h
  simp only [ops, List.mem_append] at h
  rcases h with h | h | h | h | h | h | h | h
  exacts [P0_fresh op h, P1_fresh op h, P2_fresh op h, P3_fresh op h, P4_fresh op h, P5_fresh op h, P6_fresh op h,
    P7_fresh op h]

end Cert.ReferenceIdeal.RefValue

end
-- ==== Proof.SegChain.lean ====
import proofs.«126040_j66219805770053_2_alg».proof.ReferenceIdeal

/-!
# The segment-id chain as a composition of host operations

Both programs compute, from the word ids `W : i32[16, 4096]` (`-1` marks padding), a segment id per position:

* `valid  = (W ≥ 0)`
* `tpos   = valid ? position : -1`
* `lastv  = running signed maximum of tpos along the row` (the last valid position at or before `t`, or `-1`)
* `prev   = lastv shifted right by one along the row, `-1` entering at column 0`
* `previd = W read along the row at `max 0 prev``
* `newseg = valid ∧ (prev < 0 ∨ W ≠ previd)`
* `c      = running sum of newseg along the row`
* `seg    = valid ? c - 1 : 4096`

Each definition below is ONE operation applied to earlier definitions, with the operation, the shapes and the
side-condition evidence written exactly as in the generated program text; the stages inside a called function carry
the caller's stage number and the callee's value name (`s10_v5` is value `%5` of the function whose result is `%10`).
-/

noncomputable section

namespace Cert.Seg

open Idealize.ShloMosaic
open Cert.ReferenceIdeal
open Cert.ReferenceIdeal.Facts₀ Cert.ReferenceIdeal.Facts

variable [Cert.ReferenceIdeal.Facts]

/-- The word ids: a 32-bit word at every (row, position). -/
abbrev Words : Type := IVec S16x4096 32

/-! ## valid = (W ≥ 0) -/
def s_c : IVec S_ 32 := constantI S_ 32 0#32
def s0 : IVec S16x4096 32 := broadcastInDim S16x4096 ![] bcast_S_S16x4096 s_c
def s1 (W : Words) : IVec S16x4096 1 := cmpi .sge W s0

/-! ## tpos = valid ? position : -1 -/
def s2 : IVec S4096 32 := iotaInDim S4096 32 0
def s3 : IVec S1x4096 32 := broadcastInDim S1x4096 ![1] bcast_S4096_S1x4096_1 s2
def s_c_0 : IVec S_ 32 := constantI S_ 32 4294967295#32
def s4_v0 : IVec S_ 32 := id s_c_0
def s4_v1 : IVec S16x4096 32 := broadcastInDim S16x4096 ![0, 1] bcast_S1x4096_S16x4096_0_1 s3
def s4_v2 : IVec S16x4096 32 := broadcastInDim S16x4096 ![] bcast_S_S16x4096 s4_v0
def s4 (W : Words) : IVec S16x4096 32 := select (s1 W) s4_v1 s4_v2

/-! ## lastv = running maximum of tpos -/
def s5_c : IVec S_ 32 := constantI S_ 32 2147483648#32
def s5_v0 : IVec S_ 32 := broadcastInDim S_ ![] bcast_S_S_ s5_c
def s5 (W : Words) : IVec S16x4096 32 :=
  Host.reduceWindow IntOp.maxsi ![1, 4096] ![1, 1] ![0, 4095] ![0, 0] (s4 W) s5_v0
    reduceWindows_S16x4096_S16x4096_w1s1p0_0_w4096s1p4095_0 h_S_

/-! ## prev = lastv shifted by one, -1 entering -/
def s_c_1 : IVec S_ 32 := constantI S_ 32 4294967295#32
def s6 : IVec S16x1 32 := broadcastInDim S16x1 ![] bcast_S_S16x1 s_c_1
def s7 (W : Words) : IVec S16x4095 32 := extractStridedSlice S16x4095 ![0, 0] (s5 W) slices_S16x4096_S16x4095_0_0
def s8 (W : Words) : IVec S16x4096 32 :=
  concatenate S16x4096 1 [⟨S16x1, s6⟩, ⟨S16x4095, s7 W⟩] concatenates_S16x1_S16x4095_S16x4096_d1

/-! ## pclip = max 0 prev -/
def s_c_2 : IVec S_ 32 := constantI S_ 32 0#32
def s9_v0 : IVec S_ 32 := id s_c_2
def s9_v1 : IVec S16x4096 32 := broadcastInDim S16x4096 ![] bcast_S_S16x4096 s9_v0
def s9 (W : Words) : IVec S16x4096 32 := maxsi s9_v1 (s8 W)

/-! ## previd = W read along the row at pclip -/
def s10_c : IVec S_ 32 := constantI S_ 32 0#32
def s10_v0 : IVec S16x4096 32 := broadcastInDim S16x4096 ![] bcast_S_S16x4096 s10_c
def s10_v1 (W : Words) : IVec S16x4096 1 := cmpi .slt (s9 W) s10_v0
def s10_c_0 : IVec S_ 32 := constantI S_ 32 4096#32
def s10_v2 : IVec S16x4096 32 := broadcastInDim S16x4096 ![] bcast_S_S16x4096 s10_c_0
def s10_v3 (W : Words) : IVec S16x4096 32 := addi (s9 W) s10_v2
def s10_v4 (W : Words) : IVec S16x4096 32 := select (s10_v1 W) (s10_v3 W) (s9 W)
def s10_v5 (W : Words) : IVec S16x4096x1 32 := shapeCast S16x4096x1 (s10_v4 W) shapeCasts_S16x4096_S16x4096x1
def s10_c_1 : IVec S1 32 := constantI S1 32 4095#32
def s10_c_2 : IVec S_ 32 := constantI S_ 32 0#32
def s10_v6 : IVec S16x4096x1 32 := broadcastInDim S16x4096x1 ![] bcast_S_S16x4096x1 s10_c_2
def s10_v7 (W : Words) : IVec S16x4096x1 1 := cmpi .sge (s10_v5 W) s10_v6
def s10_v8 : IVec S1x1x1 32 := broadcastInDim S1x1x1 ![2] bcast_S1_S1x1x1_2 s10_c_1
def s10_v9 : IVec S16x4096x1 32 := broadcastInDim S16x4096x1 ![0, 1, 2] bcast_S1x1x1_S16x4096x1_0_1_2 s10_v8
def s10_v10 (W : Words) : IVec S16x4096x1 1 := cmpi .sle (s10_v5 W) s10_v9
def s10_v11 (W : Words) : IVec S16x4096x1 1 := andi (s10_v7 W) (s10_v10 W)
def s10_c_3 : IVec S_ 1 := constantI S_ 1 1#1
def s10_v12 (W : Words) : IVec S16x4096 1 :=
  Host.reduce IntOp.andi (s10_v11 W) s10_c_3 reducesTo_S16x4096x1_S16x4096_d2 h_S_
def s10_v13 (W : Words) : IVec S16x4096 32 :=
  Host.gather gather_S16x4096_S16x4096x1_S16x4096_n_1_0_0_1_2_11 W (s10_v5 W)
def s10_c_4 : IVec S_ 32 := constantI S_ 32 2147483648#32
def s10_v14 : IVec S16x4096 32 := broadcastInDim S16x4096 ![] bcast_S_S16x4096 s10_c_4
def s10 (W : Words) : IVec S16x4096 32 := select (s10_v12 W) (s10_v13 W) s10_v14

/-! ## newseg = valid ∧ (prev < 0 ∨ W ≠ previd) -/
def s_c_3 : IVec S_ 32 := constantI S_ 32 0#32
def s11 : IVec S16x4096 32 := broadcastInDim S16x4096 ![] bcast_S_S16x4096 s_c_3
def s12 (W : Words) : IVec S16x4096 1 := cmpi .slt (s8 W) s11
def s13 (W : Words) : IVec S16x4096 1 := cmpi .ne W (s10 W)
def s14 (W : Words) : IVec S16x4096 1 := ori (s12 W) (s13 W)
def s15 (W : Words) : IVec S16x4096 1 := andi (s1 W) (s14 W)

/-! ## c = running sum of newseg -/
def s16 (W : Words) : IVec S16x4096 32 := extui 32 (s15 W) natLt_1_32
def s17_c : IVec S_ 32 := constantI S_ 32 0#32
def s17_v0 : IVec S_ 32 := broadcastInDim S_ ![] bcast_S_S_ s17_c
def s17 (W : Words) : IVec S16x4096 32 :=
  Host.reduceWindow IntOp.addi ![1, 4096] ![1, 1] ![0, 4095] ![0, 0] (s16 W) s17_v0
    reduceWindows_S16x4096_S16x4096_w1s1p0_0_w4096s1p4095_0 h_S_

/-! ## seg = valid ? c - 1 : 4096 -/
def s_c_4 : IVec S_ 32 := constantI S_ 32 1#32
def s18 : IVec S16x4096 32 := broadcastInDim S16x4096 ![] bcast_S_S16x4096 s_c_4
def s19 (W : Words) : IVec S16x4096 32 := subi (s17 W) s18
def s_c_5 : IVec S_ 32 := constantI S_ 32 4096#32
def s20_v0 : IVec S_ 32 := id s_c_5
def s20_v1 : IVec S16x4096 32 := broadcastInDim S16x4096 ![] bcast_S_S16x4096 s20_v0
def s20 (W : Words) : IVec S16x4096 32 := select (s1 W) (s19 W) s20_v1

/-- The validity mask of the word ids: bit 1 where the id is non-negative. -/
def validOf (W : Words) : IVec S16x4096 1 := s1 W
/-- The segment ids of the word ids. -/
def segOf (W : Words) : IVec S16x4096 32 := s20 W

end Cert.Seg
-- ==== Proof.RefWin0.lean ====
/-
  What the first stretch of the reference's operations (the validity mask, the positions, their running maximum,
  its shift by one, the clamp at 0) leaves in the buffers later stretches read, from ANY contents V before it: each
  is the corresponding stage of the segment-id chain applied to the word ids V holds; the arguments are unchanged.
  The stretch is read in three pieces, before the concatenation, the concatenation alone, and after it: the
  concatenation's operands sit inside a list of (shape, contents) pairs, so its result is read off directly.
-/
import proofs.«126040_j66219805770053_2_alg».proof.Proof.RefOps
import proofs.«126040_j66219805770053_2_alg».proof.Proof.SegChain
import Idealize.ShloMosaic.Lib.Pipeline.Frame

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

/-- The contents of a buffer of shape s and element type e. -/
local notation "𝒞[" s ", " e "]" => BufTy.Contents (Elt F) (BufTy.mk s e)

/-- %c … %7: up to the shifted running maximum's two pieces. -/
abbrev P0a : List (HloOp τ sig (Elt F)) :=
  [ nullary main_c (constantI S_ 32 0#32),
    unary main_c main_v0 (broadcastInDim S16x4096 ![] bcast_S_S16x4096 : 𝒞[S_, .i32] → 𝒞[S16x4096, .i32]),
    binary main_arg0 main_v0 main_v1 (cmpi .sge : 𝒞[S16x4096, .i32] → 𝒞[S16x4096, .i32] → 𝒞[S16x4096, .i1]),
    nullary main_v2 (iotaInDim S4096 32 0),
    unary main_v2 main_v3 (broadcastInDim S1x4096 ![1] bcast_S4096_S1x4096_1 : 𝒞[S4096, .i32] → 𝒞[S1x4096, .i32]),
    nullary main_c_0 (constantI S_ 32 4294967295#32),
    TRef.unary (.of main_c_0) main_call0.v0 id,
    TRef.unary (.of main_v3 : TRef sig ⟨S1x4096, .i32⟩) main_call0.v1 (broadcastInDim S16x4096 ![0, 1] bcast_S1x4096_S16x4096_0_1),
    TRef.unary main_call0.v0 main_call0.v2 (broadcastInDim S16x4096 ![] bcast_S_S16x4096),
    TRef.ternary (.of main_v1) main_call0.v1 main_call0.v2 main_call0.v3 select,
    TRef.nullary main_call1.c (constantI S_ 32 2147483648#32),
    TRef.unary main_call1.c main_call1.v0 (broadcastInDim S_ ![] bcast_S_S_),
    TRef.binary (.of main_v4) main_call1.v0 main_call1.v1 (fun x v => Host.reduceWindow IntOp.maxsi ![1, 4096] ![1, 1] ![0, 4095] ![0, 0] x v reduceWindows_S16x4096_S16x4096_w1s1p0_0_w4096s1p4095_0 h_S_),
    nullary main_c_1 (constantI S_ 32 4294967295#32),
    unary main_c_1 main_v6 (broadcastInDim S16x1 ![] bcast_S_S16x1 : 𝒞[S_, .i32] → 𝒞[S16x1, .i32]),
    unary main_v5 main_v7 ((extractStridedSlice S16x4095 ![0, 0] · slices_S16x4096_S16x4095_0_0) : 𝒞[S16x4096, .i32] → 𝒞[S16x4095, .i32]) ]

/-- %8 alone: the column of -1 followed by the first 4095 columns of the running maximum. -/
abbrev Pc : List (HloOp τ sig (Elt F)) :=
  [ binary main_v6 main_v7 main_v8 ((fun a b => concatenate S16x4096 1 [⟨S16x1, a⟩, ⟨S16x4095, b⟩] concatenates_S16x1_S16x4095_S16x4096_d1) : 𝒞[S16x1, .i32] → 𝒞[S16x4095, .i32] → 𝒞[S16x4096, .i32]) ]

/-- %c_2 … %9: the maximum with 0. -/
abbrev P0b : List (HloOp τ sig (Elt F)) :=
  [ nullary main_c_2 (constantI S_ 32 0#32),
    TRef.unary (.of main_c_2) main_call2.v0 id,
    TRef.unary main_call2.v0 main_call2.v1 (broadcastInDim S16x4096 ![] bcast_S_S16x4096),
    TRef.binary main_call2.v1 (.of main_v8) main_call2.v2 maxsi ]

theorem P0_split : (P0 : List (HloOp τ sig (Elt F))) = P0a ++ (Pc ++ P0b) := rfl

/-- The concatenation of a 16×1 and a 16×4095 array along the row. -/
def cat (a : IVec S16x1 32) (b : IVec S16x4095 32) : IVec S16x4096 32 :=
  concatenate S16x4096 1 [⟨S16x1, a⟩, ⟨S16x4095, b⟩] concatenates_S16x1_S16x4095_S16x4096_d1

theorem s8_eq_cat (W : Cert.Seg.Words) : Cert.Seg.s8 W = cat Cert.Seg.s6 (Cert.Seg.s7 W) := rfl

/-! ### before the concatenation -/

theorem P0a_v1 (V : Valuation τ sig (Elt F)) : after P0a V ⟪main_v1⟫ = Cert.Seg.s1 (V ⟪main_arg0⟫) := by
  simp only [P0a]
  after_results_simp
  rfl

theorem P0a_v6 (V : Valuation τ sig (Elt F)) : after P0a V ⟪main_v6⟫ = Cert.Seg.s6 := by
  simp only [P0a]
  after_results_simp
  rfl

theorem P0a_v7 (V : Valuation τ sig (Elt F)) : after P0a V ⟪main_v7⟫ = Cert.Seg.s7 (V ⟪main_arg0⟫) := by
  simp only [P0a]
  after_results_simp
  rfl

theorem P0a_arg0 (V : Valuation τ sig (Elt F)) : after P0a V ⟪main_arg0⟫ = V ⟪main_arg0⟫ := by
  simp only [P0a]
  after_results_simp

theorem P0a_arg1 (V : Valuation τ sig (Elt F)) : after P0a V ⟪main_arg1⟫ = V ⟪main_arg1⟫ := by
  simp only [P0a]
  after_results_simp

/-! ### the concatenation -/

theorem Pc_v8 (V : Valuation τ sig (Elt F)) : after Pc V ⟪main_v8⟫ = cat (V ⟪main_v6⟫) (V ⟪main_v7⟫) := by
  simp only [Pc, after_cons, after_nil]
  exact binary_result main_v6 main_v7 main_v8 _ _ _ _ V

theorem Pc_keep (V : Valuation τ sig (Elt F)) {r : Ref sig .tc} (h : r ≠ main_v8) : after Pc V ⟪r⟫ = V ⟪r⟫ := by
  simp only [Pc, after_cons, after_nil]
  exact binary_result_ne main_v6 main_v7 main_v8 _ _ _ _ V h

/-! ### after the concatenation -/

theorem P0b_v9 (V : Valuation τ sig (Elt F)) (W : Cert.Seg.Words) (h8 : V ⟪main_v8⟫ = Cert.Seg.s8 W) :
    after P0b V ⟪main_v9⟫ = Cert.Seg.s9 W := by
  simp only [P0b]
  after_results_simp
  simp only [h8]
  rfl

theorem P0b_v1 (V : Valuation τ sig (Elt F)) : after P0b V ⟪main_v1⟫ = V ⟪main_v1⟫ := by
  simp only [P0b]
  after_results_simp

theorem P0b_v8 (V : Valuation τ sig (Elt F)) : after P0b V ⟪main_v8⟫ = V ⟪main_v8⟫ := by
  simp only [P0b]
  after_results_simp

theorem P0b_arg0 (V : Valuation τ sig (Elt F)) : after P0b V ⟪main_arg0⟫ = V ⟪main_arg0⟫ := by
  simp only [P0b]
  after_results_simp

theorem P0b_arg1 (V : Valuation τ sig (Elt F)) : after P0b V ⟪main_arg1⟫ = V ⟪main_arg1⟫ := by
  simp only [P0b]
  after_results_simp

/-! ### the whole stretch -/

theorem after_P0 (V : Valuation τ sig (Elt F)) : after P0 V = after P0b (after Pc (after P0a V)) := by
  rw [P0_split, after_append, after_append]

theorem P0_arg0 (V : Valuation τ sig (Elt F)) : after P0 V ⟪main_arg0⟫ = V ⟪main_arg0⟫ := by
  rw [after_P0, P0b_arg0, Pc_keep _ (by decide), P0a_arg0]

theorem P0_arg1 (V : Valuation τ sig (Elt F)) : after P0 V ⟪main_arg1⟫ = V ⟪main_arg1⟫ := by
  rw [after_P0, P0b_arg1, Pc_keep _ (by decide), P0a_arg1]

theorem P0_v1 (V : Valuation τ sig (Elt F)) : after P0 V ⟪main_v1⟫ = Cert.Seg.s1 (V ⟪main_arg0⟫) := by
  rw [after_P0, P0b_v1, Pc_keep _ (by decide), P0a_v1]

theorem P0_v8 (V : Valuation τ sig (Elt F)) : after P0 V ⟪main_v8⟫ = Cert.Seg.s8 (V ⟪main_arg0⟫) := by
  rw [after_P0, P0b_v8, Pc_v8, P0a_v6, P0a_v7, s8_eq_cat]

theorem P0_v9 (V : Valuation τ sig (Elt F)) : after P0 V ⟪main_v9⟫ = Cert.Seg.s9 (V ⟪main_arg0⟫) := by
  rw [after_P0]
  refine P0b_v9 _ _ ?_
  rw [Pc_v8, P0a_v6, P0a_v7, s8_eq_cat]

end Cert.ReferenceIdeal.RefValue

end
-- ==== Proof.RefWin1.lean ====
/-
  What the second stretch of the reference's operations (the word id read along the row at the clamped, shifted
  running maximum) leaves in the buffer later stretches read, from any contents V that holds the word ids W and the
  clamped position: the previous word id, as the segment-id chain defines it.  The buffers it does not write keep
  their contents.
-/
import proofs.«126040_j66219805770053_2_alg».proof.Proof.RefOps
import proofs.«126040_j66219805770053_2_alg».proof.Proof.SegChain

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P1_v10 (V : Valuation τ sig (Elt F)) (W : Cert.Seg.Words) (h0 : V ⟪main_arg0⟫ = W)
    (h9 : V ⟪main_v9⟫ = Cert.Seg.s9 W) : after P1 V ⟪main_v10⟫ = Cert.Seg.s10 W := by
  subst h0
  simp only [P1]
  after_results_simp
  simp only [h9]
  rfl

theorem P1_arg0 (V : Valuation τ sig (Elt F)) : after P1 V ⟪main_arg0⟫ = V ⟪main_arg0⟫ := by
  simp only [P1]
  after_results_simp

theorem P1_arg1 (V : Valuation τ sig (Elt F)) : after P1 V ⟪main_arg1⟫ = V ⟪main_arg1⟫ := by
  simp only [P1]
  after_results_simp

theorem P1_v1 (V : Valuation τ sig (Elt F)) : after P1 V ⟪main_v1⟫ = V ⟪main_v1⟫ := by
  simp only [P1]
  after_results_simp

theorem P1_v8 (V : Valuation τ sig (Elt F)) : after P1 V ⟪main_v8⟫ = V ⟪main_v8⟫ := by
  simp only [P1]
  after_results_simp

end Cert.ReferenceIdeal.RefValue

end
-- ==== Proof.RefWin2.lean ====
/-
  What the third stretch of the reference's operations (the start-of-segment mask, its running sum, the segment
  id) leaves in the buffer later stretches read, from any contents V that holds the word ids W, the validity mask,
  the shifted running maximum and the previous word id: the segment id, as the segment-id chain defines it.
-/
import proofs.«126040_j66219805770053_2_alg».proof.Proof.RefOps
import proofs.«126040_j66219805770053_2_alg».proof.Proof.SegChain

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P2_v20 (V : Valuation τ sig (Elt F)) (W : Cert.Seg.Words) (h0 : V ⟪main_arg0⟫ = W)
    (h1 : V ⟪main_v1⟫ = Cert.Seg.s1 W) (h8 : V ⟪main_v8⟫ = Cert.Seg.s8 W) (h10 : V ⟪main_v10⟫ = Cert.Seg.s10 W) :
    after P2 V ⟪main_v20⟫ = Cert.Seg.s20 W := by
  subst h0
  simp only [P2]
  after_results_simp
  simp only [h1, h8, h10]
  rfl

theorem P2_arg0 (V : Valuation τ sig (Elt F)) : after P2 V ⟪main_arg0⟫ = V ⟪main_arg0⟫ := by
  simp only [P2]
  after_results_simp

theorem P2_arg1 (V : Valuation τ sig (Elt F)) : after P2 V ⟪main_arg1⟫ = V ⟪main_arg1⟫ := by
  simp only [P2]
  after_results_simp

theorem P2_v1 (V : Valuation τ sig (Elt F)) : after P2 V ⟪main_v1⟫ = V ⟪main_v1⟫ := by
  simp only [P2]
  after_results_simp

end Cert.ReferenceIdeal.RefValue

end
-- ==== Proof.RefTail.lean ====
/-
  The reference's later stages as pure functions.  Given the validity mask `valid` (word id ≥ 0), the segment ids
  `seg` and the values `X`, the reference forms the global bucket id  gid[b,t] = 4097·b + seg[b,t],  adds the masked
  values (and the mask itself) into 16·4097 buckets, drops each sample's last bucket, divides the bucket sums by
  max(1, bucket count), reads bucket clip(seg, 0, 4095) back at every position and zeroes the invalid positions.
  Each definition below is ONE operation of that computation applied to earlier ones.
-/
import proofs.«126040_j66219805770053_2_alg».proof.ReferenceIdeal

noncomputable section

namespace Cert.RefTail

open Idealize.ShloMosaic Cert.ReferenceIdeal
open Cert.ReferenceIdeal.Facts₀ Cert.ReferenceIdeal.Facts

variable {F : FTy → Type} [FloatOps F] [Cert.ReferenceIdeal.Facts]

/-- 4097·b, as a column. -/
def rowBase : IVec S16x1 32 :=
  muli (broadcastInDim S16x1 ![0] bcast_S16_S16x1_0 (iotaInDim S16 32 0))
    (broadcastInDim S16x1 ![] bcast_S_S16x1 (constantI S_ 32 4097#32))

/-- gid[b,t] = 4097·b + seg[b,t]. -/
def gid2 (seg : IVec S16x4096 32) : IVec S16x4096 32 :=
  addi (broadcastInDim S16x4096 ![0, 1] bcast_S16x1_S16x4096_0_1 rowBase) seg

/-- gid flattened over (b,t). -/
def gid (seg : IVec S16x4096 32) : IVec S65536 32 :=
  shapeCast S65536 (gid2 seg) shapeCasts_S16x4096_S65536

/-- the bucket index of every flattened position, as a column of index vectors. -/
def gidCol (seg : IVec S16x4096 32) : IVec S65536x1 32 :=
  broadcastInDim S65536x1 ![0] bcast_S65536_S65536x1_0 (gid seg)

/-- the mask along a trailing unit axis. -/
def validCol (valid : IVec S16x4096 1) : IVec S16x4096x1 1 :=
  broadcastInDim S16x4096x1 ![0, 1] bcast_S16x4096_S16x4096x1_0_1 valid

/-- the values, zero at invalid positions. -/
def masked (valid : IVec S16x4096 1) (X : FVec F S16x4096x512 .f32) : FVec F S16x4096x512 .f32 :=
  select (broadcastInDim S16x4096x512 ![0, 1, 2] bcast_S16x4096x1_S16x4096x512_0_1_2 (validCol valid)) X
    (broadcastInDim S16x4096x512 ![] bcast_S_S16x4096x512 (id (constant S_ .f32 0x00000000#32)))

/-- the masked values with (b,t) flattened. -/
def maskedFlat (valid : IVec S16x4096 1) (X : FVec F S16x4096x512 .f32) : FVec F S65536x512 .f32 :=
  shapeCast S65536x512 (masked valid X) shapeCasts_S16x4096x512_S65536x512

/-- the bucket sums. -/
def sums (valid : IVec S16x4096 1) (seg : IVec S16x4096 32) (X : FVec F S16x4096x512 .f32) : FVec F S65552x512 .f32 :=
  Host.scatterAdd scatter_S65552x512_S65536x1_S65536x512_1_0_0_1
    (broadcastInDim S65552x512 ![] bcast_S_S65552x512 (constant S_ .f32 0x00000000#32)) (gidCol seg) (maskedFlat valid X)

/-- the mask as floats, flattened. -/
def validFlat (valid : IVec S16x4096 1) : FVec F S65536 .f32 :=
  shapeCast S65536 (uitofp .f32 valid : FVec F S16x4096 .f32) shapeCasts_S16x4096_S65536

/-- the bucket counts. -/
def counts (valid : IVec S16x4096 1) (seg : IVec S16x4096 32) : FVec F S65552 .f32 :=
  Host.scatterAdd scatter_S65552_S65536x1_S65536_n_0_0_1
    (broadcastInDim S65552 ![] bcast_S_S65552 (constant S_ .f32 0x00000000#32)) (gidCol seg) (validFlat valid)

/-- the bucket sums per sample, the last bucket dropped. -/
def sums3 (valid : IVec S16x4096 1) (seg : IVec S16x4096 32) (X : FVec F S16x4096x512 .f32) : FVec F S16x4096x512 .f32 :=
  extractStridedSlice S16x4096x512 ![0, 0, 0]
    (shapeCast S16x4097x512 (sums valid seg X) shapeCasts_S65552x512_S16x4097x512) slices_S16x4097x512_S16x4096x512_0_0_0

/-- the bucket counts per sample, the last bucket dropped. -/
def counts2 (valid : IVec S16x4096 1) (seg : IVec S16x4096 32) : FVec F S16x4096 .f32 :=
  extractStridedSlice S16x4096 ![0, 0]
    (shapeCast S16x4097 (counts (F := F) valid seg) shapeCasts_S65552_S16x4097) slices_S16x4097_S16x4096_0_0

/-- max(1, count). -/
def denom (valid : IVec S16x4096 1) (seg : IVec S16x4096 32) : FVec F S16x4096 .f32 :=
  maximumf (broadcastInDim S16x4096 ![] bcast_S_S16x4096 (id (constant S_ .f32 0x3F800000#32))) (counts2 valid seg)

/-- the bucket means. -/
def agg (valid : IVec S16x4096 1) (seg : IVec S16x4096 32) (X : FVec F S16x4096x512 .f32) : FVec F S16x4096x512 .f32 :=
  Host.divf (sums3 valid seg X)
    (broadcastInDim S16x4096x512 ![0, 1, 2] bcast_S16x4096x1_S16x4096x512_0_1_2
      (broadcastInDim S16x4096x1 ![0, 1] bcast_S16x4096_S16x4096x1_0_1 (denom valid seg)))

/-- clip(seg, 0, 4095). -/
def segClip (seg : IVec S16x4096 32) : IVec S16x4096 32 :=
  minsi (broadcastInDim S16x4096 ![] bcast_S_S16x4096 (id (constantI S_ 32 4095#32)))
    (maxsi (broadcastInDim S16x4096 ![] bcast_S_S16x4096 (id (constantI S_ 32 0#32))) seg)

/-- the bucket to read back at each position, as a column of index vectors. -/
def segCol (seg : IVec S16x4096 32) : IVec S16x4096x1 32 :=
  broadcastInDim S16x4096x1 ![0, 1] bcast_S16x4096_S16x4096x1_0_1 (segClip seg)

/-- the read-back index after the wrap of negative indices. -/
def takeIdx (seg : IVec S16x4096 32) : IVec S16x4096x1 32 :=
  select (cmpi .slt (segCol seg) (broadcastInDim S16x4096x1 ![] bcast_S_S16x4096x1 (constantI S_ 32 0#32)))
    (addi (segCol seg) (broadcastInDim S16x4096x1 ![] bcast_S_S16x4096x1 (constantI S_ 32 4096#32))) (segCol seg)

/-- whether the read-back index lies in [0, 4095]. -/
def takeInb (seg : IVec S16x4096 32) : IVec S16x4096 1 :=
  Host.reduce IntOp.andi
    (andi (cmpi .sge (takeIdx seg) (broadcastInDim S16x4096x1 ![] bcast_S_S16x4096x1 (constantI S_ 32 0#32)))
      (cmpi .sle (takeIdx seg) (broadcastInDim S16x4096x1 ![0, 1, 2] bcast_S1x1x1_S16x4096x1_0_1_2
        (broadcastInDim S1x1x1 ![2] bcast_S1_S1x1x1_2 (constantI S1 32 4095#32)))))
    (constantI S_ 1 1#1) reducesTo_S16x4096x1_S16x4096_d2 h_S_

/-- the bucket means read back at every position. -/
def taken (valid : IVec S16x4096 1) (seg : IVec S16x4096 32) (X : FVec F S16x4096x512 .f32) : FVec F S16x4096x512 .f32 :=
  select (broadcastInDim S16x4096x512 ![0, 1] bcast_S16x4096_S16x4096x512_0_1 (takeInb seg))
    (Host.gather gather_S16x4096x512_S16x4096x1_S16x4096x512_2_1_0_0_1_2_11512 (agg valid seg X) (takeIdx seg))
    (broadcastInDim S16x4096x512 ![] bcast_S_S16x4096x512 (constant S_ .f32 0x7FC00000#32))

/-- the reference's result: the read-back means, zero at invalid positions. -/
def out (valid : IVec S16x4096 1) (seg : IVec S16x4096 32) (X : FVec F S16x4096x512 .f32) : FVec F S16x4096x512 .f32 :=
  select (broadcastInDim S16x4096x512 ![0, 1, 2] bcast_S16x4096x1_S16x4096x512_0_1_2 (validCol valid)) (taken valid seg X)
    (broadcastInDim S16x4096x512 ![] bcast_S_S16x4096x512 (id (constant S_ .f32 0x00000000#32)))

end Cert.RefTail

end
-- ==== Proof.RefWin3.lean ====
/-
  What the fourth stretch of the reference's operations leaves in the buffers later stretches read, from any
  contents V: the flattened global bucket id of the segment ids V holds, and the bucket sums of the values V holds
  masked by the validity mask V holds.
-/
import proofs.«126040_j66219805770053_2_alg».proof.Proof.RefOps
import proofs.«126040_j66219805770053_2_alg».proof.Proof.RefTail

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P3_v27 (V : Valuation τ sig (Elt F)) : after P3 V ⟪main_v27⟫ = Cert.RefTail.gid (V ⟪main_v20⟫) := by
  simp only [P3]
  after_results_simp
  rfl

theorem P3_v33 (V : Valuation τ sig (Elt F)) :
    after P3 V ⟪main_v33⟫ = Cert.RefTail.sums (F := F) (V ⟪main_v1⟫) (V ⟪main_v20⟫) (V ⟪main_arg1⟫) := by
  simp only [P3]
  after_results_simp
  rfl

theorem P3_arg0 (V : Valuation τ sig (Elt F)) : after P3 V ⟪main_arg0⟫ = V ⟪main_arg0⟫ := by
  simp only [P3]
  after_results_simp

theorem P3_arg1 (V : Valuation τ sig (Elt F)) : after P3 V ⟪main_arg1⟫ = V ⟪main_arg1⟫ := by
  simp only [P3]
  after_results_simp

theorem P3_v1 (V : Valuation τ sig (Elt F)) : after P3 V ⟪main_v1⟫ = V ⟪main_v1⟫ := by
  simp only [P3]
  after_results_simp

theorem P3_v20 (V : Valuation τ sig (Elt F)) : after P3 V ⟪main_v20⟫ = V ⟪main_v20⟫ := by
  simp only [P3]
  after_results_simp

end Cert.ReferenceIdeal.RefValue

end
-- ==== Proof.RefWin4.lean ====
/-
  What the fifth stretch of the reference's operations leaves in the buffers later stretches read, from any
  contents V that holds the validity mask, the flattened bucket ids and the bucket sums: the bucket means (sums over
  max(1, count), the last bucket of every sample dropped), and the constant 0.
-/
import proofs.«126040_j66219805770053_2_alg».proof.Proof.RefOps
import proofs.«126040_j66219805770053_2_alg».proof.Proof.RefTail

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P4_v46 (V : Valuation τ sig (Elt F)) (valid : IVec S16x4096 1) (seg : IVec S16x4096 32)
    (X : FVec F S16x4096x512 .f32) (h1 : V ⟪main_v1⟫ = valid) (h27 : V ⟪main_v27⟫ = Cert.RefTail.gid seg)
    (h33 : V ⟪main_v33⟫ = Cert.RefTail.sums valid seg X) :
    after P4 V ⟪main_v46⟫ = Cert.RefTail.agg valid seg X := by
  subst h1
  simp only [P4]
  after_results_simp
  simp only [h27, h33]
  rfl

theorem P4_c_10 (V : Valuation τ sig (Elt F)) : after P4 V ⟪main_c_10⟫ = constantI S_ 32 0#32 := by
  simp only [P4]
  after_results_simp

theorem P4_arg0 (V : Valuation τ sig (Elt F)) : after P4 V ⟪main_arg0⟫ = V ⟪main_arg0⟫ := by
  simp only [P4]
  after_results_simp

theorem P4_arg1 (V : Valuation τ sig (Elt F)) : after P4 V ⟪main_arg1⟫ = V ⟪main_arg1⟫ := by
  simp only [P4]
  after_results_simp

theorem P4_v1 (V : Valuation τ sig (Elt F)) : after P4 V ⟪main_v1⟫ = V ⟪main_v1⟫ := by
  simp only [P4]
  after_results_simp

theorem P4_v20 (V : Valuation τ sig (Elt F)) : after P4 V ⟪main_v20⟫ = V ⟪main_v20⟫ := by
  simp only [P4]
  after_results_simp

end Cert.ReferenceIdeal.RefValue

end
-- ==== Proof.RefWin5.lean ====
/-
  What the sixth stretch of the reference's operations leaves in the buffer the next stretch reads, from any
  contents V that holds the constant 0: the segment ids V holds clamped to [0, 4095], as a column of index vectors.
-/
import proofs.«126040_j66219805770053_2_alg».proof.Proof.RefOps
import proofs.«126040_j66219805770053_2_alg».proof.Proof.RefTail

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P5_v48 (V : Valuation τ sig (Elt F)) (hc : V ⟪main_c_10⟫ = constantI S_ 32 0#32) :
    after P5 V ⟪main_v48⟫ = Cert.RefTail.segCol (V ⟪main_v20⟫) := by
  simp only [P5]
  after_results_simp
  simp only [hc]
  rfl

theorem P5_arg0 (V : Valuation τ sig (Elt F)) : after P5 V ⟪main_arg0⟫ = V ⟪main_arg0⟫ := by
  simp only [P5]
  after_results_simp

theorem P5_arg1 (V : Valuation τ sig (Elt F)) : after P5 V ⟪main_arg1⟫ = V ⟪main_arg1⟫ := by
  simp only [P5]
  after_results_simp

theorem P5_v1 (V : Valuation τ sig (Elt F)) : after P5 V ⟪main_v1⟫ = V ⟪main_v1⟫ := by
  simp only [P5]
  after_results_simp

theorem P5_v46 (V : Valuation τ sig (Elt F)) : after P5 V ⟪main_v46⟫ = V ⟪main_v46⟫ := by
  simp only [P5]
  after_results_simp

end Cert.ReferenceIdeal.RefValue

end
-- ==== Proof.RefWin6.lean ====
/-
  What the seventh stretch of the reference's operations (the bucket means read back along the row) leaves in
  the buffer the last stretch reads, from any contents V that holds the bucket means and the clamped segment ids as a
  column of index vectors.
-/
import proofs.«126040_j66219805770053_2_alg».proof.Proof.RefOps
import proofs.«126040_j66219805770053_2_alg».proof.Proof.RefTail

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P6_v49 (V : Valuation τ sig (Elt F)) (valid : IVec S16x4096 1) (seg : IVec S16x4096 32)
    (X : FVec F S16x4096x512 .f32) (h46 : V ⟪main_v46⟫ = Cert.RefTail.agg valid seg X)
    (h48 : V ⟪main_v48⟫ = Cert.RefTail.segCol seg) :
    after P6 V ⟪main_v49⟫ = Cert.RefTail.taken valid seg X := by
  simp only [P6]
  after_results_simp
  simp only [h46, h48]
  rfl

theorem P6_arg0 (V : Valuation τ sig (Elt F)) : after P6 V ⟪main_arg0⟫ = V ⟪main_arg0⟫ := by
  simp only [P6]
  after_results_simp

theorem P6_arg1 (V : Valuation τ sig (Elt F)) : after P6 V ⟪main_arg1⟫ = V ⟪main_arg1⟫ := by
  simp only [P6]
  after_results_simp

theorem P6_v1 (V : Valuation τ sig (Elt F)) : after P6 V ⟪main_v1⟫ = V ⟪main_v1⟫ := by
  simp only [P6]
  after_results_simp

end Cert.ReferenceIdeal.RefValue

end
-- ==== Proof.RefWin7.lean ====
/-
  What the last stretch of the reference's operations leaves in the result buffer, from any contents V that holds
  the validity mask and the means read back: those, zero at the invalid positions.
-/
import proofs.«126040_j66219805770053_2_alg».proof.Proof.RefOps
import proofs.«126040_j66219805770053_2_alg».proof.Proof.RefTail

-- the fold over a stretch of operations nests one level per operation and per argument
set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem P7_v51 (V : Valuation τ sig (Elt F)) (valid : IVec S16x4096 1) (seg : IVec S16x4096 32)
    (X : FVec F S16x4096x512 .f32) (h1 : V ⟪main_v1⟫ = valid) (h49 : V ⟪main_v49⟫ = Cert.RefTail.taken valid seg X) :
    after P7 V ⟪main_v51⟫ = Cert.RefTail.out valid seg X := by
  subst h1
  simp only [P7]
  after_results_simp
  simp only [h49]
  rfl

theorem P7_arg0 (V : Valuation τ sig (Elt F)) : after P7 V ⟪main_arg0⟫ = V ⟪main_arg0⟫ := by
  simp only [P7]
  after_results_simp

theorem P7_arg1 (V : Valuation τ sig (Elt F)) : after P7 V ⟪main_arg1⟫ = V ⟪main_arg1⟫ := by
  simp only [P7]
  after_results_simp

end Cert.ReferenceIdeal.RefValue

end
-- ==== Proof.RefRun.lean ====
/-
  The reference's run.  @main is a straight line of 133 host operations (RefOps), so every weakly fair execution
  terminates with each buffer at the operations' fold over the launch contents.  The fold is read stretch by stretch:
  val k is the contents after the first k stretches, and for each buffer a later stretch still reads, val k holds the
  corresponding stage of the reference's computation applied to the word ids W and the values X that the launch put in
  the two arguments — the validity mask and the segment ids (SegChain), then the later stages (RefTail).  At the end the
  result buffer holds  out (valid W) (seg W) X  and the two arguments are unchanged.
-/
import proofs.«126040_j66219805770053_2_alg».proof.Proof.RefOps
import proofs.«126040_j66219805770053_2_alg».proof.Proof.RefWin0
import proofs.«126040_j66219805770053_2_alg».proof.Proof.RefWin1
import proofs.«126040_j66219805770053_2_alg».proof.Proof.RefWin2
import proofs.«126040_j66219805770053_2_alg».proof.Proof.RefWin3
import proofs.«126040_j66219805770053_2_alg».proof.Proof.RefWin4
import proofs.«126040_j66219805770053_2_alg».proof.Proof.RefWin5
import proofs.«126040_j66219805770053_2_alg».proof.Proof.RefWin6
import proofs.«126040_j66219805770053_2_alg».proof.Proof.RefWin7
import proofs.«126040_j66219805770053_2_alg».proof.Proof.SegChain
import proofs.«126040_j66219805770053_2_alg».proof.Proof.RefTail
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A TensorCore reference as the device buffer it names. -/
local notation "⟪" r "⟫" => (Proc.devRef (τ := τ) Proc.tc r : DevRef τ sig)

/-! ## The stages the bridge is stated over -/

/-- valid = (W ≥ 0). -/
abbrev res_v1 (W : IVec S16x4096 32) : IVec S16x4096 1 := Cert.Seg.validOf W

/-- The segment id of every position (4096 at the invalid ones). -/
abbrev res_v20 (W : IVec S16x4096 32) : IVec S16x4096 32 := Cert.Seg.segOf W

/-- gid = 4097·b + seg, with (b,t) flattened. -/
abbrev res_v27 (W : IVec S16x4096 32) : IVec S65536 32 := Cert.RefTail.gid (Cert.Seg.segOf W)

/-- The values, zero at the invalid positions, with (b,t) flattened. -/
abbrev res_v30 (W : IVec S16x4096 32) (X : FVec F S16x4096x512 .f32) : FVec F S65536x512 .f32 :=
  Cert.RefTail.maskedFlat (Cert.Seg.validOf W) X

/-- The sums of the masked values by gid. -/
abbrev res_v33 (W : IVec S16x4096 32) (X : FVec F S16x4096x512 .f32) : FVec F S65552x512 .f32 :=
  Cert.RefTail.sums (Cert.Seg.validOf W) (Cert.Seg.segOf W) X

/-- The sums of the validity mask by gid: the bucket counts. -/
abbrev res_v38 (W : IVec S16x4096 32) : FVec F S65552 .f32 :=
  Cert.RefTail.counts (Cert.Seg.validOf W) (Cert.Seg.segOf W)

/-- The bucket means: per sample, the last bucket dropped, sums over max(1, count). -/
abbrev res_v46 (W : IVec S16x4096 32) (X : FVec F S16x4096x512 .f32) : FVec F S16x4096x512 .f32 :=
  Cert.RefTail.agg (Cert.Seg.validOf W) (Cert.Seg.segOf W) X

/-- The segment id clamped to [0, 4095]. -/
abbrev res_v47 (W : IVec S16x4096 32) : IVec S16x4096 32 := Cert.RefTail.segClip (Cert.Seg.segOf W)

/-- The reference's result as a function of the word ids W and the values X. -/
def res_out (W : IVec S16x4096 32) (X : FVec F S16x4096x512 .f32) : FVec F S16x4096x512 .f32 :=
  Cert.RefTail.out (Cert.Seg.validOf W) (Cert.Seg.segOf W) X

/-! ## The contents after each stretch -/

def val1 (V0 : Valuation τ sig (Elt F)) : Valuation τ sig (Elt F) := after P0 V0
def val2 (V0 : Valuation τ sig (Elt F)) : Valuation τ sig (Elt F) := after P1 (val1 V0)
def val3 (V0 : Valuation τ sig (Elt F)) : Valuation τ sig (Elt F) := after P2 (val2 V0)
def val4 (V0 : Valuation τ sig (Elt F)) : Valuation τ sig (Elt F) := after P3 (val3 V0)
def val5 (V0 : Valuation τ sig (Elt F)) : Valuation τ sig (Elt F) := after P4 (val4 V0)
def val6 (V0 : Valuation τ sig (Elt F)) : Valuation τ sig (Elt F) := after P5 (val5 V0)
def val7 (V0 : Valuation τ sig (Elt F)) : Valuation τ sig (Elt F) := after P6 (val6 V0)
def val8 (V0 : Valuation τ sig (Elt F)) : Valuation τ sig (Elt F) := after P7 (val7 V0)

theorem after_ops (V0 : Valuation τ sig (Elt F)) : after ops V0 = val8 V0 := by
  simp only [ops, after_append]
  rfl

section
variable (V0 : Valuation τ sig (Elt F))

/-! ### after %9 -/
theorem val1_arg0 : val1 V0 ⟪main_arg0⟫ = V0 ⟪main_arg0⟫ := P0_arg0 V0
theorem val1_arg1 : val1 V0 ⟪main_arg1⟫ = V0 ⟪main_arg1⟫ := P0_arg1 V0
theorem val1_v1 : val1 V0 ⟪main_v1⟫ = Cert.Seg.s1 (V0 ⟪main_arg0⟫) := P0_v1 V0
theorem val1_v8 : val1 V0 ⟪main_v8⟫ = Cert.Seg.s8 (V0 ⟪main_arg0⟫) := P0_v8 V0
theorem val1_v9 : val1 V0 ⟪main_v9⟫ = Cert.Seg.s9 (V0 ⟪main_arg0⟫) := P0_v9 V0

/-! ### after %10 -/
theorem val2_arg0 : val2 V0 ⟪main_arg0⟫ = V0 ⟪main_arg0⟫ := (P1_arg0 _).trans (val1_arg0 V0)
theorem val2_arg1 : val2 V0 ⟪main_arg1⟫ = V0 ⟪main_arg1⟫ := (P1_arg1 _).trans (val1_arg1 V0)
theorem val2_v1 : val2 V0 ⟪main_v1⟫ = Cert.Seg.s1 (V0 ⟪main_arg0⟫) := (P1_v1 _).trans (val1_v1 V0)
theorem val2_v8 : val2 V0 ⟪main_v8⟫ = Cert.Seg.s8 (V0 ⟪main_arg0⟫) := (P1_v8 _).trans (val1_v8 V0)
theorem val2_v10 : val2 V0 ⟪main_v10⟫ = Cert.Seg.s10 (V0 ⟪main_arg0⟫) :=
  P1_v10 _ _ (val1_arg0 V0) (val1_v9 V0)

/-! ### after %20 -/
theorem val3_arg0 : val3 V0 ⟪main_arg0⟫ = V0 ⟪main_arg0⟫ := (P2_arg0 _).trans (val2_arg0 V0)
theorem val3_arg1 : val3 V0 ⟪main_arg1⟫ = V0 ⟪main_arg1⟫ := (P2_arg1 _).trans (val2_arg1 V0)
theorem val3_v1 : val3 V0 ⟪main_v1⟫ = Cert.Seg.s1 (V0 ⟪main_arg0⟫) := (P2_v1 _).trans (val2_v1 V0)
theorem val3_v20 : val3 V0 ⟪main_v20⟫ = Cert.Seg.s20 (V0 ⟪main_arg0⟫) :=
  P2_v20 _ _ (val2_arg0 V0) (val2_v1 V0) (val2_v8 V0) (val2_v10 V0)

/-! ### after %33 -/
theorem val4_arg0 : val4 V0 ⟪main_arg0⟫ = V0 ⟪main_arg0⟫ := (P3_arg0 _).trans (val3_arg0 V0)
theorem val4_arg1 : val4 V0 ⟪main_arg1⟫ = V0 ⟪main_arg1⟫ := (P3_arg1 _).trans (val3_arg1 V0)
theorem val4_v1 : val4 V0 ⟪main_v1⟫ = Cert.Seg.s1 (V0 ⟪main_arg0⟫) := (P3_v1 _).trans (val3_v1 V0)
theorem val4_v20 : val4 V0 ⟪main_v20⟫ = Cert.Seg.s20 (V0 ⟪main_arg0⟫) := (P3_v20 _).trans (val3_v20 V0)
theorem val4_v27 : val4 V0 ⟪main_v27⟫ = Cert.RefTail.gid (Cert.Seg.s20 (V0 ⟪main_arg0⟫)) := by
  unfold val4
  rw [P3_v27, val3_v20]
theorem val4_v33 : val4 V0 ⟪main_v33⟫
    = Cert.RefTail.sums (F := F) (Cert.Seg.s1 (V0 ⟪main_arg0⟫)) (Cert.Seg.s20 (V0 ⟪main_arg0⟫)) (V0 ⟪main_arg1⟫) := by
  unfold val4
  rw [P3_v33, val3_v1, val3_v20, val3_arg1]

/-! ### after %46 -/
theorem val5_arg0 : val5 V0 ⟪main_arg0⟫ = V0 ⟪main_arg0⟫ := (P4_arg0 _).trans (val4_arg0 V0)
theorem val5_arg1 : val5 V0 ⟪main_arg1⟫ = V0 ⟪main_arg1⟫ := (P4_arg1 _).trans (val4_arg1 V0)
theorem val5_v1 : val5 V0 ⟪main_v1⟫ = Cert.Seg.s1 (V0 ⟪main_arg0⟫) := (P4_v1 _).trans (val4_v1 V0)
theorem val5_v20 : val5 V0 ⟪main_v20⟫ = Cert.Seg.s20 (V0 ⟪main_arg0⟫) := (P4_v20 _).trans (val4_v20 V0)
theorem val5_v46 : val5 V0 ⟪main_v46⟫
    = Cert.RefTail.agg (F := F) (Cert.Seg.s1 (V0 ⟪main_arg0⟫)) (Cert.Seg.s20 (V0 ⟪main_arg0⟫)) (V0 ⟪main_arg1⟫) :=
  P4_v46 _ _ _ _ (val4_v1 V0) (val4_v27 V0) (val4_v33 V0)
theorem val5_c_10 : val5 V0 ⟪main_c_10⟫ = constantI S_ 32 0#32 := P4_c_10 _

/-! ### after %48 -/
theorem val6_arg0 : val6 V0 ⟪main_arg0⟫ = V0 ⟪main_arg0⟫ := (P5_arg0 _).trans (val5_arg0 V0)
theorem val6_arg1 : val6 V0 ⟪main_arg1⟫ = V0 ⟪main_arg1⟫ := (P5_arg1 _).trans (val5_arg1 V0)
theorem val6_v1 : val6 V0 ⟪main_v1⟫ = Cert.Seg.s1 (V0 ⟪main_arg0⟫) := (P5_v1 _).trans (val5_v1 V0)
theorem val6_v46 : val6 V0 ⟪main_v46⟫
    = Cert.RefTail.agg (F := F) (Cert.Seg.s1 (V0 ⟪main_arg0⟫)) (Cert.Seg.s20 (V0 ⟪main_arg0⟫)) (V0 ⟪main_arg1⟫) :=
  (P5_v46 _).trans (val5_v46 V0)
theorem val6_v48 : val6 V0 ⟪main_v48⟫ = Cert.RefTail.segCol (Cert.Seg.s20 (V0 ⟪main_arg0⟫)) := by
  unfold val6
  rw [P5_v48 _ (val5_c_10 V0), val5_v20]

/-! ### after %49 -/
theorem val7_arg0 : val7 V0 ⟪main_arg0⟫ = V0 ⟪main_arg0⟫ := (P6_arg0 _).trans (val6_arg0 V0)
theorem val7_arg1 : val7 V0 ⟪main_arg1⟫ = V0 ⟪main_arg1⟫ := (P6_arg1 _).trans (val6_arg1 V0)
theorem val7_v1 : val7 V0 ⟪main_v1⟫ = Cert.Seg.s1 (V0 ⟪main_arg0⟫) := (P6_v1 _).trans (val6_v1 V0)
theorem val7_v49 : val7 V0 ⟪main_v49⟫
    = Cert.RefTail.taken (F := F) (Cert.Seg.s1 (V0 ⟪main_arg0⟫)) (Cert.Seg.s20 (V0 ⟪main_arg0⟫)) (V0 ⟪main_arg1⟫) :=
  P6_v49 _ _ _ _ (val6_v46 V0) (val6_v48 V0)

/-! ### at the end -/
theorem val8_arg0 : val8 V0 ⟪main_arg0⟫ = V0 ⟪main_arg0⟫ := (P7_arg0 _).trans (val7_arg0 V0)
theorem val8_arg1 : val8 V0 ⟪main_arg1⟫ = V0 ⟪main_arg1⟫ := (P7_arg1 _).trans (val7_arg1 V0)
theorem val8_v51 : val8 V0 ⟪main_v51⟫ = res_out (F := F) (V0 ⟪main_arg0⟫) (V0 ⟪main_arg1⟫) :=
  P7_v51 _ _ _ _ (val7_v1 V0) (val7_v49 V0)

end

/-! ## The run -/

/-- On every device, for any float values, from any memory with zero counters: every weakly fair execution of @main
    terminates with the result buffer at  out (valid W) (seg W) X,  W and X the launch contents of the two arguments,
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51)
        = res_out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v51).trans (by simp only [after_ops]; exact val8_v51 (launchContents m c)),
       (h c main_arg0).trans (by simp only [after_ops]; exact val8_arg0 (launchContents m c)),
       (h c main_arg1).trans (by simp only [after_ops]; exact val8_arg1 (launchContents m c))⟩)
    (run_seq scopedRefs_eq scopedSems_eq defs main (fun _ => ops) main_eq (fun _ => ops_sub) m ρ (fun _ => ops_fresh))

end Cert.ReferenceIdeal.RefValue

end
-- ==== Proof.RefIdxInt.lean ====
/-
  The reference's integer stages read at a position (b, t): the bucket id is 4097·b + seg[b,t]; the read-back
  index is clip(seg[b,t], 0, 4095) and always lies in [0, 4095].
-/
import proofs.«126040_j66219805770053_2_alg».proof.Proof.RefTail
import Idealize.ShloMosaic.Lib.ValueIdx
import Idealize.ShloMosaic.Lib.ValueLayout
import Idealize.ShloMosaic.Lib.Pipeline.Value

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

/-- position (b,t) of the flattened arrays. -/
def flat (b : Fin 16) (t : Fin 4096) : Fin 65536 := ⟨b.val * 4096 + t.val, by omega⟩

theorem rowBase_apply (b : Fin 16) : rowBase (ix2 b (0 : Fin 1)) = BitVec.ofNat 32 b.val * 4097#32 := by
  unfold rowBase
  show IntOp.muli _ _ = _
  rw [broadcastInDim_apply _ _ _ (ix2 b (0 : Fin 1)) (ix1 b) (fun a => by match a with | ⟨0, _⟩ => rfl),
    broadcastInDim_apply _ _ _ (ix2 b (0 : Fin 1)) ix0 (fun a => a.elim0)]
  rfl

theorem gid2_apply (seg : IVec S16x4096 32) (b : Fin 16) (t : Fin 4096) :
    gid2 seg (ix2 b t) = BitVec.ofNat 32 b.val * 4097#32 + seg (ix2 b t) := by
  unfold gid2
  show IntOp.addi _ _ = _
  rw [broadcastInDim_apply _ _ _ (ix2 b t) (ix2 b (0 : Fin 1)) (fun a => by match a with | ⟨0, _⟩ => rfl | ⟨1, _⟩ => rfl),
    rowBase_apply]
  rfl

theorem gid_apply (seg : IVec S16x4096 32) (b : Fin 16) (t : Fin 4096) :
    gid seg (ix1 (flat b t)) = BitVec.ofNat 32 b.val * 4097#32 + seg (ix2 b t) := by
  unfold gid
  rw [shapeCast_apply _ _ (ix1 (flat b t)) (ix2 b t) (by
    rw [Shape.rowMajor_val_two, Shape.rowMajor_val_one]; show b.val * 4096 + t.val = b.val * 4096 + t.val; rfl), gid2_apply]

theorem gidCol_apply (seg : IVec S16x4096 32) (b : Fin 16) (t : Fin 4096) :
    gidCol seg (ix2 (flat b t) (0 : Fin 1)) = BitVec.ofNat 32 b.val * 4097#32 + seg (ix2 b t) := by
  unfold gidCol
  rw [broadcastInDim_apply _ _ _ (ix2 (flat b t) (0 : Fin 1)) (ix1 (flat b t)) (fun a => by match a with | ⟨0, _⟩ => rfl), gid_apply]

end Cert.RefTail

end
-- ==== Proof.RefIdxInt2.lean ====
/-
  The read-back index at a position (b, t) is clip(seg[b,t], 0, 4095); it is never negative, so the wrap of negative
  indices leaves it alone, and it always passes the test 0 ≤ · ≤ 4095.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefIdxInt
import Idealize.ShloMosaic.PureOps.Reduce

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

/-- clip(s, 0, 4095) on one word. -/
def clipW (s : BitVec 32) : BitVec 32 := IntOp.minsi 4095#32 (IntOp.maxsi 0#32 s)

theorem segClip_apply (seg : IVec S16x4096 32) (b : Fin 16) (t : Fin 4096) :
    segClip seg (ix2 b t) = clipW (seg (ix2 b t)) := by
  unfold segClip clipW
  show IntOp.minsi _ (IntOp.maxsi _ _) = _
  rw [broadcastInDim_apply _ _ _ (ix2 b t) ix0 (fun a => a.elim0), broadcastInDim_apply _ _ _ (ix2 b t) ix0 (fun a => a.elim0)]
  rfl

theorem segCol_apply (seg : IVec S16x4096 32) (b : Fin 16) (t : Fin 4096) :
    segCol seg (ix3 b t (0 : Fin 1)) = clipW (seg (ix2 b t)) := by
  unfold segCol
  rw [broadcastInDim_apply _ _ _ (ix3 b t (0 : Fin 1)) (ix2 b t) (fun a => by match a with | ⟨0, _⟩ => rfl | ⟨1, _⟩ => rfl), segClip_apply]

/-- the clip lies in [0, 4095] as a signed word. -/
theorem clipW_range (s : BitVec 32) : 0 ≤ (clipW s).toInt ∧ (clipW s).toInt ≤ 4095 := by
  unfold clipW IntOp.minsi IntOp.maxsi
  by_cases h1 : s.slt 0#32
  · rw [if_pos h1]
    have : (4095#32).slt (0#32) = false := by decide
    rw [this]; simp
  · rw [if_neg h1]
    have h0 : 0 ≤ s.toInt := by
      have := h1; simp [BitVec.slt] at this; simpa using this
    by_cases h2 : (4095#32).slt s
    · rw [if_pos h2]; decide
    · rw [if_neg h2]
      have : s.toInt ≤ 4095 := by
        have := h2; simp [BitVec.slt] at this; simpa using this
      exact ⟨h0, this⟩

theorem takeIdx_apply (seg : IVec S16x4096 32) (b : Fin 16) (t : Fin 4096) :
    takeIdx seg (ix3 b t (0 : Fin 1)) = clipW (seg (ix2 b t)) := by
  unfold takeIdx
  show Scalar.select (IntOp.cmpi .slt _ _) (IntOp.addi _ _) _ = _
  rw [segCol_apply, broadcastInDim_apply _ _ _ (ix3 b t (0 : Fin 1)) ix0 (fun a => a.elim0)]
  have h := (clipW_range (seg (ix2 b t))).1
  have : IntOp.cmpi .slt (clipW (seg (ix2 b t))) (constantI S_ 32 0#32 ix0) = 0#1 := by
    show BitVec.ofBool ((clipW (seg (ix2 b t))).slt 0#32) = 0#1
    have : (clipW (seg (ix2 b t))).slt 0#32 = false := by
      simp [BitVec.slt]; simpa using h
    rw [this]; rfl
  rw [this, select_zero]

end Cert.RefTail

end
-- ==== Proof.RefIdxF.lean ====
/-
  The mask and the masked values read at a position, and the read-back's range test, which every position passes.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefIdxInt2
import Idealize.ShloMosaic.PureOps.Reduce
import Idealize.ShloMosaic.PureOps.Ideal

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

theorem validCol_apply (valid : IVec S16x4096 1) (b : Fin 16) (t : Fin 4096) :
    validCol valid (ix3 b t (0 : Fin 1)) = valid (ix2 b t) := by
  unfold validCol
  rw [broadcastInDim_apply _ _ _ (ix3 b t (0 : Fin 1)) (ix2 b t) (fun a => by match a with | ⟨0, _⟩ => rfl | ⟨1, _⟩ => rfl)]

/-- the mask along the feature axis. -/
theorem validCol_bcast_apply (valid : IVec S16x4096 1) (b : Fin 16) (t : Fin 4096) (e : Fin 512) :
    broadcastInDim S16x4096x512 ![0, 1, 2] bcast_S16x4096x1_S16x4096x512_0_1_2 (validCol valid) (ix3 b t e) = valid (ix2 b t) := by
  rw [broadcastInDim_apply _ _ _ (ix3 b t e) (ix3 b t (0 : Fin 1)) (fun a => by match a with | ⟨0, _⟩ => rfl | ⟨1, _⟩ => rfl | ⟨2, _⟩ => rfl),
    validCol_apply]

theorem masked_apply (valid : IVec S16x4096 1) (X : FVec Ideal S16x4096x512 .f32) (b : Fin 16) (t : Fin 4096) (e : Fin 512) :
    masked valid X (ix3 b t e) = Scalar.select (valid (ix2 b t)) (X (ix3 b t e)) (Ideal.ofBits .f32 0x00000000#32) := by
  unfold masked
  rw [select_apply, validCol_bcast_apply, broadcastInDim_apply _ _ _ (ix3 b t e) ix0 (fun a => a.elim0)]
  rfl

theorem maskedFlat_apply (valid : IVec S16x4096 1) (X : FVec Ideal S16x4096x512 .f32) (b : Fin 16) (t : Fin 4096) (e : Fin 512) :
    maskedFlat valid X (ix2 (flat b t) e) = Scalar.select (valid (ix2 b t)) (X (ix3 b t e)) (Ideal.ofBits .f32 0x00000000#32) := by
  unfold maskedFlat
  rw [shapeCast_apply _ _ (ix2 (flat b t) e) (ix3 b t e) (by
    rw [Shape.rowMajor_val_three, Shape.rowMajor_val_two]; rfl), masked_apply]

theorem validFlat_apply (valid : IVec S16x4096 1) (b : Fin 16) (t : Fin 4096) :
    validFlat (F := Ideal) valid (ix1 (flat b t)) = FloatOps.uitofp (F := Ideal) .f32 (valid (ix2 b t)) := by
  unfold validFlat
  rw [shapeCast_apply _ _ (ix1 (flat b t)) (ix2 b t) (by
    rw [Shape.rowMajor_val_two, Shape.rowMajor_val_one]; rfl)]
  rfl

/-- a word in [0, 4095] passes the range test. -/
theorem inb_word (s : BitVec 32) : IntOp.andi (IntOp.cmpi .sge (clipW s) 0#32) (IntOp.cmpi .sle (clipW s) 4095#32) = 1#1 := by
  have h := clipW_range s
  have h1 : (0#32).sle (clipW s) = true := by simp [BitVec.sle]; simpa using h.1
  have h2 : (clipW s).sle 4095#32 = true := by simp [BitVec.sle]; simpa using h.2
  show IntOp.andi (BitVec.ofBool ((0#32).sle (clipW s))) (BitVec.ofBool ((clipW s).sle 4095#32)) = 1#1
  rw [h1, h2]; decide

theorem takeInb_apply (seg : IVec S16x4096 32) (j : S16x4096.Idx) : takeInb seg j = 1#1 := by
  unfold takeInb
  rw [Host.reduce_eq_fold_single IntOp.andi _ _ reducesTo_S16x4096x1_S16x4096_d2 (by decide : S16x4096x1.Reduces [2] S16x4096) h_S_ j]
  have hx : ∀ i : S16x4096x1.Idx,
      andi (cmpi .sge (takeIdx seg) (broadcastInDim S16x4096x1 ![] bcast_S_S16x4096x1 (constantI S_ 32 0#32)))
        (cmpi .sle (takeIdx seg) (broadcastInDim S16x4096x1 ![0, 1, 2] bcast_S1x1x1_S16x4096x1_0_1_2
          (broadcastInDim S1x1x1 ![2] bcast_S1_S1x1x1_2 (constantI S1 32 4095#32)))) i = 1#1 := by
    intro i
    obtain ⟨b, t, z, rfl⟩ : ∃ (b : Fin 16) (t : Fin 4096) (z : Fin 1), i = ix3 b t z := ⟨i 0, i 1, i 2, eq_ix3 i⟩
    obtain rfl : z = 0 := Subsingleton.elim _ _
    show IntOp.andi (IntOp.cmpi .sge _ _) (IntOp.cmpi .sle _ _) = 1#1
    rw [takeIdx_apply, broadcastInDim_apply _ _ _ (ix3 b t (0 : Fin 1)) ix0 (fun a => a.elim0),
      broadcastInDim_apply _ _ _ (ix3 b t (0 : Fin 1)) (ix3 (0 : Fin 1) (0 : Fin 1) (0 : Fin 1)) (fun a => by match a with | ⟨0, _⟩ => rfl | ⟨1, _⟩ => rfl | ⟨2, _⟩ => rfl),
      broadcastInDim_apply _ _ _ (ix3 (0 : Fin 1) (0 : Fin 1) (0 : Fin 1)) (ix1 (0 : Fin 1)) (fun a => by match a with | ⟨0, _⟩ => rfl)]
    exact inb_word _
  refine (Finset.fold_congr (g := fun _ => (1#1 : BitVec 1)) (fun k _ => hx _)).trans ?_
  show Finset.fold IntOp.andi (1#1 : BitVec 1) (fun _ => (1#1 : BitVec 1)) (Finset.univ : Finset (Fin 1)) = 1#1
  rw [Finset.univ_unique, Finset.fold_singleton]
  rfl

end Cert.RefTail

end
-- ==== Proof.ScatterIdx.lean ====
/-
  The bucket sums read at a bucket.  An update at flattened position n and feature e' lands on bucket row
  (signed bucket id of n) and column e'; so the sum that reaches (g, e) runs over the positions n whose bucket id is g,
  at feature e.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefIdxF
import Idealize.ShloMosaic.PureOps.Ideal

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

open scoped BigOperators

/-- the dimension numbers of the feature-wise bucket sum. -/
abbrev dS : ScatterDims S65552x512 S65536x1 S65536x512 := scatter_S65552x512_S65536x1_S65536x512_1_0_0_1

theorem dS_siIdx (n : Fin 65536) (e' : Fin 512) (c : Fin (dS.scatterDimsToOperandDims.length)) :
    dS.siIdx (ix2 n e') c = ix2 n (0 : Fin 1) := by
  funext b
  refine Fin.ext ?_
  match b with
  | ⟨0, _⟩ => rfl
  | ⟨1, _⟩ =>
    have : c.val < 1 := c.isLt
    show c.val = 0
    omega

theorem dS_start0 (idx : IVec S65536x1 32) (n : Fin 65536) (e' : Fin 512) :
    dS.start (ix2 n e') idx (0 : Fin 2) = (idx (ix2 n (0 : Fin 1))).toInt := by
  unfold ScatterDims.start
  rw [dif_pos (show (0 : Fin 2) ∈ dS.scatterDimsToOperandDims from List.mem_singleton.mpr rfl), dS_siIdx]

theorem dS_start1 (idx : IVec S65536x1 32) (n : Fin 65536) (e' : Fin 512) :
    dS.start (ix2 n e') idx (1 : Fin 2) = 0 := by
  unfold ScatterDims.start
  rw [dif_neg (show (1 : Fin 2) ∉ dS.scatterDimsToOperandDims from (by decide : (1 : Fin 2) ∉ ([0] : List (Fin 2))))]

theorem dS_window0 (n : Fin 65536) (e' : Fin 512) : dS.window (ix2 n e') (0 : Fin 2) = 0 := by
  unfold ScatterDims.window
  rw [dif_neg (show (0 : Fin 2) ∉ dS.sKept from (by decide : (0 : Fin 2) ∉ S65552x512.kept ([0] : List (Fin 2))))]

theorem dS_window1 (n : Fin 65536) (e' : Fin 512) : dS.window (ix2 n e') (1 : Fin 2) = e'.val := by
  unfold ScatterDims.window
  rw [dif_pos (show (1 : Fin 2) ∈ dS.sKept from (by decide : (1 : Fin 2) ∈ S65552x512.kept ([0] : List (Fin 2))))]
  rfl

/-- where an update lands. -/
theorem dS_lands (idx : IVec S65536x1 32) (n : Fin 65536) (e' : Fin 512) (g : Fin 65552) (e : Fin 512) :
    dS.resultIdx? (ix2 n e') idx = some (ix2 g e) ↔ (idx (ix2 n (0 : Fin 1))).toInt = (g.val : Int) ∧ e' = e := by
  unfold ScatterDims.resultIdx?
  constructor
  · intro h
    split at h
    · rename_i hall
      have h' := Option.some.inj h
      have h0 := congrArg (fun f : S65552x512.Idx => (f 0).val) h'
      have h1 := congrArg (fun f : S65552x512.Idx => (f 1).val) h'
      have b0 := hall 0
      simp only [dS_start0, dS_window0, dS_start1, dS_window1] at h0 h1 b0
      refine ⟨?_, Fin.ext ?_⟩
      · have : ((idx (ix2 n (0 : Fin 1))).toInt + ((0 : Nat) : Int)).toNat = g.val := h0
        omega
      · have : ((0 : Int) + ((e'.val : Nat) : Int)).toNat = e.val := h1
        omega
    · exact absurd h (by simp)
  · rintro ⟨hg, rfl⟩
    have hall : ∀ a : Fin 2, 0 ≤ dS.start (ix2 n e') idx a + dS.window (ix2 n e') a
        ∧ dS.start (ix2 n e') idx a + dS.window (ix2 n e') a < S65552x512.size a := by
      intro a
      match a with
      | ⟨0, _⟩ =>
        show 0 ≤ dS.start (ix2 n e') idx (0 : Fin 2) + dS.window (ix2 n e') (0 : Fin 2) ∧ dS.start (ix2 n e') idx (0 : Fin 2) + dS.window (ix2 n e') (0 : Fin 2) < (65552 : Nat)
        rw [dS_start0, dS_window0, hg]
        have := g.isLt
        constructor <;> omega
      | ⟨1, _⟩ =>
        show 0 ≤ dS.start (ix2 n e') idx (1 : Fin 2) + dS.window (ix2 n e') (1 : Fin 2) ∧ dS.start (ix2 n e') idx (1 : Fin 2) + dS.window (ix2 n e') (1 : Fin 2) < (512 : Nat)
        rw [dS_start1, dS_window1]
        have := e'.isLt
        constructor <;> omega
    rw [dif_pos hall]
    congr 1
    funext a
    refine Fin.ext ?_
    match a with
    | ⟨0, _⟩ =>
      show (dS.start (ix2 n e') idx (0 : Fin 2) + dS.window (ix2 n e') (0 : Fin 2)).toNat = g.val
      rw [dS_start0, dS_window0, hg]; omega
    | ⟨1, _⟩ =>
      show (dS.start (ix2 n e') idx (1 : Fin 2) + dS.window (ix2 n e') (1 : Fin 2)).toNat = e'.val
      rw [dS_start1, dS_window1]; omega

/-- the bucket sum at (g, e): the operand's entry plus the updates of the positions whose bucket id is g. -/
theorem scatterAdd2_apply (x : FVec Ideal S65552x512 .f32) (idx : IVec S65536x1 32) (upd : FVec Ideal S65536x512 .f32)
    (g : Fin 65552) (e : Fin 512) :
    Host.scatterAdd (F := Ideal) dS x idx upd (ix2 g e)
      = x (ix2 g e) + ∑ n : Fin 65536, if (idx (ix2 n (0 : Fin 1))).toInt = (g.val : Int) then upd (ix2 n e) else 0 := by
  show Ideal.hostScatterAdd dS x idx upd (ix2 g e) = _
  unfold Ideal.hostScatterAdd
  refine congrArg (x (ix2 g e) + ·) ?_
  rw [Finset.sum_filter, sum_idx2]
  refine Finset.sum_congr rfl fun n _ => ?_
  by_cases hn : (idx (ix2 n (0 : Fin 1))).toInt = (g.val : Int)
  · rw [if_pos hn]
    rw [Finset.sum_eq_single e]
    · rw [if_pos ((dS_lands idx n e g e).2 ⟨hn, rfl⟩)]
    · intro e' _ hne
      rw [if_neg (fun h => hne ((dS_lands idx n e' g e).1 h).2)]
    · intro h; exact absurd (Finset.mem_univ e) h
  · rw [if_neg hn]
    refine Finset.sum_eq_zero fun e' _ => ?_
    rw [if_neg (fun h => hn ((dS_lands idx n e' g e).1 h).1)]

end Cert.RefTail

end
-- ==== Proof.Scatter1Idx.lean ====
/-
  The bucket counts read at a bucket: the operand's entry plus the updates of the positions whose bucket id is g.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefIdxF
import Idealize.ShloMosaic.PureOps.Ideal

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

open scoped BigOperators

/-- the dimension numbers of the bucket count. -/
abbrev dC : ScatterDims S65552 S65536x1 S65536 := scatter_S65552_S65536x1_S65536_n_0_0_1

theorem dC_siIdx (n : Fin 65536) (c : Fin (dC.scatterDimsToOperandDims.length)) :
    dC.siIdx (ix1 n) c = ix2 n (0 : Fin 1) := by
  funext b
  refine Fin.ext ?_
  match b with
  | ⟨0, _⟩ => rfl
  | ⟨1, _⟩ =>
    have : c.val < 1 := c.isLt
    show c.val = 0
    omega

theorem dC_start0 (idx : IVec S65536x1 32) (n : Fin 65536) :
    dC.start (ix1 n) idx (0 : Fin 1) = (idx (ix2 n (0 : Fin 1))).toInt := by
  unfold ScatterDims.start
  rw [dif_pos (show (0 : Fin 1) ∈ dC.scatterDimsToOperandDims from List.mem_singleton.mpr rfl), dC_siIdx]

theorem dC_window0 (n : Fin 65536) : dC.window (ix1 n) (0 : Fin 1) = 0 := by
  unfold ScatterDims.window
  rw [dif_neg (show (0 : Fin 1) ∉ dC.sKept from (by decide : (0 : Fin 1) ∉ S65552.kept ([0] : List (Fin 1))))]

/-- where an update lands. -/
theorem dC_lands (idx : IVec S65536x1 32) (n : Fin 65536) (g : Fin 65552) :
    dC.resultIdx? (ix1 n) idx = some (ix1 g) ↔ (idx (ix2 n (0 : Fin 1))).toInt = (g.val : Int) := by
  unfold ScatterDims.resultIdx?
  constructor
  · intro h
    split at h
    · rename_i hall
      have h' := Option.some.inj h
      have h0 := congrArg (fun f : S65552.Idx => (f 0).val) h'
      have b0 := hall 0
      simp only [dC_start0, dC_window0] at h0 b0
      have : ((idx (ix2 n (0 : Fin 1))).toInt + ((0 : Nat) : Int)).toNat = g.val := h0
      omega
    · exact absurd h (by simp)
  · intro hg
    have hall : ∀ a : Fin 1, 0 ≤ dC.start (ix1 n) idx a + dC.window (ix1 n) a
        ∧ dC.start (ix1 n) idx a + dC.window (ix1 n) a < S65552.size a := by
      intro a
      match a with
      | ⟨0, _⟩ =>
        show 0 ≤ dC.start (ix1 n) idx (0 : Fin 1) + dC.window (ix1 n) (0 : Fin 1) ∧ dC.start (ix1 n) idx (0 : Fin 1) + dC.window (ix1 n) (0 : Fin 1) < (65552 : Nat)
        rw [dC_start0, dC_window0, hg]
        have := g.isLt
        constructor <;> omega
    rw [dif_pos hall]
    refine congrArg some ?_
    funext a
    refine Fin.ext ?_
    match a with
    | ⟨0, _⟩ =>
      show (dC.start (ix1 n) idx (0 : Fin 1) + dC.window (ix1 n) (0 : Fin 1)).toNat = g.val
      rw [dC_start0, dC_window0, hg]; omega

/-- a sum over a rank-1 index set is the sum over its coordinate. -/
theorem sum_idx1 {M : Type*} [AddCommMonoid M] {n0 : Nat} (f : (⟨1, ![n0]⟩ : Shape).Idx → M) :
    ∑ i, f i = ∑ a : Fin n0, f (ix1 a) :=
  (Equiv.sum_comp (⟨ix1, fun i => i 0, fun _ => rfl, fun i => (eq_ix1 i).symm⟩ : Fin n0 ≃ (⟨1, ![n0]⟩ : Shape).Idx) f).symm

theorem scatterAdd1_apply (x : FVec Ideal S65552 .f32) (idx : IVec S65536x1 32) (upd : FVec Ideal S65536 .f32) (g : Fin 65552) :
    Host.scatterAdd (F := Ideal) dC x idx upd (ix1 g)
      = x (ix1 g) + ∑ n : Fin 65536, if (idx (ix2 n (0 : Fin 1))).toInt = (g.val : Int) then upd (ix1 n) else 0 := by
  show Ideal.hostScatterAdd dC x idx upd (ix1 g) = _
  unfold Ideal.hostScatterAdd
  refine congrArg (x (ix1 g) + ·) ?_
  rw [Finset.sum_filter, sum_idx1]
  refine Finset.sum_congr rfl fun n _ => ?_
  by_cases hn : (idx (ix2 n (0 : Fin 1))).toInt = (g.val : Int)
  · rw [if_pos hn, if_pos ((dC_lands idx n g).2 hn)]
  · rw [if_neg hn, if_neg (fun h => hn ((dC_lands idx n g).1 h))]

end Cert.RefTail

end
-- ==== Proof.GatherIdx.lean ====
/-
  The read-back of the bucket means: at (b, t, e) the gather reads the operand at (b, i, e), where i is the index word
  at (b, t), read signed and clamped into [0, 4095].
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefIdxF

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

/-- the dimension numbers of the read-back along the position axis. -/
abbrev dG : GatherDims S16x4096x512 S16x4096x1 S16x4096x512 := gather_S16x4096x512_S16x4096x1_S16x4096x512_2_1_0_0_1_2_11512

theorem dG_siIdx (b : Fin 16) (t : Fin 4096) (e : Fin 512) (c : Fin (dG.startIndexMap.length)) :
    dG.siIdx (ix3 b t e) c = ix3 b t (0 : Fin 1) := by
  funext a
  refine Fin.ext ?_
  match a with
  | ⟨0, _⟩ => rfl
  | ⟨1, _⟩ => rfl
  | ⟨2, _⟩ =>
    have : c.val < 1 := c.isLt
    show c.val = 0
    omega

theorem gather_apply {α : Type} (x : S16x4096x512.Idx → α) (idx : IVec S16x4096x1 32) (b : Fin 16) (t : Fin 4096) (e : Fin 512) :
    Host.gather dG x idx (ix3 b t e)
      = x (ix3 b (⟨min (idx (ix3 b t (0 : Fin 1))).toInt.toNat 4095, by omega⟩ : Fin 4096) e) := by
  unfold Host.gather
  congr 1
  funext a
  refine Fin.ext ?_
  match a with
  | ⟨0, _⟩ =>
    show dG.start (ix3 b t e) idx (0 : Fin 3) + dG.batchCoord (ix3 b t e) (0 : Fin 3) + dG.offCoord (ix3 b t e) (0 : Fin 3) = b.val
    rw [GatherDims.start_batching _ _ _ _ (show (0 : Fin 3) ∈ dG.operandBatchingDims from (by decide : (0 : Fin 3) ∈ ([0] : List (Fin 3)))),
      GatherDims.offCoord_eq_zero _ _ _ (show (0 : Fin 3) ∉ dG.sKept from (by decide : (0 : Fin 3) ∉ S16x4096x512.kept (([1] : List (Fin 3)) ++ [0])))]
    unfold GatherDims.batchCoord
    rw [dif_pos (show (0 : Fin 3) ∈ dG.operandBatchingDims from (by decide : (0 : Fin 3) ∈ ([0] : List (Fin 3))))]
    simp only [Nat.zero_add, Nat.add_zero]
    rfl
  | ⟨1, _⟩ =>
    show dG.start (ix3 b t e) idx (1 : Fin 3) + dG.batchCoord (ix3 b t e) (1 : Fin 3) + dG.offCoord (ix3 b t e) (1 : Fin 3) = _
    rw [GatherDims.batchCoord_eq_zero _ _ _ (show (1 : Fin 3) ∉ dG.operandBatchingDims from (by decide : (1 : Fin 3) ∉ ([0] : List (Fin 3)))),
      GatherDims.offCoord_eq_zero _ _ _ (show (1 : Fin 3) ∉ dG.sKept from (by decide : (1 : Fin 3) ∉ S16x4096x512.kept (([1] : List (Fin 3)) ++ [0])))]
    unfold GatherDims.start
    rw [dif_pos (show (1 : Fin 3) ∈ dG.startIndexMap from (by decide : (1 : Fin 3) ∈ ([1] : List (Fin 3)))), dG_siIdx]
    rfl
  | ⟨2, _⟩ =>
    show dG.start (ix3 b t e) idx (2 : Fin 3) + dG.batchCoord (ix3 b t e) (2 : Fin 3) + dG.offCoord (ix3 b t e) (2 : Fin 3) = e.val
    rw [GatherDims.batchCoord_eq_zero _ _ _ (show (2 : Fin 3) ∉ dG.operandBatchingDims from (by decide : (2 : Fin 3) ∉ ([0] : List (Fin 3))))]
    unfold GatherDims.start GatherDims.offCoord
    rw [dif_neg (show (2 : Fin 3) ∉ dG.startIndexMap from (by decide : (2 : Fin 3) ∉ ([1] : List (Fin 3)))), dif_pos (show (2 : Fin 3) ∈ dG.sKept from (by decide : (2 : Fin 3) ∈ S16x4096x512.kept (([1] : List (Fin 3)) ++ [0])))]
    simp only [Nat.zero_add, Nat.add_zero]
    rfl

end Cert.RefTail

end
-- ==== Proof.RefMid.lean ====
/-
  The reference's float stages read at an index, down to its result: at (b, t, e) the result is, where the position is
  valid, the bucket mean  sums[4097·b + i, e] / max(1, counts[4097·b + i])  of the bucket i = clip(seg[b,t], 0, 4095),
  and zero elsewhere; the bucket sums and counts are sums over the flattened positions with that bucket id.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.ScatterIdx
import proofs.«126040_j66219805770053_2_alg».proof.Proof.Scatter1Idx
import proofs.«126040_j66219805770053_2_alg».proof.Proof.GatherIdx

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

open scoped BigOperators

/-- bucket i of sample b among all 16·4097 buckets. -/
def bucket (b : Fin 16) (i : Fin 4096) : Fin 65552 := ⟨b.val * 4097 + i.val, by omega⟩

theorem sums_apply (valid : IVec S16x4096 1) (seg : IVec S16x4096 32) (X : FVec Ideal S16x4096x512 .f32) (g : Fin 65552) (e : Fin 512) :
    sums valid seg X (ix2 g e)
      = Ideal.ofBits .f32 0x00000000#32
        + ∑ n : Fin 65536, if (gidCol seg (ix2 n (0 : Fin 1))).toInt = (g.val : Int) then maskedFlat valid X (ix2 n e) else 0 := by
  unfold sums
  rw [scatterAdd2_apply, broadcastInDim_apply _ _ _ (ix2 g e) ix0 (fun a => a.elim0)]
  rfl

theorem counts_apply (valid : IVec S16x4096 1) (seg : IVec S16x4096 32) (g : Fin 65552) :
    counts (F := Ideal) valid seg (ix1 g)
      = Ideal.ofBits .f32 0x00000000#32
        + ∑ n : Fin 65536, if (gidCol seg (ix2 n (0 : Fin 1))).toInt = (g.val : Int) then validFlat (F := Ideal) valid (ix1 n) else 0 := by
  unfold counts
  rw [scatterAdd1_apply, broadcastInDim_apply _ _ _ (ix1 g) ix0 (fun a => a.elim0)]
  rfl

theorem sums3_apply (valid : IVec S16x4096 1) (seg : IVec S16x4096 32) (X : FVec Ideal S16x4096x512 .f32) (b : Fin 16) (i : Fin 4096) (e : Fin 512) :
    sums3 valid seg X (ix3 b i e) = sums valid seg X (ix2 (bucket b i) e) := by
  unfold sums3
  rw [extractStridedSlice_apply _ _ _ (ix3 b i e) (ix3 b (⟨i.val, by omega⟩ : Fin 4097) e) (fun a => by
      match a with
      | ⟨0, _⟩ => exact (Nat.zero_add _).symm
      | ⟨1, _⟩ => exact (Nat.zero_add _).symm
      | ⟨2, _⟩ => exact (Nat.zero_add _).symm),
    shapeCast_apply _ _ (ix3 b (⟨i.val, by omega⟩ : Fin 4097) e) (ix2 (bucket b i) e) (by
      rw [Shape.rowMajor_val_three, Shape.rowMajor_val_two]; rfl)]

theorem counts2_apply (valid : IVec S16x4096 1) (seg : IVec S16x4096 32) (b : Fin 16) (i : Fin 4096) :
    counts2 (F := Ideal) valid seg (ix2 b i) = counts (F := Ideal) valid seg (ix1 (bucket b i)) := by
  unfold counts2
  rw [extractStridedSlice_apply _ _ _ (ix2 b i) (ix2 b (⟨i.val, by omega⟩ : Fin 4097)) (fun a => by
      match a with
      | ⟨0, _⟩ => exact (Nat.zero_add _).symm
      | ⟨1, _⟩ => exact (Nat.zero_add _).symm),
    shapeCast_apply _ _ (ix2 b (⟨i.val, by omega⟩ : Fin 4097)) (ix1 (bucket b i)) (by
      rw [Shape.rowMajor_val_two, Shape.rowMajor_val_one]; rfl)]

theorem denom_apply (valid : IVec S16x4096 1) (seg : IVec S16x4096 32) (b : Fin 16) (i : Fin 4096) :
    denom (F := Ideal) valid seg (ix2 b i) = max (Ideal.ofBits .f32 0x3F800000#32) (counts (F := Ideal) valid seg (ix1 (bucket b i))) := by
  unfold denom
  rw [maximumf_apply, counts2_apply, broadcastInDim_apply _ _ _ (ix2 b i) ix0 (fun a => a.elim0)]
  rfl

theorem agg_apply (valid : IVec S16x4096 1) (seg : IVec S16x4096 32) (X : FVec Ideal S16x4096x512 .f32) (b : Fin 16) (i : Fin 4096) (e : Fin 512) :
    agg valid seg X (ix3 b i e)
      = Ideal.div (sums valid seg X (ix2 (bucket b i) e))
          (max (Ideal.ofBits .f32 0x3F800000#32) (counts (F := Ideal) valid seg (ix1 (bucket b i)))) := by
  unfold agg
  show FloatOps.hostDivf _ _ = _
  rw [sums3_apply, broadcastInDim_apply _ _ _ (ix3 b i e) (ix3 b i (0 : Fin 1)) (fun a => by match a with | ⟨0, _⟩ => rfl | ⟨1, _⟩ => rfl | ⟨2, _⟩ => rfl),
    broadcastInDim_apply _ _ _ (ix3 b i (0 : Fin 1)) (ix2 b i) (fun a => by match a with | ⟨0, _⟩ => rfl | ⟨1, _⟩ => rfl), denom_apply]
  rfl

/-- the bucket read back at a position. -/
def readBucket (s : BitVec 32) : Fin 4096 := ⟨min (clipW s).toInt.toNat 4095, by omega⟩

theorem taken_apply (valid : IVec S16x4096 1) (seg : IVec S16x4096 32) (X : FVec Ideal S16x4096x512 .f32) (b : Fin 16) (t : Fin 4096) (e : Fin 512) :
    taken valid seg X (ix3 b t e) = agg valid seg X (ix3 b (readBucket (seg (ix2 b t))) e) := by
  unfold taken
  have h1 : broadcastInDim S16x4096x512 ![0, 1] bcast_S16x4096_S16x4096x512_0_1 (takeInb seg) (ix3 b t e) = takeInb seg (ix2 b t) :=
    broadcastInDim_apply _ _ (takeInb seg) (ix3 b t e) (ix2 b t)
      (fun a => by match a with | ⟨0, _⟩ => rfl | ⟨1, _⟩ => rfl)
  rw [select_apply, h1, takeInb_apply, select_one]
  refine (gather_apply (agg valid seg X) (takeIdx seg) b t e).trans ?_
  have h2 : (⟨min (takeIdx seg (ix3 b t (0 : Fin 1))).toInt.toNat 4095, by omega⟩ : Fin 4096) = readBucket (seg (ix2 b t)) :=
    Fin.ext (by
      show min (takeIdx seg (ix3 b t (0 : Fin 1))).toInt.toNat 4095 = min (clipW (seg (ix2 b t))).toInt.toNat 4095
      rw [takeIdx_apply])
  exact congrArg (fun i => agg valid seg X (ix3 b i e)) h2

theorem out_apply (valid : IVec S16x4096 1) (seg : IVec S16x4096 32) (X : FVec Ideal S16x4096x512 .f32) (b : Fin 16) (t : Fin 4096) (e : Fin 512) :
    out valid seg X (ix3 b t e)
      = Scalar.select (valid (ix2 b t)) (agg valid seg X (ix3 b (readBucket (seg (ix2 b t))) e)) (Ideal.ofBits .f32 0x00000000#32) := by
  unfold out
  rw [select_apply, validCol_bcast_apply, taken_apply, broadcastInDim_apply _ _ _ (ix3 b t e) ix0 (fun a => a.elim0)]
  rfl

end Cert.RefTail

end
-- ==== Proof.RefClosed.lean ====
/-
  The bucket sums and counts of one sample's bucket as sums over that sample's positions.  When every segment id lies in
  [0, 4096] the bucket id 4097·b' + seg[b',t'] does not wrap and determines (b', seg[b',t']); so bucket i of sample b
  collects exactly the positions t' of sample b with seg[b,t'] = i.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefMid

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

open scoped BigOperators

/-- a sum over the flattened positions is the double sum over (sample, position). -/
theorem sum_flat {M : Type*} [AddCommMonoid M] (F : Fin 65536 → M) :
    ∑ n, F n = ∑ b : Fin 16, ∑ t : Fin 4096, F (flat b t) := by
  rw [← Equiv.sum_comp (finProdFinEquiv : Fin 16 × Fin 4096 ≃ Fin 65536) F, Fintype.sum_prod_type]
  refine Finset.sum_congr rfl fun b _ => Finset.sum_congr rfl fun t _ => congrArg F (Fin.ext ?_)
  show t.val + 4096 * b.val = b.val * 4096 + t.val
  omega

/-- the bucket id of a position as a signed number. -/
theorem gidCol_toInt (seg : IVec S16x4096 32) (Hr : ∀ b t, (seg (ix2 b t)).toNat ≤ 4096) (b : Fin 16) (t : Fin 4096) :
    (gidCol seg (ix2 (flat b t) (0 : Fin 1))).toInt = ((b.val * 4097 + (seg (ix2 b t)).toNat : Nat) : Int) := by
  rw [gidCol_apply]
  have hs := Hr b t
  have hb := b.isLt
  have hn : (BitVec.ofNat 32 b.val * 4097#32 + seg (ix2 b t)).toNat = b.val * 4097 + (seg (ix2 b t)).toNat := by
    rw [BitVec.toNat_add, BitVec.toNat_mul, BitVec.toNat_ofNat, BitVec.toNat_ofNat]
    omega
  rw [BitVec.toInt_eq_toNat_cond, if_pos (by rw [hn]; omega), hn]

/-- a sum over all positions guarded by "bucket id = bucket i of sample b" is the sum over sample b's positions guarded
    by "segment id = i". -/
theorem sum_bucket {M : Type*} [AddCommMonoid M] (seg : IVec S16x4096 32) (Hr : ∀ b t, (seg (ix2 b t)).toNat ≤ 4096)
    (b : Fin 16) (i : Fin 4096) (f : Fin 16 → Fin 4096 → M) :
    (∑ b' : Fin 16, ∑ t' : Fin 4096,
        if (gidCol seg (ix2 (flat b' t') (0 : Fin 1))).toInt = ((bucket b i).val : Int) then f b' t' else 0)
      = ∑ t' : Fin 4096, if (seg (ix2 b t')).toNat = i.val then f b t' else 0 := by
  rw [Finset.sum_eq_single b]
  · refine Finset.sum_congr rfl fun t' _ => ?_
    rw [gidCol_toInt seg Hr]
    have hi := i.isLt
    by_cases h : (seg (ix2 b t')).toNat = i.val
    · rw [if_pos h, if_pos (by show ((b.val * 4097 + (seg (ix2 b t')).toNat : Nat) : Int) = ((b.val * 4097 + i.val : Nat) : Int); omega)]
    · rw [if_neg h, if_neg (by show ¬ ((b.val * 4097 + (seg (ix2 b t')).toNat : Nat) : Int) = ((b.val * 4097 + i.val : Nat) : Int); omega)]
  · intro b' _ hb'
    refine Finset.sum_eq_zero fun t' _ => ?_
    rw [gidCol_toInt seg Hr]
    have hs := Hr b' t'
    have hi := i.isLt
    have hne : b'.val ≠ b.val := fun h => hb' (Fin.ext h)
    rw [if_neg (by show ¬ ((b'.val * 4097 + (seg (ix2 b' t')).toNat : Nat) : Int) = ((b.val * 4097 + i.val : Nat) : Int); omega)]
  · intro h; exact absurd (Finset.mem_univ b) h

theorem sums_bucket (valid : IVec S16x4096 1) (seg : IVec S16x4096 32) (X : FVec Ideal S16x4096x512 .f32)
    (Hr : ∀ b t, (seg (ix2 b t)).toNat ≤ 4096) (b : Fin 16) (i : Fin 4096) (e : Fin 512) :
    sums valid seg X (ix2 (bucket b i) e)
      = Ideal.ofBits .f32 0x00000000#32
        + ∑ t' : Fin 4096, if (seg (ix2 b t')).toNat = i.val
            then Scalar.select (valid (ix2 b t')) (X (ix3 b t' e)) (Ideal.ofBits .f32 0x00000000#32) else 0 := by
  rw [sums_apply, sum_flat]
  refine congrArg (Ideal.ofBits .f32 0x00000000#32 + ·) ?_
  rw [← sum_bucket seg Hr b i (fun b' t' => Scalar.select (valid (ix2 b' t')) (X (ix3 b' t' e)) (Ideal.ofBits .f32 0x00000000#32))]
  refine Finset.sum_congr rfl fun b' _ => Finset.sum_congr rfl fun t' _ => ?_
  rw [maskedFlat_apply]

theorem counts_bucket (valid : IVec S16x4096 1) (seg : IVec S16x4096 32)
    (Hr : ∀ b t, (seg (ix2 b t)).toNat ≤ 4096) (b : Fin 16) (i : Fin 4096) :
    counts (F := Ideal) valid seg (ix1 (bucket b i))
      = Ideal.ofBits .f32 0x00000000#32
        + ∑ t' : Fin 4096, if (seg (ix2 b t')).toNat = i.val
            then FloatOps.uitofp (F := Ideal) .f32 (valid (ix2 b t')) else 0 := by
  rw [counts_apply, sum_flat]
  refine congrArg (Ideal.ofBits .f32 0x00000000#32 + ·) ?_
  rw [← sum_bucket seg Hr b i (fun b' t' => FloatOps.uitofp (F := Ideal) .f32 (valid (ix2 b' t')))]
  refine Finset.sum_congr rfl fun b' _ => Finset.sum_congr rfl fun t' _ => ?_
  rw [validFlat_apply]

end Cert.RefTail

end
-- ==== Proof.KerAcc.lean ====
import proofs.«126040_j66219805770053_2_alg».proof.Proof.Gen.KernelIdeal.Skeleton

/-! The kernel body's arithmetic over the k-blocks of one q-block, as recursions over the
generated payloads: the accumulator and the counter after k-blocks 0 … n, and the block stored
at the last k-block. -/

namespace Cert.KernelIdeal.Acc
open Idealize.ShloMosaic Cert.KernelIdeal Cert.KernelIdeal.Gen
variable {F : FTy → Type} [FloatOps F]

/-- the accumulator scratch after the body has run at k-blocks 0 … n of one q-block: sq the q-block
of the segment ids, sk j / vk j the j-th k-block of the segment ids / of the values -/
noncomputable def acc (sq : Vec F S16x128 .i32) (sk : Nat → Vec F S16x128 .i32)
    (vk : Nat → Vec F S16x128x512 .f32) : Nat → FVec F S16x128x512 .f32
  | 0 => k0_pay6 sq (sk 0) (vk 0) k0_pay2
  | n + 1 => k0_pay6 sq (sk (n + 1)) (vk (n + 1)) (acc sq sk vk n)

/-- the counter scratch after k-blocks 0 … n -/
noncomputable def cnt (sq : Vec F S16x128 .i32) (sk : Nat → Vec F S16x128 .i32) :
    Nat → FVec F S16x128 .f32
  | 0 => k0_pay7 sq (sk 0) k0_pay3
  | n + 1 => k0_pay7 sq (sk (n + 1)) (cnt sq sk n)

/-- what the body stores into the output block at the last k-block -/
noncomputable def outBlock (sq : Vec F S16x128 .i32) (sk : Nat → Vec F S16x128 .i32)
    (vk : Nat → Vec F S16x128x512 .f32) : FVec F S16x128x512 .f32 :=
  k0_pay1 (k0_pay4 sq) (cnt sq sk 31) (acc sq sk vk 31)

end Cert.KernelIdeal.Acc
-- ==== Proof.KerSpec.lean ====
import Idealize.ShloMosaic.Lib.ValueIdx

/-! The kernel's result as one function of the whole arrays, with no program in sight: for the
segment ids `S : [16, 4096]` and the values `X : [16, 4096, 512]`, row `t` of batch `b` is the
mean of the rows `t'` of its segment (those with `S[b, t'] = S[b, t]`): their sum over their
number, the number clamped below by one, and zero for a row whose segment id is not below 4096. -/

namespace Cert.KernelIdeal.Acc
open Idealize.ShloMosaic Idealize.ShloMosaic.ValueIdx

/-- The equality mask of two segment ids as an extended real. -/
noncomputable def maskE (a c : BitVec 32) : EReal := if a = c then 1 else 0

/-- The segment mean of the values over the whole arrays, at `(b, t, e)`. -/
noncomputable def kerOut (S : (⟨2, ![16, 4096]⟩ : Shape).Idx → BitVec 32)
    (X : (⟨3, ![16, 4096, 512]⟩ : Shape).Idx → EReal) : (⟨3, ![16, 4096, 512]⟩ : Shape).Idx → EReal :=
  fun i =>
    (∑ t' : Fin 4096, maskE (S (ix2 (i 0) (i 1))) (S (ix2 (i 0) t')) * X (ix3 (i 0) t' (i 2)))
        / max (∑ t' : Fin 4096, maskE (S (ix2 (i 0) (i 1))) (S (ix2 (i 0) t'))) 1
      * (if (S (ix2 (i 0) (i 1))).toInt < 4096 then (1 : EReal) else 0)

/-- The segment mean at an index given by coordinates. -/
theorem kerOut_apply (S : (⟨2, ![16, 4096]⟩ : Shape).Idx → BitVec 32)
    (X : (⟨3, ![16, 4096, 512]⟩ : Shape).Idx → EReal) (b : Fin 16) (t : Fin 4096) (e : Fin 512) :
    kerOut S X (ix3 b t e)
      = (∑ t' : Fin 4096, maskE (S (ix2 b t)) (S (ix2 b t')) * X (ix3 b t' e))
          / max (∑ t' : Fin 4096, maskE (S (ix2 b t)) (S (ix2 b t'))) 1
        * (if (S (ix2 b t)).toInt < 4096 then (1 : EReal) else 0) := rfl

end Cert.KernelIdeal.Acc
-- ==== Proof.KerAccLayout.lean ====
import proofs.«126040_j66219805770053_2_alg».proof.Proof.KerAcc
import proofs.«126040_j66219805770053_2_alg».proof.Proof.KerSpec
import Idealize.ShloMosaic.Lib.ValueLayout
import Idealize.ShloMosaic.PureOps.Ideal.Laws
import Idealize.ShloMosaic.Lib.Affine

/-! Keepdims layout operations of rank-3 arrays read at an index given by coordinates, and the
scalar facts behind the equality mask: a one-bit comparison widened to a word and converted to a
float is the extended real 1 where the comparison holds and 0 where it does not. -/

namespace Cert.KernelIdeal.Acc
open Idealize.ShloMosaic Idealize.ShloMosaic.ValueIdx

variable {α : Type}

/-! ## A trailing or middle unit axis added by a shape cast -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A unit axis broadcast -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The mask's scalar -/

/-- A one-bit word widened to 32 bits and converted to a float as a signed integer is, at the ideal
values, `1` for the bit `1` and `0` for the bit `0`. -/
theorem sitofp_setWidth_bit (c : BitVec 1) :
    FloatOps.sitofp (F := Ideal) .f32 (c.setWidth 32) = if c = 1#1 then (1 : EReal) else 0 := by
  rcases BitVec.eq_zero_or_eq_one c with h | h
  · subst h
    show (((BitVec.setWidth 32 (0#1)).toInt : ℝ) : EReal) = _
    rw [if_neg (by decide)]
    have : (BitVec.setWidth 32 (0#1)).toInt = 0 := by decide
    rw [this]; simp
  · subst h
    show (((BitVec.setWidth 32 (1#1)).toInt : ℝ) : EReal) = _
    rw [if_pos rfl]
    have : (BitVec.setWidth 32 (1#1)).toInt = 1 := by decide
    rw [this]; simp

/-- The float of the widened equality bit of two words is their mask. -/
theorem sitofp_cmpi_eq (x y : BitVec 32) :
    FloatOps.sitofp (F := Ideal) .f32 ((IntOp.cmpi .eq x y).setWidth 32) = maskE x y := by
  rw [sitofp_setWidth_bit, maskE]
  simp only [IntOp.cmpi_eq]

/-- The float of the widened signed-less-than bit of two words. -/
theorem sitofp_cmpi_slt (x y : BitVec 32) :
    FloatOps.sitofp (F := Ideal) .f32 ((IntOp.cmpi .slt x y).setWidth 32)
      = if x.toInt < y.toInt then (1 : EReal) else 0 := by
  rw [sitofp_setWidth_bit]
  simp only [IntOp.cmpi_slt]

/-- The pattern of the float one denotes the extended real one. -/
theorem ofBits_one_f32 : Ideal.ofBits .f32 0x3F800000#32 = 1 :=
  IdealRules.sign_bit.ideal_onePat .f32

end Cert.KernelIdeal.Acc
-- ==== Proof.KerAccDot.lean ====
import proofs.«126040_j66219805770053_2_alg».proof.Proof.KerAccLayout

/-! The kernel's batched matrix product read at an index: batch axis 0, the left operand's axis 2
contracted with the right operand's axis 1. -/

namespace Cert.KernelIdeal.Acc
open Idealize.ShloMosaic Idealize.ShloMosaic.ValueIdx Cert.KernelIdeal Cert.KernelIdeal.Gen

/-- The dimension numbers of the kernel's product `[16,128,128] × [16,128,512] → [16,128,512]`. -/
abbrev DD : DotDims S16x128x128 S16x128x512 S16x128x512 := dot_S16x128x128_S16x128x512_S16x128x512_2_1_1_2_0_0

/-- The contraction index of the product is one coordinate below 128. -/
noncomputable abbrev cE : DD.contr.Idx ≃ Fin 128 := contrEquiv1 DD 128 rfl rfl

/-- At output index `(b, q, d)` and contraction coordinate `c` the left operand is read at `(b, q, c)`. -/
theorem lhsIdx_eq (b : Fin 16) (q : Fin 128) (d : Fin 512) (c : Fin 128) :
    DD.lhsIdx (ix3 b q d) (cE.symm c) = ix3 b q c := by
  funext a
  refine Fin.ext ?_
  match a with
  | ⟨0, _⟩ => simp [DotDims.lhsIdx, DD, dot_S16x128x128_S16x128x512_S16x128x512_2_1_1_2_0_0]; rfl
  | ⟨1, _⟩ => simp [DotDims.lhsIdx, DD, dot_S16x128x128_S16x128x512_S16x128x512_2_1_1_2_0_0]; rfl
  | ⟨2, _⟩ =>
    exact (DD.lhsIdx_val_of_single (cl := (2 : Fin 3)) rfl (ix3 b q d) (cE.symm c)).trans
      (contrEquiv1_symm_val DD 128 rfl rfl c)

/-- … and the right operand at `(b, c, d)`. -/
theorem rhsIdx_eq (b : Fin 16) (q : Fin 128) (d : Fin 512) (c : Fin 128) :
    DD.rhsIdx (ix3 b q d) (cE.symm c) = ix3 b c d := by
  funext a
  refine Fin.ext ?_
  match a with
  | ⟨0, _⟩ => simp [DotDims.rhsIdx, DD, dot_S16x128x128_S16x128x512_S16x128x512_2_1_1_2_0_0]; rfl
  | ⟨1, _⟩ =>
    exact (DD.rhsIdx_val_of_single (cr := (1 : Fin 3)) rfl (ix3 b q d) (cE.symm c)).trans
      (contrEquiv1_symm_val DD 128 rfl rfl c)
  | ⟨2, _⟩ => simp [DotDims.rhsIdx, DD, dot_S16x128x128_S16x128x512_S16x128x512_2_1_1_2_0_0]; rfl

/-- The product into the zero splat, read at `(b, q, d)`: the sum over the contracted coordinate of
the operands' products. -/
theorem matmul_zero_at {φ₁ φ₂ : FTy} (lhs : FVec Ideal S16x128x128 φ₁) (rhs : FVec Ideal S16x128x512 φ₂)
    (b : Fin 16) (q : Fin 128) (d : Fin 512) :
    matmul DD none lhs rhs (constant (F := Ideal) S16x128x512 .f32 0x00000000#32) (ix3 b q d)
      = ∑ k : Fin 128, lhs (ix3 b q k) * rhs (ix3 b k d) := by
  simp only [matmul]
  rw [Ideal.matmul_constant_zero_apply, ← Equiv.sum_comp cE.symm]
  refine Finset.sum_congr rfl fun c _ => ?_
  rw [lhsIdx_eq, rhsIdx_eq]

end Cert.KernelIdeal.Acc
-- ==== Proof.KerAccIdx.lean ====
import proofs.«126040_j66219805770053_2_alg».proof.Proof.KerAccDot

/-! The kernel's payloads read at an index given by coordinates, at the ideal values: the equality
mask of the segment ids, the masked product added into the accumulator, the mask's row sum added
into the counter, the two zero splats, and the stored quotient. -/

namespace Cert.KernelIdeal.Acc
open Idealize.ShloMosaic Idealize.ShloMosaic.ValueIdx Cert.KernelIdeal Cert.KernelIdeal.Gen

/-! ## The lane sum -/

/-- Over result index `(b, q)` the source index with coordinate `k` inserted on the last axis is `(b, q, k)`. -/
theorem lift_eq (h : S16x128x128.Reduces [2] S16x128) (b : Fin 16) (q : Fin 128) (k : Fin 128) :
    h.lift (ix2 b q) k = ix3 b q k := by
  funext c
  refine Fin.ext ?_
  match c with
  | ⟨0, _⟩ => rfl
  | ⟨1, _⟩ => rfl
  | ⟨2, _⟩ => rfl

/-- The sum over the last axis of a `[16,128,128]` array, read at `(b, q)`. -/
theorem laneSum_at (src : FVec Ideal S16x128x128 .f32) (hφ : FKind.Formats .f32)
    (hacc : (0x00000000#32 : BitVec 32) = 0x00000000#32) (b : Fin 16) (q : Fin 128) :
    multiReduction (F := Ideal) .add [2] S16x128 src 0x00000000#32 reduces_S16x128x128_S16x128 hφ hacc (ix2 b q)
      = ∑ k : Fin 128, src (ix3 b q k) := by
  refine (Ideal.multiReduction_add_single src 0x00000000#32 reduces_S16x128x128_S16x128 hφ hacc (ix2 b q)).trans ?_
  exact Finset.sum_congr rfl fun k _ => congrArg src (lift_eq _ b q k)

/-! ## The mask -/

/-- The equality bit of the q-block's and the k-block's segment ids at `(b, q, k)`. -/
theorem pay5_at (sq sk1 : Vec Ideal S16x128 .i32) (b : Fin 16) (q : Fin 128) (k : Fin 128) :
    k0_pay5 sq sk1 (ix3 b q k) = IntOp.cmpi .eq (sq (ix2 b q)) (sk1 (ix2 b k)) := by
  unfold k0_pay5 k0_pay4
  simp only [shapeCast_self]
  show IntOp.cmpi .eq (broadcastTo S16x128x128 _ _ (ix3 b q k)) (broadcastTo S16x128x128 _ _ (ix3 b q k)) = _
  rw [broadcastTo_ab1_abc_apply, broadcastTo_a1c_abc_apply, shapeCast_ab_ab1_apply, shapeCast_ab_a1b_apply]

/-- The mask as a float at `(b, q, k)`: `1` where the segment ids agree, `0` elsewhere. -/
theorem mask_at (sq sk1 : Vec Ideal S16x128 .i32) (b : Fin 16) (q : Fin 128) (k : Fin 128) :
    (sitofp (F := Ideal) .f32 (extui 32 (k0_pay5 sq sk1) natLt_1_32)) (ix3 b q k)
      = maskE (sq (ix2 b q)) (sk1 (ix2 b k)) := by
  rw [sitofp_apply, extui_apply, pay5_at, sitofp_cmpi_eq]

/-! ## The accumulator's and the counter's step -/

/-- One k-block's step of the counter at `(b, q)`: the mask's row sum added. -/
theorem pay7_at (sq sk1 : Vec Ideal S16x128 .i32) (prev : Vec Ideal S16x128 .f32) (b : Fin 16) (q : Fin 128) :
    k0_pay7 sq sk1 prev (ix2 b q)
      = prev (ix2 b q) + ∑ k : Fin 128, maskE (sq (ix2 b q)) (sk1 (ix2 b k)) := by
  unfold k0_pay7
  simp only [shapeCast_self]
  rw [addf_apply]
  refine congrArg (prev (ix2 b q) + ·) ?_
  refine (laneSum_at _ _ _ b q).trans ?_
  exact Finset.sum_congr rfl fun k _ => mask_at sq sk1 b q k

/-- One k-block's step of the accumulator at `(b, q, d)`: the masked sum of the block's values added. -/
theorem pay6_at (sq sk1 : Vec Ideal S16x128 .i32) (vk1 prev : Vec Ideal S16x128x512 .f32)
    (b : Fin 16) (q : Fin 128) (d : Fin 512) :
    k0_pay6 sq sk1 vk1 prev (ix3 b q d)
      = prev (ix3 b q d) + ∑ k : Fin 128, maskE (sq (ix2 b q)) (sk1 (ix2 b k)) * vk1 (ix3 b k d) := by
  unfold k0_pay6
  simp only [shapeCast_self]
  rw [addf_apply]
  refine congrArg (prev (ix3 b q d) + ·) ?_
  refine (matmul_zero_at _ _ b q d).trans ?_
  refine Finset.sum_congr rfl fun k _ => ?_
  rw [truncf_apply, truncf_apply, mask_at]

/-! ## The zero splats -/

theorem pay2_at (b : Fin 16) (q : Fin 128) (d : Fin 512) : k0_pay2 (F := Ideal) (ix3 b q d) = 0 := by
  unfold k0_pay2
  simp only [shapeCast_self]
  exact Ideal.ofBits_zero_f32

theorem pay3_at (b : Fin 16) (q : Fin 128) : k0_pay3 (F := Ideal) (ix2 b q) = 0 := by
  unfold k0_pay3
  simp only [shapeCast_self]
  exact Ideal.ofBits_zero_f32

/-- The q-block's segment ids pass through the same-shape cast unchanged. -/
theorem pay4_at (sq : Vec Ideal S16x128 .i32) (b : Fin 16) (q : Fin 128) : k0_pay4 sq (ix2 b q) = sq (ix2 b q) := by
  unfold k0_pay4
  simp only [shapeCast_self]

/-! ## The stored block -/

/-- The stored value at `(b, q, d)`: the accumulator over the counter clamped below by one, times the
validity flag of the row's segment id. -/
theorem pay1_at (s4 : IVec S16x128 32) (c : Vec Ideal S16x128 .f32) (a : Vec Ideal S16x128x512 .f32)
    (b : Fin 16) (q : Fin 128) (d : Fin 512) :
    k0_pay1 s4 c a (ix3 b q d)
      = Ideal.div (a (ix3 b q d)) (max (c (ix2 b q)) 1)
        * (if (s4 (ix2 b q)).toInt < (4096#32 : BitVec 32).toInt then (1 : EReal) else 0) := by
  unfold k0_pay1
  rw [mulf_apply, divf_apply, broadcastTo_ab1_abc_apply, broadcastTo_ab1_abc_apply, shapeCast_ab_ab1_apply,
    shapeCast_ab_ab1_apply, maximumf_apply, sitofp_apply, extui_apply]
  show Ideal.div (a (ix3 b q d)) (max (c (ix2 b q)) (Ideal.ofBits .f32 0x3F800000#32))
      * FloatOps.sitofp (F := Ideal) .f32 ((IntOp.cmpi .slt (s4 (ix2 b q)) 4096#32).setWidth 32) = _
  rw [ofBits_one_f32, sitofp_cmpi_slt]

end Cert.KernelIdeal.Acc
-- ==== Proof.KerAccSum.lean ====
import proofs.«126040_j66219805770053_2_alg».proof.Proof.KerAccIdx

/-! The accumulator and the counter after k-blocks 0 … n, read at an index: sums over the k-blocks
of the per-block masked sums, by induction on n; and the stored block in closed form. -/

namespace Cert.KernelIdeal.Acc
open Idealize.ShloMosaic Idealize.ShloMosaic.ValueIdx Cert.KernelIdeal Cert.KernelIdeal.Gen

variable (sq : Vec Ideal S16x128 .i32) (sk : Nat → Vec Ideal S16x128 .i32) (vk : Nat → Vec Ideal S16x128x512 .f32)

/-- The accumulator after k-blocks 0 … n at `(b, q, d)`: the sum over those blocks and over each
block's rows of the mask times the value. -/
theorem acc_at (n : Nat) (b : Fin 16) (q : Fin 128) (d : Fin 512) :
    acc sq sk vk n (ix3 b q d)
      = ∑ j ∈ Finset.range (n + 1), ∑ k : Fin 128, maskE (sq (ix2 b q)) (sk j (ix2 b k)) * vk j (ix3 b k d) := by
  induction n with
  | zero =>
    show k0_pay6 sq (sk 0) (vk 0) (k0_pay2 (F := Ideal)) (ix3 b q d) = _
    rw [pay6_at, pay2_at, zero_add, Finset.sum_range_one]
  | succ n ih =>
    show k0_pay6 sq (sk (n + 1)) (vk (n + 1)) (acc sq sk vk n) (ix3 b q d) = _
    rw [pay6_at, ih, Finset.sum_range_succ _ (n + 1)]

/-- The counter after k-blocks 0 … n at `(b, q)`: the number of rows of those blocks in the row's segment,
as a sum of masks. -/
theorem cnt_at (n : Nat) (b : Fin 16) (q : Fin 128) :
    cnt sq sk n (ix2 b q)
      = ∑ j ∈ Finset.range (n + 1), ∑ k : Fin 128, maskE (sq (ix2 b q)) (sk j (ix2 b k)) := by
  induction n with
  | zero =>
    show k0_pay7 sq (sk 0) (k0_pay3 (F := Ideal)) (ix2 b q) = _
    rw [pay7_at, pay3_at, zero_add, Finset.sum_range_one]
  | succ n ih =>
    show k0_pay7 sq (sk (n + 1)) (cnt sq sk n) (ix2 b q) = _
    rw [pay7_at, ih, Finset.sum_range_succ _ (n + 1)]

/-- The word 4096 read signed is the integer 4096. -/
theorem toInt_4096 : (4096#32 : BitVec 32).toInt = 4096 := by decide

/-- A quotient by a divisor clamped below by one is the extended reals' quotient: the divisor is not zero. -/
theorem div_max_one (x c : EReal) : Ideal.div x (max c 1) = x / max c 1 := by
  have h : max c 1 ≠ 0 := ne_of_gt (lt_of_lt_of_le zero_lt_one (le_max_right c 1))
  unfold Ideal.div
  rw [if_neg h, div_eq_mul_inv]

/-- The block stored at the last k-block, at `(b, q, d)`: the masked sum of all 32 k-blocks' values over the
count of the row's segment clamped below by one, times the row's validity flag. -/
theorem outBlock_at (b : Fin 16) (q : Fin 128) (d : Fin 512) :
    outBlock sq sk vk (ix3 b q d)
      = (∑ j ∈ Finset.range 32, ∑ k : Fin 128, maskE (sq (ix2 b q)) (sk j (ix2 b k)) * vk j (ix3 b k d))
          / max (∑ j ∈ Finset.range 32, ∑ k : Fin 128, maskE (sq (ix2 b q)) (sk j (ix2 b k))) 1
        * (if (sq (ix2 b q)).toInt < 4096 then (1 : EReal) else 0) := by
  unfold outBlock
  rw [pay1_at, pay4_at, acc_at, cnt_at, div_max_one, toInt_4096]

end Cert.KernelIdeal.Acc
-- ==== Proof.Bridge.lean ====
/-
  The bridge.  Under the three facts about the segment ids — every id lies in [0, 4096]; a valid position's id is
  below 4096; an invalid position's id is 4096 — the reference's result at (b, t, e) is

      (∑ t', [seg b t = seg b t'] · X b t' e) / max (∑ t', [seg b t = seg b t']) 1 · [seg b t < 4096],

  the value the kernel accumulates: at a valid position the bucket seg[b,t] collects exactly the (valid) positions with
  that id, and at an invalid one both sides are zero.  Only x·1 = x, 0·x = 0 and x·0 = 0 on the extended reals are used.
-/
import proofs.«126040_j66219805770053_2_alg».proof.Proof.RefTail
import Idealize.ShloMosaic.Lib.ValueIdx
import Idealize.ShloMosaic.Lib.ValueLayout
import Idealize.ShloMosaic.Lib.Pipeline.Value
import proofs.«126040_j66219805770053_2_alg».proof.Proof.RefClosed
import proofs.«126040_j66219805770053_2_alg».proof.Proof.KerAccSum

noncomputable section

namespace Cert.RefTail

open Idealize.ShloMosaic Idealize.ShloMosaic.ValueIdx Cert.ReferenceIdeal
open Cert.ReferenceIdeal.Facts₀ Cert.ReferenceIdeal.Facts

variable [Cert.ReferenceIdeal.Facts]

open scoped BigOperators
open Cert.KernelIdeal.Acc (maskE)

/-- a word in [0, 4095] is its own clip. -/
theorem clipW_of_lt (s : BitVec 32) (h : s.toNat < 4096) : clipW s = s := by
  have h0 : s.toInt = (s.toNat : Int) := by rw [BitVec.toInt_eq_toNat_cond, if_pos (by omega)]
  have h1 : s.slt 0#32 = false := by
    simp only [BitVec.slt, h0]; simp
  have h2 : (4095#32 : BitVec 32).slt s = false := by
    simp only [BitVec.slt, h0]; simp; omega
  unfold clipW IntOp.minsi IntOp.maxsi
  simp [h1, h2]

theorem readBucket_val (s : BitVec 32) (h : s.toNat < 4096) : (readBucket s).val = s.toNat := by
  have h0 : s.toInt = (s.toNat : Int) := by rw [BitVec.toInt_eq_toNat_cond, if_pos (by omega)]
  show min (clipW s).toInt.toNat 4095 = s.toNat
  rw [clipW_of_lt s h, h0]; omega

theorem uitofp_one : FloatOps.uitofp (F := Ideal) .f32 (1#1 : BitVec 1) = (1 : EReal) := by
  show (((1#1 : BitVec 1).toNat : ℝ) : EReal) = 1
  simp

/-- the value both programs compute, as one function of the segment ids and the values. -/
def meanOf (seg : IVec S16x4096 32) (X : FVec Ideal S16x4096x512 .f32) (b : Fin 16) (t : Fin 4096) (e : Fin 512) : EReal :=
  (∑ t' : Fin 4096, maskE (seg (ix2 b t)) (seg (ix2 b t')) * X (ix3 b t' e))
    / max (∑ t' : Fin 4096, maskE (seg (ix2 b t)) (seg (ix2 b t'))) 1
    * (if (seg (ix2 b t)).toInt < 4096 then (1 : EReal) else 0)

theorem out_eq_meanOf (valid : IVec S16x4096 1) (seg : IVec S16x4096 32) (X : FVec Ideal S16x4096x512 .f32)
    (Hr : ∀ b t, (seg (ix2 b t)).toNat ≤ 4096)
    (Hv : ∀ b t, valid (ix2 b t) = 1#1 → (seg (ix2 b t)).toNat < 4096)
    (Hi : ∀ b t, valid (ix2 b t) ≠ 1#1 → seg (ix2 b t) = 4096#32)
    (b : Fin 16) (t : Fin 4096) (e : Fin 512) :
    out valid seg X (ix3 b t e) = meanOf seg X b t e := by
  rw [out_apply]
  unfold meanOf
  by_cases hv : valid (ix2 b t) = 1#1
  · have hs := Hv b t hv
    have hsI : (seg (ix2 b t)).toInt = ((seg (ix2 b t)).toNat : Int) := by
      rw [BitVec.toInt_eq_toNat_cond, if_pos (by omega)]
    rw [hv, select_one, agg_apply, sums_bucket valid seg X Hr, counts_bucket valid seg Hr, readBucket_val _ hs,
      if_pos (by rw [hsI]; omega), mul_one, Ideal.ofBits_zero_f32, zero_add, zero_add, Cert.KernelIdeal.Acc.ofBits_one_f32,
      max_comm, Cert.KernelIdeal.Acc.div_max_one]
    have key : ∀ t' : Fin 4096, (seg (ix2 b t')).toNat = (seg (ix2 b t)).toNat → valid (ix2 b t') = 1#1 := by
      intro t' h
      by_contra hc
      have := Hi b t' hc
      rw [this] at h
      have : (4096#32 : BitVec 32).toNat = 4096 := by decide
      omega
    congr 1
    · refine Finset.sum_congr rfl fun t' _ => ?_
      unfold Cert.KernelIdeal.Acc.maskE
      by_cases h : (seg (ix2 b t')).toNat = (seg (ix2 b t)).toNat
      · rw [if_pos h, key t' h, select_one, if_pos (BitVec.eq_of_toNat_eq h.symm), one_mul]
      · rw [if_neg h, if_neg (fun h' => h (by rw [h'])), zero_mul]
    · congr 1
      refine Finset.sum_congr rfl fun t' _ => ?_
      unfold Cert.KernelIdeal.Acc.maskE
      by_cases h : (seg (ix2 b t')).toNat = (seg (ix2 b t)).toNat
      · rw [if_pos h, key t' h, uitofp_one, if_pos (BitVec.eq_of_toNat_eq h.symm)]
      · rw [if_neg h, if_neg (fun h' => h (by rw [h']))]
  · have hs := Hi b t hv
    have h4 : (4096#32 : BitVec 32).toInt = 4096 := by decide
    rw [show Scalar.select (valid (ix2 b t)) _ (Ideal.ofBits .f32 0x00000000#32) = Ideal.ofBits .f32 0x00000000#32 from if_neg hv,
      hs, h4, if_neg (by omega), mul_zero, Ideal.ofBits_zero_f32]

end Cert.RefTail

end
-- ==== Proof.SegScan.lean ====
import Idealize.ShloMosaic.Lib.ValueIdx
import Idealize.ShloMosaic.PureOps
import Mathlib.Algebra.BigOperators.Group.Finset.Basic
import Mathlib.Algebra.BigOperators.Intervals

/-!
# The two row scans read at an index

`jnp.cumsum` and the running maximum along a row of a `[16, 4096]` array are both a windowed reduction with a window of
`4096` columns and `4095` columns of low padding: the window that ends at column `t` holds `4095 - t` padding values and
then the row's columns `0 … t`. Read at `(b, t)` the reduction is therefore a left fold over `4096` window positions
(`reduceWindow_row_apply`), and

* for wrapping addition from `0` over entries that are `0` or `1`, the value (as a natural number) is the sum of the
  entries of row `b` at columns `≤ t`: at most `t + 1`, so nothing wraps (`cumsum_apply_toNat`);
* for the signed maximum from the least 32-bit integer, the value is an upper bound of the entries of row `b` at
  columns `≤ t` and is one of them (`cummax_apply_ge`, `cummax_apply_mem`).
-/

open scoped BigOperators

namespace Cert.Seg

open Idealize.ShloMosaic Idealize.ShloMosaic.ValueIdx

/-! ## Folds over positions -/

/-- A left fold over `List.finRange N` of a step that reads only the position's value is the fold over `List.range N`. -/
theorem foldl_finRange_val {β : Type} (g : β → Nat → β) (v : β) :
    ∀ N : Nat, (List.finRange N).foldl (fun r (n : Fin N) => g r n.val) v = (List.range N).foldl g v
  | 0 => by simp
  | N + 1 => by
    rw [List.finRange_succ_last, List.range_succ, List.foldl_append, List.foldl_append, List.foldl_map]
    have := foldl_finRange_val g v N
    simp only [Fin.coe_castSucc, List.foldl_cons, List.foldl_nil, Fin.val_last] at this ⊢
    rw [this]

/-- The array's shape and the window's. -/
abbrev Sh : Shape := ⟨2, ![16, 4096]⟩
abbrev Sw : Shape := ⟨2, ![1, 4096]⟩

theorem Sw_numel : Sw.numel = 4096 := by simp [Shape.numel, Fin.prod_univ_two]

/-- The window position with row-major number `n` is row `0`, column `n`. -/
theorem Sw_coords (n : Fin Sw.numel) :
    (Sw.rowMajor.symm n 0).val = 0 ∧ (Sw.rowMajor.symm n 1).val = n.val := by
  have h := Shape.rowMajor_val_two (Sw.rowMajor.symm n)
  rw [Equiv.apply_symm_apply] at h
  have h0 : (Sw.rowMajor.symm n 0).val < 1 := (Sw.rowMajor.symm n 0).isLt
  have e : (![1, 4096] : Fin 2 → Nat) 1 = 4096 := rfl
  rw [e] at h
  omega

/-! ## The windowed reduction at an index -/

/-- What the window of row `b` ending at column `t` holds at its `k`-th position: padding while `t + k < 4095`,
    then the operand at column `t + k - 4095`. -/
def winAt {α : Type} (x : Sh.Idx → α) (v : α) (b : Fin 16) (t : Fin 4096) (k : Nat) : α :=
  if hk : 4095 ≤ t.val + k ∧ t.val + k - 4095 < 4096 then x (ix2 b ⟨t.val + k - 4095, hk.2⟩) else v

/-- The windowed reduction read at `(b, t)`: the left fold of `f` from the initial value over the window's 4096 positions. -/
theorem reduceWindow_row_apply {α : Type} {u : Shape} (f : α → α → α) (x : Sh.Idx → α) (init : u.Idx → α)
    (h : Sh.ReduceWindows ![1, 4096] ![1, 1] ![0, 4095] ![0, 0] Sh) (hu : 0 < u.numel) (b : Fin 16) (t : Fin 4096) :
    Host.reduceWindow f ![1, 4096] ![1, 1] ![0, 4095] ![0, 0] x init h hu (ix2 b t)
      = (List.range 4096).foldl (fun r k => f r (winAt x (init (Shape.Idx.first hu)) b t k)) (init (Shape.Idx.first hu)) := by
  unfold Host.reduceWindow
  dsimp only
  have e : List.range 4096 = List.range Sw.numel := by rw [Sw_numel]
  rw [e, ← foldl_finRange_val (fun r k => f r (winAt x (init (Shape.Idx.first hu)) b t k)) _ Sw.numel]
  refine congrArg (fun g => List.foldl g _ _) ?_
  funext r n
  refine congrArg (f r) ?_
  obtain ⟨h0, h1⟩ := Sw_coords n
  unfold winAt
  by_cases hk : 4095 ≤ t.val + n.val ∧ t.val + n.val - 4095 < 4096
  · rw [dif_pos hk, dif_pos]
    · refine congrArg x (funext fun a => ?_)
      match a with
      | ⟨0, _⟩ =>
        apply Fin.ext
        show b.val * 1 + (Sw.rowMajor.symm n 0).val - 0 = b.val
        omega
      | ⟨1, _⟩ =>
        apply Fin.ext
        show t.val * 1 + (Sw.rowMajor.symm n 1).val - 4095 = t.val + n.val - 4095
        omega
    · intro a
      match a with
      | ⟨0, _⟩ =>
        show 0 ≤ b.val * 1 + (Sw.rowMajor.symm n 0).val ∧ b.val * 1 + (Sw.rowMajor.symm n 0).val - 0 < 16
        have := b.isLt
        omega
      | ⟨1, _⟩ =>
        show 4095 ≤ t.val * 1 + (Sw.rowMajor.symm n 1).val ∧ t.val * 1 + (Sw.rowMajor.symm n 1).val - 4095 < 4096
        omega
  · rw [dif_neg hk, dif_neg]
    intro hin
    apply hk
    have h1' := hin ⟨1, by decide⟩
    change 4095 ≤ t.val * 1 + (Sw.rowMajor.symm n 1).val ∧ t.val * 1 + (Sw.rowMajor.symm n 1).val - 4095 < 4096 at h1'
    omega

/-- Row `b` of the array by column number, `0` past the row's end. -/
def rowAt (x : Sh.Idx → BitVec 32) (b : Fin 16) (j : Nat) : BitVec 32 :=
  if h : j < 4096 then x (ix2 b ⟨j, h⟩) else 0#32

theorem rowAt_fin (x : Sh.Idx → BitVec 32) (b : Fin 16) (j : Fin 4096) : rowAt x b j.val = x (ix2 b j) := by
  unfold rowAt; rw [dif_pos j.isLt]

/-- The window's positions past the padding are the row's columns. -/
theorem winAt_of_le (x : Sh.Idx → BitVec 32) (v : BitVec 32) (b : Fin 16) (t : Fin 4096) (k : Nat)
    (hk : 4095 ≤ t.val + k) (hk' : k < 4096) : winAt x v b t k = rowAt x b (t.val + k - 4095) := by
  have ht := t.isLt
  have h2 : t.val + k - 4095 < 4096 := by omega
  unfold winAt rowAt; rw [dif_pos ⟨hk, h2⟩, dif_pos h2]

theorem winAt_of_lt (x : Sh.Idx → BitVec 32) (v : BitVec 32) (b : Fin 16) (t : Fin 4096) (k : Nat)
    (hk : t.val + k < 4095) : winAt x v b t k = v := by
  unfold winAt; rw [dif_neg (by omega)]

/-! ## The running sum -/

/-- A wrapping sum of words that are `0` or `1`, fewer than `2 ^ 32` of them, is their count. -/
theorem foldl_addi_toNat (G : Nat → BitVec 32) (hG : ∀ k, (G k).toNat ≤ 1) :
    ∀ m : Nat, m < 2 ^ 32 →
      ((List.range m).foldl (fun r k => IntOp.addi r (G k)) 0#32).toNat = ∑ k ∈ Finset.range m, (G k).toNat ∧
      ∑ k ∈ Finset.range m, (G k).toNat ≤ m
  | 0, _ => by simp
  | m + 1, hm => by
    obtain ⟨ih, hle⟩ := foldl_addi_toNat G hG m (by omega)
    have h1 := hG m
    rw [List.range_succ, List.foldl_append, List.foldl_cons, List.foldl_nil, Finset.sum_range_succ]
    simp only [IntOp.addi] at ih ⊢
    rw [BitVec.toNat_add, ih]
    constructor
    · exact Nat.mod_eq_of_lt (by omega)
    · omega

/-- A sum over a window of `d + (t + 1)` positions whose first `d` are padding is the sum of the last `t + 1`. -/
theorem sum_window_gen (X : Nat → Nat) (d t : Nat) :
    ∑ k ∈ Finset.range (d + (t + 1)), (if d + t ≤ t + k then X (t + k - (d + t)) else 0)
      = ∑ j ∈ Finset.range (t + 1), X j := by
  rw [Finset.sum_range_add]
  have z : ∑ k ∈ Finset.range d, (if d + t ≤ t + k then X (t + k - (d + t)) else 0) = 0 :=
    Finset.sum_eq_zero fun k hk => by
      have := Finset.mem_range.1 hk
      rw [if_neg (by omega)]
  rw [z, Nat.zero_add]
  refine Finset.sum_congr rfl fun j hj => ?_
  rw [if_pos (by omega)]
  congr 1
  omega

/-- The window's sum is the sum of the row's columns `0 … t`. -/
theorem sum_window (X : Nat → Nat) (t : Nat) (ht : t < 4096) :
    ∑ k ∈ Finset.range 4096, (if 4095 ≤ t + k then X (t + k - 4095) else 0) = ∑ j ∈ Finset.range (t + 1), X j := by
  have h := sum_window_gen X (4095 - t) t
  rw [show 4095 - t + (t + 1) = 4096 by omega, show 4095 - t + t = 4095 by omega] at h
  exact h

/-- The running sum from `0` of an array of zeros and ones, read at `(b, t)`: the sum of row `b`'s columns `0 … t`. -/
theorem cumsum_apply_toNat {u : Shape} (x : Sh.Idx → BitVec 32) (hx : ∀ i, (x i).toNat ≤ 1) (init : u.Idx → BitVec 32)
    (h : Sh.ReduceWindows ![1, 4096] ![1, 1] ![0, 4095] ![0, 0] Sh) (hu : 0 < u.numel)
    (hinit : init (Shape.Idx.first hu) = 0#32) (b : Fin 16) (t : Fin 4096) :
    (Host.reduceWindow IntOp.addi ![1, 4096] ![1, 1] ![0, 4095] ![0, 0] x init h hu (ix2 b t)).toNat
      = ∑ j ∈ Finset.range (t.val + 1), (rowAt x b j).toNat := by
  rw [reduceWindow_row_apply, hinit]
  have hrow : ∀ j, (rowAt x b j).toNat ≤ 1 := fun j => by
    unfold rowAt; split
    · exact hx _
    · simp
  have hG : ∀ k, (winAt x 0#32 b t k).toNat ≤ 1 := fun k => by
    unfold winAt; split
    · exact hx _
    · simp
  rw [(foldl_addi_toNat _ hG 4096 (by norm_num)).1, ← sum_window (fun j => (rowAt x b j).toNat) t.val t.isLt]
  refine Finset.sum_congr rfl fun k hk => ?_
  have hk' := Finset.mem_range.1 hk
  by_cases hc : 4095 ≤ t.val + k
  · rw [if_pos hc, winAt_of_le x _ b t k hc hk']
  · rw [if_neg hc, winAt_of_lt x _ b t k (by omega)]; rfl

/-- The sum of the first `n` entries of a row of zeros and ones is at most `n`. -/
theorem sum_rowAt_le (x : Sh.Idx → BitVec 32) (hx : ∀ i, (x i).toNat ≤ 1) (b : Fin 16) (n : Nat) :
    ∑ j ∈ Finset.range n, (rowAt x b j).toNat ≤ n := by
  have hrow : ∀ j, (rowAt x b j).toNat ≤ 1 := fun j => by
    unfold rowAt; split
    · exact hx _
    · simp
  induction n with
  | zero => simp
  | succ n ih => rw [Finset.sum_range_succ]; have := hrow n; omega

/-! ## The running maximum -/

theorem maxsi_eq (r y : BitVec 32) : IntOp.maxsi r y = if y.toInt < r.toInt then r else y := by
  unfold IntOp.maxsi
  by_cases h : y.toInt < r.toInt
  · rw [if_pos h, if_pos (BitVec.slt_iff_toInt_lt.2 h)]
  · rw [if_neg h, if_neg (fun h' => h (BitVec.slt_iff_toInt_lt.1 h'))]

/-- A left fold of the signed maximum from `v` bounds `v` and every folded word, and is `v` or one of them. -/
theorem foldl_maxsi_spec (G : Nat → BitVec 32) (v : BitVec 32) :
    ∀ m : Nat,
      (v.toInt ≤ ((List.range m).foldl (fun r k => IntOp.maxsi r (G k)) v).toInt ∧
        ∀ k < m, (G k).toInt ≤ ((List.range m).foldl (fun r k => IntOp.maxsi r (G k)) v).toInt) ∧
      ((List.range m).foldl (fun r k => IntOp.maxsi r (G k)) v = v ∨
        ∃ k < m, (List.range m).foldl (fun r k => IntOp.maxsi r (G k)) v = G k)
  | 0 => by simp
  | m + 1 => by
    obtain ⟨⟨ihv, ihk⟩, ihm⟩ := foldl_maxsi_spec G v m
    rw [List.range_succ, List.foldl_append, List.foldl_cons, List.foldl_nil, maxsi_eq]
    by_cases hlt : (G m).toInt < ((List.range m).foldl (fun r k => IntOp.maxsi r (G k)) v).toInt
    · rw [if_pos hlt]
      refine ⟨⟨ihv, fun k hk => ?_⟩, ?_⟩
      · rcases Nat.lt_succ_iff_lt_or_eq.1 hk with hk | rfl
        · exact ihk k hk
        · exact Int.le_of_lt hlt
      · rcases ihm with h | ⟨k, hk, h⟩
        · exact Or.inl h
        · exact Or.inr ⟨k, Nat.lt_succ_of_lt hk, h⟩
    · rw [if_neg hlt]
      have hge := Int.not_lt.1 hlt
      refine ⟨⟨Int.le_trans ihv hge, fun k hk => ?_⟩, Or.inr ⟨m, Nat.lt_succ_self m, rfl⟩⟩
      rcases Nat.lt_succ_iff_lt_or_eq.1 hk with hk | rfl
      · exact Int.le_trans (ihk k hk) hge
      · exact Int.le_refl _

/-- The running signed maximum from the least integer, read at `(b, t)`, is at least every entry of row `b` at a
    column `≤ t`. -/
theorem cummax_apply_ge {u : Shape} (x : Sh.Idx → BitVec 32) (init : u.Idx → BitVec 32)
    (h : Sh.ReduceWindows ![1, 4096] ![1, 1] ![0, 4095] ![0, 0] Sh) (hu : 0 < u.numel)
    (b : Fin 16) (t j : Fin 4096) (hj : j.val ≤ t.val) :
    (x (ix2 b j)).toInt
      ≤ (Host.reduceWindow IntOp.maxsi ![1, 4096] ![1, 1] ![0, 4095] ![0, 0] x init h hu (ix2 b t)).toInt := by
  rw [reduceWindow_row_apply]
  have ht := t.isLt
  have := (foldl_maxsi_spec (winAt x (init (Shape.Idx.first hu)) b t) (init (Shape.Idx.first hu)) 4096).1.2
    (4095 - t.val + j.val) (by omega)
  rw [winAt_of_le x _ b t _ (by omega) (by omega)] at this
  have e : t.val + (4095 - t.val + j.val) - 4095 = j.val := by omega
  rw [e, rowAt_fin] at this
  exact this

/-- The running signed maximum from the least integer, read at `(b, t)`, is one of row `b`'s entries at a column `≤ t`. -/
theorem cummax_apply_mem {u : Shape} (x : Sh.Idx → BitVec 32) (init : u.Idx → BitVec 32)
    (h : Sh.ReduceWindows ![1, 4096] ![1, 1] ![0, 4095] ![0, 0] Sh) (hu : 0 < u.numel)
    (hinit : init (Shape.Idx.first hu) = 2147483648#32) (b : Fin 16) (t : Fin 4096) :
    ∃ j : Fin 4096, j.val ≤ t.val ∧
      Host.reduceWindow IntOp.maxsi ![1, 4096] ![1, 1] ![0, 4095] ![0, 0] x init h hu (ix2 b t) = x (ix2 b j) := by
  have hge := cummax_apply_ge x init h hu b t t (Nat.le_refl _)
  rw [reduceWindow_row_apply] at hge ⊢
  have ht := t.isLt
  rcases (foldl_maxsi_spec (winAt x (init (Shape.Idx.first hu)) b t) (init (Shape.Idx.first hu)) 4096).2 with hv | ⟨k, hk, hR⟩
  · -- the fold is the least integer: so is the entry at column t, which it bounds
    refine ⟨t, Nat.le_refl _, ?_⟩
    rw [hv, hinit] at hge ⊢
    apply BitVec.eq_of_toInt_eq
    have hlo := BitVec.le_toInt (x (ix2 b t))
    have e : (2147483648#32 : BitVec 32).toInt = -2147483648 := by decide
    rw [e] at hge ⊢
    norm_num at hlo
    omega
  · by_cases hc : 4095 ≤ t.val + k
    · have h2 : t.val + k - 4095 < 4096 := by omega
      refine ⟨⟨t.val + k - 4095, h2⟩, by show t.val + k - 4095 ≤ t.val; omega, ?_⟩
      rw [hR, winAt_of_le x _ b t k hc hk]
      exact rowAt_fin x b ⟨t.val + k - 4095, h2⟩
    · refine ⟨t, Nat.le_refl _, ?_⟩
      rw [winAt_of_lt x _ b t k (by omega)] at hR
      rw [hR, hinit] at hge ⊢
      apply BitVec.eq_of_toInt_eq
      have hlo := BitVec.le_toInt (x (ix2 b t))
      have e : (2147483648#32 : BitVec 32).toInt = -2147483648 := by decide
      rw [e] at hge ⊢
      norm_num at hlo
      omega

end Cert.Seg
-- ==== Proof.SegFacts.lean ====
import proofs.«126040_j66219805770053_2_alg».proof.Proof.SegChain
import proofs.«126040_j66219805770053_2_alg».proof.Proof.SegScan
import Idealize.ShloMosaic.Lib.Pipeline.Value

/-!
# The integer facts about the segment-id chain

For every array of word ids `W`, row `b` and column `t`, with `wv = W (b, t)` and `s = segOf W (b, t)`:

* `valid_iff`  : the validity bit is `1` exactly when `0 ≤ wv`;
* `seg_valid`  : `0 ≤ wv → 0 ≤ s < 4096`;
* `seg_invalid`: `wv < 0 → s = 4096`.

For `seg_valid`: at a valid position `s = c - 1` with `c` the running count of segment starts in columns `0 … t`.
The count is at most `t + 1 ≤ 4096`, every summand being `0` or `1`. It is at least `1`: at the FIRST valid column
`j₀ ≤ t` every earlier column holds position `-1`, so the running maximum before `j₀` is `-1` (and at column `0` the
shifted-in word is `-1`), the test `prev < 0` holds, and `j₀` starts a segment — whatever word the look-up of the
previous id returns there.
-/

open scoped BigOperators

namespace Cert.Seg

open Idealize.ShloMosaic Idealize.ShloMosaic.ValueIdx
open Cert.ReferenceIdeal
open Cert.ReferenceIdeal.Facts₀ Cert.ReferenceIdeal.Facts

variable [Cert.ReferenceIdeal.Facts]

theorem s0_apply (i : S16x4096.Idx) : s0 i = 0#32 := rfl

theorem s1_apply (W : Words) (i : S16x4096.Idx) : s1 W i = 1#1 ↔ 0 ≤ (W i).toInt := by
  show BitVec.ofBool ((0#32 : BitVec 32).sle (W i)) = 1#1 ↔ _
  rw [BitVec.sle_eq_decide]
  have e : (0#32 : BitVec 32).toInt = 0 := by decide
  rw [e]
  by_cases h : 0 ≤ (W i).toInt
  · simp [h]
  · simp [h]

theorem s4_apply_invalid (W : Words) (i : S16x4096.Idx) (h : ¬ s1 W i = 1#1) : s4 W i = 4294967295#32 := by
  show Scalar.select (s1 W i) (s4_v1 i) (s4_v2 i) = _
  rw [eq_zero_of_ne_one h, select_zero]
  rfl

theorem s5_v0_first : s5_v0 (Shape.Idx.first h_S_) = 2147483648#32 := rfl

theorem s17_v0_first : s17_v0 (Shape.Idx.first h_S_) = 0#32 := rfl

/-- Where every position up to `t` holds the same word, so does the running maximum. -/
theorem s5_apply_const (W : Words) (b : Fin 16) (t : Fin 4096) (c : BitVec 32)
    (hc : ∀ j : Fin 4096, j.val ≤ t.val → s4 W (ix2 b j) = c) : s5 W (ix2 b t) = c := by
  obtain ⟨j, hj, e⟩ := cummax_apply_mem (s4 W) s5_v0 reduceWindows_S16x4096_S16x4096_w1s1p0_0_w4096s1p4095_0 h_S_ s5_v0_first b t
  show Host.reduceWindow IntOp.maxsi ![1, 4096] ![1, 1] ![0, 4095] ![0, 0] (s4 W) s5_v0 _ _ (ix2 b t) = c
  rw [e]
  exact hc j hj

theorem s8_apply_zero (W : Words) (b : Fin 16) : s8 W (ix2 b ⟨0, by decide⟩) = 4294967295#32 := by
  have hi : ∀ a : Fin S16x1.rank, ((ix2 b (⟨0, by decide⟩ : Fin 1) : S16x1.Idx) a).val
      = ((ix2 b (⟨0, by decide⟩ : Fin 4096) : S16x4096.Idx) (a.cast rfl)).val := fun a => by
    match a with
    | ⟨0, _⟩ => rfl
    | ⟨1, _⟩ => rfl
  exact (concatenate_pair_apply_left (t := S16x4096) (s₁ := S16x1) (s₂ := S16x4095) (1 : Fin 2) s6 (s7 W)
    concatenates_S16x1_S16x4095_S16x4096_d1 (ix2 b ⟨0, by decide⟩) rfl (ix2 b ⟨0, by decide⟩) hi).trans rfl

theorem s8_apply_succ (W : Words) (b : Fin 16) (j : Nat) (hj : j + 1 < 4096) :
    s8 W (ix2 b ⟨j + 1, hj⟩) = s5 W (ix2 b ⟨j, by omega⟩) := by
  have hj' : j < 4095 := by omega
  have hi : ∀ a : Fin S16x4095.rank, a.cast (rfl : S16x4095.rank = S16x4096.rank) ≠ (1 : Fin 2) →
      ((ix2 b (⟨j, hj'⟩ : Fin 4095) : S16x4095.Idx) a).val
        = ((ix2 b (⟨j + 1, hj⟩ : Fin 4096) : S16x4096.Idx) (a.cast rfl)).val := fun a ha => by
    match a with
    | ⟨0, _⟩ => rfl
    | ⟨1, _⟩ => exact absurd rfl ha
  have ha : ((ix2 b (⟨j, hj'⟩ : Fin 4095) : S16x4095.Idx) ((1 : Fin 2).cast rfl)).val + S16x1.size ((1 : Fin 2).cast rfl)
      = ((ix2 b (⟨j + 1, hj⟩ : Fin 4096) : S16x4096.Idx) (1 : Fin 2)).val := by
    show j + 1 = j + 1
    rfl
  have h1 := concatenate_pair_apply_right (t := S16x4096) (s₁ := S16x1) (s₂ := S16x4095) (1 : Fin 2) s6 (s7 W)
    concatenates_S16x1_S16x4095_S16x4096_d1 (ix2 b ⟨j + 1, hj⟩) rfl rfl (ix2 b ⟨j, hj'⟩) hi ha
  have h2 : extractStridedSlice S16x4095 ![0, 0] (s5 W) slices_S16x4096_S16x4095_0_0 (ix2 b ⟨j, hj'⟩)
      = s5 W (ix2 b ⟨j, by omega⟩) :=
    extractStridedSlice_apply (s := S16x4096) (t := S16x4095) ![0, 0] (s5 W) slices_S16x4096_S16x4095_0_0
      (ix2 b ⟨j, hj'⟩) (ix2 b ⟨j, by omega⟩) (fun a => by
        match a with
        | ⟨0, _⟩ => show b.val = 0 + b.val; omega
        | ⟨1, _⟩ => show j = 0 + j; omega)
  exact h1.trans h2

/-- A position whose predecessor word is `-1` passes the test `prev < 0`. -/
theorem s12_apply_of_neg_one (W : Words) (i : S16x4096.Idx) (h : s8 W i = 4294967295#32) : s12 W i = 1#1 := by
  show IntOp.cmpi .slt (s8 W i) (s11 i) = 1#1
  rw [h]
  rfl

/-- A valid position that passes the test `prev < 0` starts a segment. -/
theorem s15_apply_of_first (W : Words) (i : S16x4096.Idx) (hv : s1 W i = 1#1) (hp : s12 W i = 1#1) : s15 W i = 1#1 := by
  show IntOp.andi (s1 W i) (IntOp.ori (s12 W i) (s13 W i)) = 1#1
  rw [hv, hp]
  by_cases h13 : s13 W i = 1#1
  · rw [h13]; rfl
  · rw [eq_zero_of_ne_one h13]; rfl

theorem s16_apply_le (W : Words) (i : S16x4096.Idx) : (s16 W i).toNat ≤ 1 := by
  show ((s15 W i).setWidth 32).toNat ≤ 1
  rw [BitVec.toNat_setWidth_of_le (by decide)]
  have := (s15 W i).isLt
  omega

theorem s16_apply_of_one (W : Words) (i : S16x4096.Idx) (h : s15 W i = 1#1) : s16 W i = 1#32 := by
  show (s15 W i).setWidth 32 = 1#32
  rw [h]
  rfl

/-- The running count of segment starts at `(b, t)`, as a natural number. -/
theorem s17_apply_toNat (W : Words) (b : Fin 16) (t : Fin 4096) :
    (s17 W (ix2 b t)).toNat = ∑ j ∈ Finset.range (t.val + 1), (rowAt (s16 W) b j).toNat :=
  cumsum_apply_toNat (s16 W) (s16_apply_le W) s17_v0 reduceWindows_S16x4096_S16x4096_w1s1p0_0_w4096s1p4095_0 h_S_
    s17_v0_first b t

theorem s19_apply (W : Words) (i : S16x4096.Idx) : s19 W i = s17 W i - 1#32 := rfl

theorem s20_apply (W : Words) (i : S16x4096.Idx) : s20 W i = Scalar.select (s1 W i) (s19 W i) 4096#32 := rfl

/-! ## The three facts -/

/-- A position is valid exactly when its word id is non-negative. -/
theorem valid_iff (W : Words) (b : Fin 16) (t : Fin 4096) :
    validOf W (ix2 b t) = 1#1 ↔ 0 ≤ (W (ix2 b t)).toInt := s1_apply W (ix2 b t)

/-- At a padding position the segment id is the sentinel `4096`. -/
theorem seg_invalid (W : Words) (b : Fin 16) (t : Fin 4096) (h : (W (ix2 b t)).toInt < 0) :
    segOf W (ix2 b t) = 4096#32 := by
  have hv : ¬ s1 W (ix2 b t) = 1#1 := fun hv => by
    have := (s1_apply W (ix2 b t)).1 hv
    omega
  show s20 W (ix2 b t) = _
  rw [s20_apply, eq_zero_of_ne_one hv, select_zero]

/-- In a row with a valid position at or before `t`, some position at or before `t` starts a segment: the first
    valid one, whose predecessor word is `-1`. -/
theorem exists_start (W : Words) (b : Fin 16) (t : Fin 4096) (h : 0 ≤ (W (ix2 b t)).toInt) :
    ∃ j : Fin 4096, j.val ≤ t.val ∧ s16 W (ix2 b j) = 1#32 := by
  classical
  have hex : ∃ j : Nat, ∃ hj : j < 4096, 0 ≤ (W (ix2 b ⟨j, hj⟩)).toInt := ⟨t.val, t.isLt, h⟩
  obtain ⟨hj0, hv0⟩ := Nat.find_spec hex
  have hmin : ∀ j : Fin 4096, j.val < Nat.find hex → ¬ s1 W (ix2 b j) = 1#1 := fun j hj hv =>
    Nat.find_min hex hj ⟨j.isLt, (s1_apply W (ix2 b j)).1 hv⟩
  have hle : Nat.find hex ≤ t.val := Nat.find_min' hex ⟨t.isLt, h⟩
  refine ⟨⟨Nat.find hex, hj0⟩, hle, ?_⟩
  refine s16_apply_of_one W _ (s15_apply_of_first W _ ((s1_apply W _).2 hv0) (s12_apply_of_neg_one W _ ?_))
  -- the predecessor word at the first valid position is -1
  generalize hJ : Nat.find hex = J at hj0 hmin
  cases J with
  | zero => exact s8_apply_zero W b
  | succ J =>
    rw [s8_apply_succ W b J hj0]
    refine s5_apply_const W b ⟨J, by omega⟩ _ fun j hj => ?_
    exact s4_apply_invalid W _ (hmin j (by show j.val < J + 1; have : j.val ≤ J := hj; omega))

/-- At a valid position the segment id is a row position: between `0` and `4095`. -/
theorem seg_valid (W : Words) (b : Fin 16) (t : Fin 4096) (h : 0 ≤ (W (ix2 b t)).toInt) :
    0 ≤ (segOf W (ix2 b t)).toInt ∧ (segOf W (ix2 b t)).toInt < 4096 := by
  have hv : s1 W (ix2 b t) = 1#1 := (s1_apply W (ix2 b t)).2 h
  have hs : segOf W (ix2 b t) = s17 W (ix2 b t) - 1#32 := by
    show s20 W (ix2 b t) = _
    rw [s20_apply, hv, select_one, s19_apply]
  -- the count is between 1 and t + 1
  have hc := s17_apply_toNat W b t
  have hup := sum_rowAt_le (s16 W) (s16_apply_le W) b (t.val + 1)
  obtain ⟨j, hj, hj1⟩ := exists_start W b t h
  have hlo : 1 ≤ ∑ k ∈ Finset.range (t.val + 1), (rowAt (s16 W) b k).toNat := by
    have hone : (rowAt (s16 W) b j.val).toNat = 1 := by rw [rowAt_fin, hj1]; rfl
    have := Finset.single_le_sum (f := fun k => (rowAt (s16 W) b k).toNat) (fun _ _ => Nat.zero_le _)
      (Finset.mem_range.2 (show j.val < t.val + 1 by omega))
    simp only [hone] at this
    exact this
  have ht := t.isLt
  have hn : (s17 W (ix2 b t) - 1#32).toNat = (s17 W (ix2 b t)).toNat - 1 := by
    rw [BitVec.toNat_sub]
    have e1 : (1#32 : BitVec 32).toNat = 1 := rfl
    have := (s17 W (ix2 b t)).isLt
    rw [e1]
    omega
  have hi : (s17 W (ix2 b t) - 1#32).toInt = ((s17 W (ix2 b t) - 1#32).toNat : Int) :=
    BitVec.toInt_eq_toNat_of_lt (by rw [hn]; omega)
  rw [hs, hi, hn]
  omega

end Cert.Seg
-- ==== Proof.KerData.lean ====
import proofs.«126040_j66219805770053_2_alg».proof.Proof.Gen.KernelIdeal.Launch
import proofs.«126040_j66219805770053_2_alg».proof.Proof.Gen.KernelIdeal.Points
import proofs.«126040_j66219805770053_2_alg».proof.Proof.Gen.KernelIdeal.Skeleton
import proofs.«126040_j66219805770053_2_alg».proof.Proof.KerAcc
import Idealize.ShloMosaic.Lib.Pipeline.Kit
import Idealize.ShloMosaic.Lib.Pipeline.Frame
import Idealize.ShloMosaic.Lib.Pipeline.FrameBody
import Idealize.ShloMosaic.Lib.Tactic

/-! The proof data of the kernel's one region: the arrays as the region finds them (after the ten
stretches of host operations), the blocks of the segment ids and of the values each grid point
sees, the invariant that carries the two scratch buffers along a row of the grid, and what each
window's staging buffer holds after the body. A grid point is t = qi * 32 + ki: qi the q-block,
ki the k-block. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The host operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9]

/-- Core c's buffers when the region is entered: the launch memory after every host operation. -/
abbrev V (c : Dev nD) (b : Ref sig .tc) : Buf (Elt F) ((c : Thread nD τ).loc b) :=
  StableHlo.after (List.flatten (opss (F := F))) (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub⟩

theorem opss_fresh : (opss (F := F)).Forall fun ops => ops.Forall fun op => op.fresh = ∅ := by
  simp only [List.Forall]; repeat' constructor

/-- The program up to the region: the ten stretches run on the unscoped buffers, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

/-! ## The grid -/

theorem cfgN : cfg0.N = 1024 := N_0

/-- The point of t's row at k-block j. -/
def rowPt (t : Fin cfg0.N) (j : Nat) : Fin cfg0.N :=
  ⟨(t.val / 32) * 32 + j % 32, by
    have h : t.val < 1024 := lt_of_lt_of_eq t.isLt cfgN
    exact lt_of_lt_of_eq (show (t.val / 32) * 32 + j % 32 < 1024 by omega) cfgN.symm⟩

/-! ## The blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The q-block of the segment ids in t's row. -/
def sq (c : Dev nD) (t : Fin cfg0.N) : Vec F S16x128 .i32 := iblk m c 0 t
/-- The j-th k-block of the segment ids. -/
def sk (c : Dev nD) (t : Fin cfg0.N) (j : Nat) : Vec F S16x128 .i32 := iblk m c 1 (rowPt t j)
/-- The j-th k-block of the values. -/
def vk (c : Dev nD) (t : Fin cfg0.N) (j : Nat) : Vec F S16x128x512 .f32 := iblk m c 2 (rowPt t j)

/-! ## The body's two conditions on the k-block -/

/-- The first conditional's condition: the k-block is the first of its row. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 32 = 0 :=
  (by decide +kernel : ∀ t : Fin grid0.N, cond1 (grid0.coords t) ↔ t.val % 32 = 0)

/-- The second conditional's condition: the k-block is the last of its row. -/
abbrev cond2 (i : grid0.Coords) : Prop := k0_cond2 i = 1#1
theorem hcond2 : ∀ t : Fin cfg0.N, cond2 (grid0.coords t) ↔ t.val % 32 = 31 :=
  (by decide +kernel : ∀ t : Fin grid0.N, cond2 (grid0.coords t) ↔ t.val % 32 = 31)

/-- The output window is idle off the last k-block, live at it, and not written back off it. -/
theorem idle3 : ∀ t : Fin cfg0.N, ¬cond2 (grid0.coords t) → cfg0.idle 3 (grid0.coords t) = true := by decide +kernel
theorem live3 : ∀ t : Fin cfg0.N, cond2 (grid0.coords t) → cfg0.idle 3 (grid0.coords t) = false := by decide +kernel
theorem noFlush3 (t : Fin cfg0.N) (h : ¬cond2 (grid0.coords t)) : (cfg0.win 3).flush t = false := by
  cases hf : (cfg0.win 3).flush t
  · rfl
  · exact absurd ((hcond2 t).mpr ((flush0_3 t).mp hf)) h

/-! ## The scratch buffers and the invariant -/

/-- The accumulator and the counter, as the body is handed them. -/
abbrev scM0 : Memref sig .tc .vmem S16x128x512 .f32 := Memref.whole cc0_scratch0
abbrev scM1 : Memref sig .tc .vmem S16x128 .f32 := Memref.whole cc0_scratch1

/-- The core's scoped buffers no window stages, as memrefs owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The invariant before position n (after the body at point n - 1): at the start of a row of the grid the
    two scratch buffers hold anything (the body overwrites them at the first k-block); inside a row, after
    k-block ki = (n - 1) % 32 they hold the accumulator and the counter over the k-blocks 0 … ki. -/
def PhiAt (c : Dev nD) (n : ℕ) (hn : n ≤ cfg0.N) : sProp 𝕄 :=
  if h : n % 32 = 0 then
    iprop((∃ d, owns (c : Thread nD τ) scM0 fullShare d) ∗ (∃ d, owns (c : Thread nD τ) scM1 fullShare d))
  else
    iprop(owns (c : Thread nD τ) scM0 fullShare
            (Acc.acc (sq m c ⟨n - 1, by omega⟩) (sk m c ⟨n - 1, by omega⟩) (vk m c ⟨n - 1, by omega⟩) ((n - 1) % 32))
        ∗ owns (c : Thread nD τ) scM1 fullShare
            (Acc.cnt (sq m c ⟨n - 1, by omega⟩) (sk m c ⟨n - 1, by omega⟩) ((n - 1) % 32)))

/-! ## The proof data -/

/-- The proof data of the one pipeline on core c: the arrays as the region finds them; after the body each
    input's buffer at its block, the output's at the block the last k-block stores; the two windows on the
    segment-id array each hold half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Acc.outBlock (sq m c t) (sk m c t) (vk m c t)
  Φ t := PhiAt m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAt m c t.val (Nat.le_of_lt t.isLt) := by
  dsimp only [dats]; simp only [Fin.coe_castSucc]
theorem Phi_succ (c : Dev nD) (t : Fin cfg0.N) :
    (dats m 0 c).Φ t.succ = PhiAt m c (t.val + 1) t.isLt := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = Acc.outBlock (sq m c t) (sk m c t) (vk m c t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

end Cert.KernelIdeal.Hand

end
-- ==== Proof.KerBody.lean ====
import proofs.«126040_j66219805770053_2_alg».proof.Proof.KerData
import Idealize.ShloMosaic.Lib.Pipeline.Value

/-! The kernel body as three triples, one per position of the k-block in its row: the first (the two
scratch buffers are reset, then accumulated into), a middle one (accumulated into), the last
(accumulated into, then the output block is stored from them). Each is stated over any whole
staging memrefs, with the contents every buffer ends with written out over the payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading back a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

section ReadBack
variable {S : Shape} {e : EltTy} {sp : Space}

/-- A load of the whole box of a whole buffer reads its contents. -/
theorem readAt_unit_zero_unread (M : Memref sig .tc sp S e) (hM : M.IsWhole) {off : Fin S.rank → Nat} (h : off = fun _ => 0)
    (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h]

/-- A store of the whole box, last, leaves its payload, whatever was stored before. -/
theorem read_writes_cons_unit_zero (M : Memref sig .tc sp S e) (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

end ReadBack

/-! ## A middle k-block -/

set_option maxHeartbeats 1000000 in
/-- Off the first and the last k-block the body adds this k-block's term to the accumulator and to the
    counter; the three input buffers are left as found and the output's is not touched. -/
theorem runB (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : ¬cond1 i) (hc2 : ¬cond2 i)
    (x0 x1 : Vec F S16x128 .i32) (x2 : Vec F S16x128x512 .f32) (a : Vec F S16x128x512 .f32) (n : Vec F S16x128 .f32)
    (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg6 fullShare a ∗ owns (c : Thread nD τ) arg7 fullShare n
          ∗ (iprop(owns (c : Thread nD τ) arg2 fullShare x0 ∗ owns (c : Thread nD τ) arg3 fullShare x1 ∗ owns (c : Thread nD τ) arg4 fullShare x2
                ∗ owns (c : Thread nD τ) arg6 fullShare (k0_pay6 x0 x1 x2 a) ∗ owns (c : Thread nD τ) arg7 fullShare (k0_pay7 x0 x1 n)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, readAt_unit_zero_unread arg6 harg6 hz3]
  · iexists _; isplitr
    swap; · iexact H7
    ipureintro
    sl_unfold_run_names
    rw [read_writes_cons_unit_zero arg7 _ hz2, readAt_unit_zero_unread arg2 harg2 hz2, readAt_unit_zero_unread arg3 harg3 hz2,
      readAt_unit_zero_unread arg7 harg7 hz2]

/-! ## The first k-block of a row -/

set_option maxHeartbeats 1000000 in
/-- At the first k-block the body resets the accumulator and the counter to zero — whatever they held —
    and then adds this k-block's term to each. -/
theorem runA (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : cond1 i) (hc2 : ¬cond2 i)
    (x0 x1 : Vec F S16x128 .i32) (x2 : Vec F S16x128x512 .f32)
    (E : Set ℕ) (K : PUnit → sProp 𝕄) :
    iprop(owns (c : Thread nD τ) arg2 fullShare x0 ∗ owns (c : Thread nD τ) arg3 fullShare x1 ∗ owns (c : Thread nD τ) arg4 fullShare x2
          ∗ (∃ d, owns (c : Thread nD τ) arg6 fullShare d) ∗ (∃ d, owns (c : Thread nD τ) arg7 fullShare d)
          ∗ (iprop(owns (c : Thread nD τ) arg2 fullShare x0 ∗ owns (c : Thread nD τ) arg3 fullShare x1 ∗ owns (c : Thread nD τ) arg4 fullShare x2
                ∗ owns (c : Thread nD τ) arg6 fullShare (k0_pay6 x0 x1 x2 k0_pay2) ∗ owns (c : Thread nD τ) arg7 fullShare (k0_pay7 x0 x1 k0_pay3)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%d6, %f6, -, H6⟩, ⟨%d7, %f7, -, H7⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, View.readCov_unit_zero arg6.view hz3]
  · iexists _; isplitr
    swap; · iexact H7
    ipureintro
    sl_unfold_run_names
    rw [read_writes_cons_unit_zero arg7 _ hz2, readAt_unit_zero_unread arg2 harg2 hz2, readAt_unit_zero_unread arg3 harg3 hz2,
      View.readCov_unit_zero arg7.view hz2]

/-! ## The last k-block of a row -/

set_option maxHeartbeats 1000000 in
/-- At the last k-block the body adds this k-block's term to the accumulator and to the counter, and
    stores the output block computed from the q-block of the segment ids, the counter and the accumulator
    — whatever the output's buffer held. -/
theorem runC (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : ¬cond1 i) (hc2 : cond2 i)
    (x0 x1 : Vec F S16x128 .i32) (x2 : Vec F S16x128x512 .f32) (a : Vec F S16x128x512 .f32) (n : Vec F S16x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
          ∗ owns (c : Thread nD τ) arg6 fullShare a ∗ owns (c : Thread nD τ) arg7 fullShare n
          ∗ (iprop(owns (c : Thread nD τ) arg2 fullShare x0 ∗ owns (c : Thread nD τ) arg3 fullShare x1 ∗ owns (c : Thread nD τ) arg4 fullShare x2
                ∗ owns (c : Thread nD τ) arg5 fullShare (k0_pay1 (k0_pay4 x0) (k0_pay7 x0 x1 n) (k0_pay6 x0 x1 x2 a))
                ∗ owns (c : Thread nD τ) arg6 fullShare (k0_pay6 x0 x1 x2 a) ∗ owns (c : Thread nD τ) arg7 fullShare (k0_pay7 x0 x1 n)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    sl_unfold_run_names
    rw [read_writes_cons_unit_zero arg5 _ hz3, View.readCov_unit_zero arg7.view hz2, View.readCov_unit_zero arg6.view hz3,
      readAt_unit_zero_unread arg2 harg2 hz2, readAt_unit_zero_unread arg3 harg3 hz2,
      readAt_unit_zero_unread arg4 harg4 hz3, readAt_unit_zero_unread arg6 harg6 hz3, readAt_unit_zero_unread arg7 harg7 hz2]
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, readAt_unit_zero_unread arg6 harg6 hz3]
  · iexists _; isplitr
    swap; · iexact H7
    ipureintro
    sl_unfold_run_names
    rw [read_writes_cons_unit_zero arg7 _ hz2, readAt_unit_zero_unread arg2 harg2 hz2, readAt_unit_zero_unread arg3 harg3 hz2,
      readAt_unit_zero_unread arg7 harg7 hz2]

/-! ## Points of one row see the same q-block and the same k-blocks -/

variable (m : (ℓ : Loc nD τ sig) → Buf (Elt F) ℓ)

theorem rowPt_self (t : Fin cfg0.N) : rowPt t (t.val % 32) = t :=
  Fin.ext (by show t.val / 32 * 32 + t.val % 32 % 32 = t.val; omega)

theorem rowPt_congr {t t' : Fin cfg0.N} (h : t.val / 32 = t'.val / 32) : rowPt t = rowPt t' :=
  funext fun j => Fin.ext (by show t.val / 32 * 32 + j % 32 = t'.val / 32 * 32 + j % 32; rw [h])

theorem sk_congr (c : Dev nD) {t t' : Fin cfg0.N} (h : t.val / 32 = t'.val / 32) : sk m c t = sk m c t' := by
  funext j; unfold sk; rw [rowPt_congr h]
theorem vk_congr (c : Dev nD) {t t' : Fin cfg0.N} (h : t.val / 32 = t'.val / 32) : vk m c t = vk m c t' := by
  funext j; unfold vk; rw [rowPt_congr h]

/-- The q-window's block index is that of the first point of the row. -/
theorem index0_row : ∀ t : Fin cfg0.N, (cfg0.win 0).index t = (cfg0.win 0).index (rowPt t 0) :=
  (by decide +kernel : ∀ t : Fin grid0.N, win0_0.index t = win0_0.index (rowPt t 0))

/-- What a fetch of an input window puts in its buffer is the window's block. -/
theorem fetched_0 (c : Dev nD) (t : Fin cfg0.N) (d) : (dats m 0 c).fetched 0 t d = iblk m c 0 t := by
  unfold Dat.fetched Dat.blockOf iblk; rw [A_eq]; try rfl

theorem sq_row (c : Dev nD) (t : Fin cfg0.N) : sq m c t = sq m c (rowPt t 0) := by
  have h1 := fetched_0 m c t (sq m c t)
  have h2 := fetched_0 m c (rowPt t 0) (sq m c t)
  unfold sq; rw [← h1, ← h2]
  exact (dats m 0 c).fetched_congr 0 (index0_row t) rfl _

theorem sq_congr (c : Dev nD) {t t' : Fin cfg0.N} (h : t.val / 32 = t'.val / 32) : sq m c t = sq m c t' := by
  rw [sq_row m c t, sq_row m c t', rowPt_congr h]

/-! ## The invariant at the three kinds of position -/

theorem PhiAt_start (c : Dev nD) (n : ℕ) (hn : n ≤ cfg0.N) (h : n % 32 = 0) :
    PhiAt m c n hn = iprop((∃ d, owns (c : Thread nD τ) scM0 fullShare d) ∗ (∃ d, owns (c : Thread nD τ) scM1 fullShare d)) := by
  unfold PhiAt; rw [dif_pos h]

theorem PhiAt_in (c : Dev nD) (n : ℕ) (hn : n ≤ cfg0.N) (h : ¬n % 32 = 0) (p : Fin cfg0.N) (hp : p.val = n - 1) :
    PhiAt m c n hn = iprop(owns (c : Thread nD τ) scM0 fullShare (Acc.acc (sq m c p) (sk m c p) (vk m c p) ((n - 1) % 32))
        ∗ owns (c : Thread nD τ) scM1 fullShare (Acc.cnt (sq m c p) (sk m c p) ((n - 1) % 32))) := by
  unfold PhiAt; rw [dif_neg h]
  obtain ⟨pv, pp⟩ := p
  dsimp only at hp; subst hp; rfl

/-- After the body at a point that is not the last of its row: the scratches over the k-blocks up to it. -/
theorem PhiAt_after (c : Dev nD) (t : Fin cfg0.N) (h : ¬(t.val + 1) % 32 = 0) :
    PhiAt m c (t.val + 1) t.isLt = iprop(owns (c : Thread nD τ) scM0 fullShare (Acc.acc (sq m c t) (sk m c t) (vk m c t) (t.val % 32))
        ∗ owns (c : Thread nD τ) scM1 fullShare (Acc.cnt (sq m c t) (sk m c t) (t.val % 32))) := by
  rw [PhiAt_in m c _ _ h t (Nat.add_sub_cancel t.val 1).symm, Nat.add_sub_cancel]

/-- Before the body at a point that is not the first of its row: the scratches over the k-blocks before it. -/
theorem PhiAt_before (c : Dev nD) (t : Fin cfg0.N) (h : ¬t.val % 32 = 0) :
    PhiAt m c t.val (Nat.le_of_lt t.isLt) = iprop(owns (c : Thread nD τ) scM0 fullShare (Acc.acc (sq m c t) (sk m c t) (vk m c t) (t.val % 32 - 1))
        ∗ owns (c : Thread nD τ) scM1 fullShare (Acc.cnt (sq m c t) (sk m c t) (t.val % 32 - 1))) := by
  have hlt : t.val - 1 < cfg0.N := Nat.lt_of_le_of_lt (Nat.sub_le _ _) t.isLt
  have hrow : (⟨t.val - 1, hlt⟩ : Fin cfg0.N).val / 32 = t.val / 32 := by
    show (t.val - 1) / 32 = t.val / 32; omega
  rw [PhiAt_in m c _ _ h ⟨t.val - 1, hlt⟩ rfl, sq_congr m c hrow, sk_congr m c hrow, vk_congr m c hrow,
    show (t.val - 1) % 32 = t.val % 32 - 1 from by omega]

/-! ## The body obligation -/

/-- Each window's current staging memref at point t, as the pipeline passes it, and its wholeness. -/
abbrev ms0 (t : Fin cfg0.N) : Memref sig .tc .vmem S16x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x512 .f32 := win0_3.stage (cfg0.slots t 3)
abbrev hs3 (t : Fin cfg0.N) : (ms3 t).IsWhole := hstage0_3 ((cfg0.slots t 3).cast nbuf0_3)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem live012 (w : Fin cfg0.W) (t : Fin cfg0.N) (h : w ≠ 3) : cfg0.idle w (grid0.coords t) = false := by
  fin_cases w <;> first | rfl | exact absurd rfl h

/-- The inputs are never idle: each is handed back at its block. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live012 0 t (by decide)], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live012 1 t (by decide)], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live012 2 t (by decide)], after_2]
/-- The output is live at the last k-block of a row. -/
theorem leaves_3_live (c : Dev nD) (t : Fin cfg0.N) (h : cond2 (grid0.coords t)) :
    (dats m 0 c).leavesExact 3 t = owns (c : Thread nD τ) (ms3 t) fullShare (Acc.outBlock (sq m c t) (sk m c t) (vk m c t)) := by
  rw [show (dats m 0 c).leavesExact 3 t = owns (c : Thread nD τ) (ms3 t) fullShare ((dats m 0 c).after 3 t) from by
    unfold Dat.leavesExact; rw [live3 t h], after_3]

set_option maxHeartbeats 4000000 in
/-- The body at any point. The inputs' buffers hold their blocks; by the position of the k-block in its row
    one of the three triples applies; the invariant hands the body the two scratch buffers at anything
    (first k-block) or over the k-blocks before this one, and takes them back over the k-blocks up to this
    one, or at anything after the last k-block; the output's buffer is untouched off the last k-block and
    ends at the output block at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [Phi_castSucc, Phi_succ, leaves_0, leaves_1, leaves_2]
  have hN : t.val < 1024 := lt_of_lt_of_eq t.isLt cfgN
  have e0 : (iblk m c 0 t : Vec F S16x128 .i32) = sq m c t := rfl
  have e1 : (iblk m c 1 t : Vec F S16x128 .i32) = sk m c t (t.val % 32) := by unfold sk; rw [rowPt_self]
  have e2 : (iblk m c 2 t : Vec F S16x128x512 .f32) = vk m c t (t.val % 32) := by unfold vk; rw [rowPt_self]
  by_cases h0 : t.val % 32 = 0
  · -- the first k-block of the row
    have hc1 : cond1 (grid0.coords t) := (hcond1 t).mpr h0
    have hc2 : ¬cond2 (grid0.coords t) := fun h => by have := (hcond2 t).mp h; omega
    rw [Dat.leavesExact_idle (dats m 0 c) 3 t (idle3 t hc2) (noFlush3 t hc2)]
    rw [PhiAt_start m c _ _ h0, PhiAt_after m c t (by omega)]
    have hacc : Acc.acc (sq m c t) (sk m c t) (vk m c t) (t.val % 32)
        = k0_pay6 (iblk m c 0 t) (iblk m c 1 t) (iblk m c 2 t) k0_pay2 := by
      rw [e0, e1, e2, h0]; rfl
    have hcnt : Acc.cnt (sq m c t) (sk m c t) (t.val % 32) = k0_pay7 (iblk m c 0 t) (iblk m c 1 t) k0_pay3 := by
      rw [e0, e1, h0]; rfl
    rw [hacc, hcnt]
    iintro ⟨⟨HS0, HS1⟩, Ho, ⟨%d0, H0⟩, ⟨%d1, H1⟩, ⟨%d2, H2⟩, H3⟩
    iapply (runA c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    iexact H3
  · obtain ⟨k, hk⟩ : ∃ k, t.val % 32 = k + 1 := ⟨t.val % 32 - 1, by omega⟩
    have hacc : Acc.acc (sq m c t) (sk m c t) (vk m c t) (t.val % 32)
        = k0_pay6 (iblk m c 0 t) (iblk m c 1 t) (iblk m c 2 t) (Acc.acc (sq m c t) (sk m c t) (vk m c t) (t.val % 32 - 1)) := by
      rw [e0, e1, e2, hk]; rfl
    have hcnt : Acc.cnt (sq m c t) (sk m c t) (t.val % 32)
        = k0_pay7 (iblk m c 0 t) (iblk m c 1 t) (Acc.cnt (sq m c t) (sk m c t) (t.val % 32 - 1)) := by
      rw [e0, e1, hk]; rfl
    have hc1 : ¬cond1 (grid0.coords t) := fun h => h0 ((hcond1 t).mp h)
    rw [PhiAt_before m c t h0]
    by_cases h31 : t.val % 32 = 31
    · -- the last k-block of the row
      have hc2 : cond2 (grid0.coords t) := (hcond2 t).mpr h31
      rw [leaves_3_live m c t hc2, PhiAt_start m c _ _ (show (t.val + 1) % 32 = 0 by omega)]
      have hout : Acc.outBlock (sq m c t) (sk m c t) (vk m c t)
          = k0_pay1 (k0_pay4 (iblk m c 0 t))
              (k0_pay7 (iblk m c 0 t) (iblk m c 1 t) (Acc.cnt (sq m c t) (sk m c t) (t.val % 32 - 1)))
              (k0_pay6 (iblk m c 0 t) (iblk m c 1 t) (iblk m c 2 t) (Acc.acc (sq m c t) (sk m c t) (vk m c t) (t.val % 32 - 1))) := by
        rw [← hacc, ← hcnt, h31, e0]; rfl
      rw [hout]
      iintro ⟨⟨HS0, HS1⟩, Ho, ⟨%d0, H0⟩, ⟨%d1, H1⟩, ⟨%d2, H2⟩, H3⟩
      iapply (runC c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) _ _ Set.univ _)
      isplitl [H0]; · iexact H0
      isplitl [H1]; · iexact H1
      isplitl [H2]; · iexact H2
      isplitl [H3]
      · icases H3 with ⟨%d3, H3⟩; iexists _; iexact H3
      isplitl [HS0]; · iexact HS0
      isplitl [HS1]; · iexact HS1
      iintro ⟨H0, H1, H2, H3, HS0, HS1⟩
      isplitl [HS0 HS1]
      · isplitl [HS0]; · iexists _; iexact HS0
        iexists _; iexact HS1
      isplitl [Ho]; · iexact Ho
      isplitl [H0]; · iexact H0
      isplitl [H1]; · iexact H1
      isplitl [H2]; · iexact H2
      iexact H3
    · -- a middle k-block
      have hc2 : ¬cond2 (grid0.coords t) := fun h => h31 ((hcond2 t).mp h)
      rw [Dat.leavesExact_idle (dats m 0 c) 3 t (idle3 t hc2) (noFlush3 t hc2)]
      rw [PhiAt_after m c t (by omega), hacc, hcnt]
      iintro ⟨⟨HS0, HS1⟩, Ho, ⟨%d0, H0⟩, ⟨%d1, H1⟩, ⟨%d2, H2⟩, H3⟩
      iapply (runB c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KerRun.lean ====
import proofs.«126040_j66219805770053_2_alg».proof.Proof.KerBody

/-! The launch of the kernel's region and the run of the whole program: the ten stretches of host
operations, then the region, whose two windows on the segment-id array each take half of it. Every
weakly fair execution terminates; the result array ends at what the write-backs of the last k-blocks
leave, and the two argument arrays end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the
    pipeline issues. -/
def u₀ : UR sig nD τ := initOf (Pipeline.cells cfgs cellOf_inj) (Pipeline.launchToks cfgs cellOf_inj)

/-! ## The argument arrays as the region finds them -/

/-- No host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The shared array, split between its two windows -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Dat.arrays Pipeline.arrBufs
  rw [bigSep_W0]
  have himg : Finset.univ.image (Pipeline.arrRef spec0) = {main_v20, main_arg1, main_v21} := by decide
  rw [himg, bigSep_insert (by decide), bigSep_insert (by decide), bigSep_singleton]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  -- the entry contents are the region-entry valuation at each window's array
  have hA : ∀ w, (dats m 0 c).arrAt w 0 = V m c (Pipeline.arrRef spec0 w) := fun w => A_eq m c w
  simp only [hA]
  generalize V m c = Vc
  refine (show iprop((((c : Thread nD τ).loc main_v20) ↦{fullShare} Vc main_v20)
        ∗ (((c : Thread nD τ).loc main_arg1) ↦{fullShare} Vc main_arg1)
        ∗ (((c : Thread nD τ).loc main_v21) ↦{fullShare} Vc main_v21))
      ⊢ (iprop((((c : Thread nD τ).loc main_v20) ↦{fullShare.left} Vc main_v20)
        ∗ (((c : Thread nD τ).loc main_v20) ↦{fullShare.right} Vc main_v20)
        ∗ (((c : Thread nD τ).loc main_arg1) ↦{fullShare} Vc main_arg1)
        ∗ (((c : Thread nD τ).loc main_v21) ↦{fullShare} Vc main_v21)) : sProp 𝕄) from ?_)
  iintro ⟨H20, H1, H21⟩
  ihave H := (pointsTo_share (PosShare.mem_left_op_right fullShare)).1 $$ H20
  icases H with ⟨Hl, Hr⟩
  isplitl [Hl]; · iexact Hl
  isplitl [Hr]; · iexact Hr
  isplitl [H1]; · iexact H1
  iexact H21

/-! ## The invariant at the two ends -/

theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest_eq, show (dats m 0 c).Φ 0 = PhiAt m c 0 (Nat.zero_le _) from rfl, PhiAt_start m c 0 _ rfl]
  iintro ⟨-, H⟩; iexact H

theorem hout (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [scopedRest_eq, show (dats m 0 c).Φ (Fin.last cfg0.N) = PhiAt m c cfg0.N (Nat.le_refl _) from rfl,
    PhiAt_start m c _ _ (by rw [cfgN])]
  iintro H; isplitr; · iempintro
  iexact H

/-! ## The run -/

/-- What bypasses the region: the unscoped buffers no window stages, at their region-entry contents. -/
abbrev Zc (c : Dev nD) : sProp 𝕄 :=
  Pipeline.unscopedRest (Ix := Unit) (Name := ℕ) (U := UR sig nD τ) (Lvl := ℕ) spec0 c (V m c)

/-- and what is read of them at the end. -/
def QY (c : Dev nD) (s : MemSt nD τ sig (Elt F)) : Prop :=
  ∀ b ∈ Pipeline.restRefs sig spec0, s.mem ((c.tc : Thread nD τ).loc b) = V m c b

theorem hX (c : Dev nD) : Zc m c ⊢ iprop((emp : sProp 𝕄) ∗ Zc m c) := by
  iintro H; isplitr; · iempintro
  iexact H

theorem hY (c : Dev nD) (s' : Phys nD τ sig (Elt F)) :
    iprop((emp : sProp 𝕄) ∗ Zc m c ∗ SI s') ⊢ |={Set.univ}=> iprop(⌜QY m c s'.mem⌝ ∗ SI s') := by
  iintro ⟨-, HU, HSI⟩
  unfold Zc Pipeline.unscopedRest QY
  imodintro
  iapply (pointsTo_read_all (Pipeline.restRefs sig spec0) (fun b => (c.tc : Thread nD τ).loc b) (V m c) s')
  isplitl [HU] <;> iassumption

/-- The second argument is an input of the region: it ends at its region-entry contents, which are the launch's. -/
theorem arg1_end (c : Dev nD) : (dats m 0 c).arrAt 2 cfg0.N = m ((c.tc : Thread nD τ).loc main_arg1) :=
  ((dats m 0 c).arrAt_in 2 rfl _).trans ((A_eq m c 2).trans (V_main_arg1 m c))

set_option maxHeartbeats 4000000 in
set_option backward.isDefEq.respectTransparency.types false in
/-- From any memory with zero counters every weakly fair execution of the program on the TensorCores
    terminates; the result array ends at what the library computes from the proof data — the launch
    contents overwritten, row by row of the grid, by the output blocks — and the two arguments end as
    launched. -/
theorem run_main : θ_run (defs (F := F)) (onTc (τ := τ) (main (F := F))) ⟨m, fun _ => 0, ρ⟩ (fun r => ∀ c : Dev nD,
      r.2.mem ((c.tc : Thread nD τ).loc main_v21) = (dats m 0 c).arrAt 3 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := Zc m)
    (hX := hX m) (hin := hin m) (hout := hout m)
    (QY := QY m) (hY := hY m)
    (hQ := fun s h c => ⟨(h c).1 3,
      ((h c).2 main_arg0 (Pipeline.mem_restRefs_of main_arg0 (by decide) (by decide))).trans (V_main_arg0 m c),
      ((h c).1 2).trans (arg1_end m c)⟩)

/-- What the write-back at the last k-block of a row writes: the output block of the row. -/
theorem flushed_3 (c : Dev nD) (t : Fin cfg0.N) :
    (dats m 0 c).flushed 3 t = Acc.outBlock (sq m c t) (sk m c t) (vk m c t) := by
  show (cfg0.win 3).cut (grid0.coords t) ((dats m 0 c).after 3 t) = _
  rw [after_3]; rfl

end Cert.KernelIdeal.Hand

end
-- ==== Proof.KerArrSum.lean ====
import proofs.«126040_j66219805770053_2_alg».proof.Proof.KerAccSum

/-! From the blocks to the whole arrays, for one q-block: when the q-block's segment ids, and the
32 k-blocks' segment ids and values, are the rows `qi * 128 + q` and `j * 128 + k` of the whole
arrays, the stored block is the segment mean over the whole arrays at the q-block's rows. -/

namespace Cert.KernelIdeal.Acc
open Idealize.ShloMosaic Idealize.ShloMosaic.ValueIdx Cert.KernelIdeal Cert.KernelIdeal.Gen

/-- A sum over 32 blocks of 128 rows is the sum over the 4096 rows: row `j * 128 + k` is row `k` of block `j`. -/
theorem sum_blocks {M : Type*} [AddCommMonoid M] (g : Nat → Fin 128 → M) (f : Fin 4096 → M)
    (h : ∀ (j : Fin 32) (k : Fin 128) (t' : Fin 4096), t'.val = j.val * 128 + k.val → g j.val k = f t') :
    ∑ j ∈ Finset.range 32, ∑ k : Fin 128, g j k = ∑ t' : Fin 4096, f t' := by
  rw [Finset.sum_range (fun j => ∑ k : Fin 128, g j k)]
  refine Eq.trans ?_ (Equiv.sum_comp (finProdFinEquiv (m := 32) (n := 128)) f)
  rw [Fintype.sum_prod_type]
  refine Finset.sum_congr rfl fun j _ => Finset.sum_congr rfl fun k _ => ?_
  exact h j k _ (by rw [finProdFinEquiv_apply_val]; show k.val + 128 * j.val = j.val * 128 + k.val; omega)

/-- The stored block of q-block `qi` at `(b, q, e)` is the segment mean over the whole arrays at row
`qi * 128 + q`. -/
theorem outBlock_eq_kerOut (sqv : Vec Ideal S16x128 .i32) (skv : Nat → Vec Ideal S16x128 .i32)
    (vkv : Nat → Vec Ideal S16x128x512 .f32)
    (S : S16x4096.Idx → BitVec 32) (X : S16x4096x512.Idx → EReal) (qi : Nat)
    (hsq : ∀ (b : Fin 16) (q : Fin 128) (t : Fin 4096), t.val = qi * 128 + q.val → sqv (ix2 b q) = S (ix2 b t))
    (hsk : ∀ (j : Fin 32) (b : Fin 16) (k : Fin 128) (t' : Fin 4096), t'.val = j.val * 128 + k.val →
      skv j.val (ix2 b k) = S (ix2 b t'))
    (hvk : ∀ (j : Fin 32) (b : Fin 16) (k : Fin 128) (e : Fin 512) (t' : Fin 4096), t'.val = j.val * 128 + k.val →
      vkv j.val (ix3 b k e) = X (ix3 b t' e))
    (b : Fin 16) (q : Fin 128) (e : Fin 512) (t : Fin 4096) (ht : t.val = qi * 128 + q.val) :
    outBlock sqv skv vkv (ix3 b q e) = kerOut S X (ix3 b t e) := by
  rw [outBlock_at, kerOut_apply, hsq b q t ht,
    sum_blocks (fun j k => maskE (S (ix2 b t)) (skv j (ix2 b k)) * vkv j (ix3 b k e))
      (fun t' => maskE (S (ix2 b t)) (S (ix2 b t')) * X (ix3 b t' e))
      (fun j k t' h => by rw [hsk j b k t' h, hvk j b k e t' h]),
    sum_blocks (fun j k => maskE (S (ix2 b t)) (skv j (ix2 b k)))
      (fun t' => maskE (S (ix2 b t)) (S (ix2 b t')))
      (fun j k t' h => by rw [hsk j b k t' h])]

end Cert.KernelIdeal.Acc
-- ==== Proof.KerArr.lean ====
import proofs.«126040_j66219805770053_2_alg».proof.Proof.KerData
import proofs.«126040_j66219805770053_2_alg».proof.Proof.KerArrSum
import Idealize.ShloMosaic.Lib.Pipeline.Value

/-! From the blocks to the array, for the kernel's output: what every grid point writes back is its
block of the segment mean over the whole arrays, and the write-backs of the last k-block of every
q-block cover the output array, which therefore ends holding the segment mean. -/

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where each window's block sits -/

/-- The four windows' block indices at grid point t = qi * 32 + ki: the q-block's segment ids and the
output block sit at block qi of axis 1, the k-block's segment ids and values at block ki; every other
block index is zero. -/
theorem idx_facts : ∀ t : Fin cfg0.N,
    win0_0.index t (0 : Fin 2) = 0 ∧ win0_0.index t (1 : Fin 2) = t.val / 32
    ∧ win0_1.index t (0 : Fin 2) = 0 ∧ win0_1.index t (1 : Fin 2) = t.val % 32
    ∧ win0_2.index t (0 : Fin 3) = 0 ∧ win0_2.index t (1 : Fin 3) = t.val % 32 ∧ win0_2.index t (2 : Fin 3) = 0
    ∧ win0_3.index t (0 : Fin 3) = 0 ∧ win0_3.index t (1 : Fin 3) = t.val / 32 ∧ win0_3.index t (2 : Fin 3) = 0 :=
  (by decide +kernel : ∀ t : Fin grid0.N, _)

/-- The q-block of the segment ids at point t is rows `(t / 32) * 128 …` of the array. -/
theorem iblk0_apply (c : Dev nD) (t : Fin cfg0.N) (b : Fin 16) (q : Fin 128) (r : Fin 4096)
    (hr : r.val = (t.val / 32) * 128 + q.val) :
    (iblk m c 0 t : Vec Ideal S16x128 .i32) (ix2 b q) = (V m c main_v20 : S16x4096.Idx → BitVec 32) (ix2 b r) := by
  obtain ⟨e0, e1, -⟩ := idx_facts t
  unfold iblk
  rw [View.read_apply]
  show V m c main_v20 (((cfg0.win 0).blk t).view.emb (ix2 b q)) = V m c main_v20 (ix2 b r)
  refine congrArg (V m c main_v20) ?_
  funext a
  apply Fin.ext
  match a with
  | ⟨0, _⟩ => show win0_0.index t (0 : Fin 2) * 16 + 1 * b.val = b.val; rw [e0]; omega
  | ⟨1, _⟩ => show win0_0.index t (1 : Fin 2) * 128 + 1 * q.val = r.val; rw [e1, hr]; omega

/-- The k-block of the segment ids at point t is rows `(t % 32) * 128 …` of the array. -/
theorem iblk1_apply (c : Dev nD) (t : Fin cfg0.N) (b : Fin 16) (k : Fin 128) (r : Fin 4096)
    (hr : r.val = (t.val % 32) * 128 + k.val) :
    (iblk m c 1 t : Vec Ideal S16x128 .i32) (ix2 b k) = (V m c main_v20 : S16x4096.Idx → BitVec 32) (ix2 b r) := by
  obtain ⟨-, -, e0, e1, -⟩ := idx_facts t
  unfold iblk
  rw [View.read_apply]
  show V m c main_v20 (((cfg0.win 1).blk t).view.emb (ix2 b k)) = V m c main_v20 (ix2 b r)
  refine congrArg (V m c main_v20) ?_
  funext a
  apply Fin.ext
  match a with
  | ⟨0, _⟩ => show win0_1.index t (0 : Fin 2) * 16 + 1 * b.val = b.val; rw [e0]; omega
  | ⟨1, _⟩ => show win0_1.index t (1 : Fin 2) * 128 + 1 * k.val = r.val; rw [e1, hr]; omega

/-- The k-block of the values at point t is rows `(t % 32) * 128 …` of the array. -/
theorem iblk2_apply (c : Dev nD) (t : Fin cfg0.N) (b : Fin 16) (k : Fin 128) (e : Fin 512) (r : Fin 4096)
    (hr : r.val = (t.val % 32) * 128 + k.val) :
    (iblk m c 2 t : Vec Ideal S16x128x512 .f32) (ix3 b k e)
      = (V m c main_arg1 : S16x4096x512.Idx → EReal) (ix3 b r e) := by
  obtain ⟨-, -, -, -, e0, e1, e2, -⟩ := idx_facts t
  unfold iblk
  rw [View.read_apply]
  show V m c main_arg1 (((cfg0.win 2).blk t).view.emb (ix3 b k e)) = V m c main_arg1 (ix3 b r e)
  refine congrArg (V m c main_arg1) ?_
  funext a
  apply Fin.ext
  match a with
  | ⟨0, _⟩ => show win0_2.index t (0 : Fin 3) * 16 + 1 * b.val = b.val; rw [e0]; omega
  | ⟨1, _⟩ => show win0_2.index t (1 : Fin 3) * 128 + 1 * k.val = r.val; rw [e1, hr]; omega
  | ⟨2, _⟩ => show win0_2.index t (2 : Fin 3) * 512 + 1 * e.val = e.val; rw [e2]; omega

/-- The point of t's row at k-block j is k-block j. -/
theorem rowPt_mod (t : Fin cfg0.N) (j : Fin 32) : (rowPt t j.val).val % 32 = j.val := by
  show ((t.val / 32) * 32 + j.val % 32) % 32 = j.val
  omega

/-! ## What a point writes back -/

/-- WHAT POINT t WRITES BACK is block t of the segment mean over the arrays as the region finds them. -/
theorem flushed3_eq (c : Dev nD) (t : Fin cfg0.N) :
    (dats m 0 c).flushed 3 t
      = ((cfg0.win 3).blk t).view.read (Elt Ideal) (Acc.kerOut (V m c main_v20) (V m c main_arg1)) := by
  obtain ⟨-, -, -, -, -, -, -, e0, e1, e2⟩ := idx_facts t
  show (cfg0.win 3).cut (grid0.coords t) ((dats m 0 c).after 3 t) = _
  rw [after_3]
  funext y
  rw [View.read_apply]
  have h0 : (y 0).val < 16 := (y 0).isLt
  have h1 : (y 1).val < 128 := (y 1).isLt
  have h2 : (y 2).val < 512 := (y 2).isLt
  have ht : t.val < 1024 := lt_of_lt_of_eq t.isLt cfgN
  have hr : (t.val / 32) * 128 + (y 1).val < 4096 := by omega
  have hx : (cfg0.win 3).xinj (grid0.coords t) y
      = ix3 (⟨(y 0).val, h0⟩ : Fin 16) (⟨(y 1).val, h1⟩ : Fin 128) (⟨(y 2).val, h2⟩ : Fin 512) :=
    funext fun a => Fin.ext (match a with | ⟨0, _⟩ => rfl | ⟨1, _⟩ => rfl | ⟨2, _⟩ => rfl)
  have hemb : ((cfg0.win 3).blk t).view.emb y
      = (ix3 (⟨(y 0).val, h0⟩ : Fin 16) (⟨(t.val / 32) * 128 + (y 1).val, hr⟩ : Fin 4096) (⟨(y 2).val, h2⟩ : Fin 512)
          : S16x4096x512.Idx) := by
    funext a
    apply Fin.ext
    match a with
    | ⟨0, _⟩ => show win0_3.index t (0 : Fin 3) * 16 + 1 * (y 0).val = (y 0).val; rw [e0]; omega
    | ⟨1, _⟩ => show win0_3.index t (1 : Fin 3) * 128 + 1 * (y 1).val = (t.val / 32) * 128 + (y 1).val; rw [e1]; omega
    | ⟨2, _⟩ => show win0_3.index t (2 : Fin 3) * 512 + 1 * (y 2).val = (y 2).val; rw [e2]; omega
  show Acc.outBlock (sq m c t) (sk m c t) (vk m c t) ((cfg0.win 3).xinj (grid0.coords t) y)
    = Acc.kerOut (V m c main_v20) (V m c main_arg1) (((cfg0.win 3).blk t).view.emb y)
  rw [hx, hemb]
  exact Acc.outBlock_eq_kerOut (sq m c t) (sk m c t) (vk m c t) (V m c main_v20) (V m c main_arg1) (t.val / 32)
    (fun b q r hq => iblk0_apply m c t b q r hq)
    (fun j b k r hk => iblk1_apply m c (rowPt t j.val) b k r (by rw [rowPt_mod]; exact hk))
    (fun j b k e r hk => iblk2_apply m c (rowPt t j.val) b k e r (by rw [rowPt_mod]; exact hk))
    ⟨(y 0).val, h0⟩ ⟨(y 1).val, h1⟩ ⟨(y 2).val, h2⟩ ⟨(t.val / 32) * 128 + (y 1).val, hr⟩ rfl

/-! ## The write-backs cover the array -/

/-- An index of the output array is in point t's block iff each coordinate is in the block's range on its axis. -/
theorem mem_blk3 (t : Fin cfg0.N) (i : S16x4096x512.Idx) :
    i ∈ ((cfg0.win 3).blk t).view.set ↔ ∀ a : Fin 3, win0_3.index t a * S16x128x512.size a ≤ (i a).val
      ∧ (i a).val < win0_3.index t a * S16x128x512.size a + S16x128x512.size a := by
  show i ∈ ((View.whole main_v21).slice (win0_3.rect t)).set ↔ _
  rw [View.set_slice_whole, Rect.mem_set_unit]
  exact Iff.rfl

/-- Row r of axis 1 is written back by the last k-block of q-block r / 128: the point (r / 128) * 32 + 31. -/
theorem cover3 (i : S16x4096x512.Idx) :
    ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 512 := (i 2).isLt
  have hN : ((i 1).val / 128) * 32 + 31 < cfg0.N := by rw [cfgN]; omega
  obtain ⟨-, -, -, -, -, -, -, e0, e1, e2⟩ := idx_facts ⟨((i 1).val / 128) * 32 + 31, hN⟩
  refine ⟨⟨((i 1).val / 128) * 32 + 31, hN⟩, (flush0_3 _).mpr ?_, ?_⟩
  · show (((i 1).val / 128) * 32 + 31) % 32 = 31
    omega
  · rw [mem_blk3]
    intro a
    match a with
    | ⟨0, _⟩ =>
      show win0_3.index ⟨((i 1).val / 128) * 32 + 31, hN⟩ (0 : Fin 3) * 16 ≤ (i 0).val
        ∧ (i 0).val < win0_3.index ⟨((i 1).val / 128) * 32 + 31, hN⟩ (0 : Fin 3) * 16 + 16
      rw [e0]; omega
    | ⟨1, _⟩ =>
      show win0_3.index ⟨((i 1).val / 128) * 32 + 31, hN⟩ (1 : Fin 3) * 128 ≤ (i 1).val
        ∧ (i 1).val < win0_3.index ⟨((i 1).val / 128) * 32 + 31, hN⟩ (1 : Fin 3) * 128 + 128
      rw [e1]
      show (((i 1).val / 128) * 32 + 31) / 32 * 128 ≤ (i 1).val ∧ (i 1).val < (((i 1).val / 128) * 32 + 31) / 32 * 128 + 128
      omega
    | ⟨2, _⟩ =>
      show win0_3.index ⟨((i 1).val / 128) * 32 + 31, hN⟩ (2 : Fin 3) * 512 ≤ (i 2).val
        ∧ (i 2).val < win0_3.index ⟨((i 1).val / 128) * 32 + 31, hN⟩ (2 : Fin 3) * 512 + 512
      rw [e2]; omega

/-! ## The array after the run -/

/-- THE OUTPUT ARRAY after the run is the segment mean over the arrays as the region finds them. -/
theorem final3 (c : Dev nD) :
    (dats m 0 c).arrAt 3 cfg0.N = Acc.kerOut (V m c main_v20) (V m c main_arg1) :=
  (dats m 0 c).arrAt_eq_of_cover 3 (Acc.kerOut (V m c main_v20) (V m c main_arg1))
    (fun t _ => flushed3_eq m c t) cover3

end Cert.KernelIdeal.Hand

end
-- ==== Proof.KerHostW0.lean ====
/-
  The kernel's host operations before its region compute the validity mask and the segment ids by the same twenty
  values as the reference.  This module reads the first five generated stretches (the validity mask, the positions,
  their running maximum, its shift by one, the clamp at 0) from ANY contents V before them: each buffer a later
  stretch reads holds the corresponding stage of the segment-id chain applied to the word ids V holds.  The fourth
  stretch is read in three pieces, before the concatenation, the concatenation alone, after it: the concatenation's
  operands sit inside a list of (shape, contents) pairs, so its result is read off directly.  The kernel's program and
  the chain's definitions name the same shapes and the same side conditions each in its own namespace; they agree by
  unfolding the shapes' abbreviations.
-/
import proofs.«126040_j66219805770053_2_alg».proof.Proof.Gen.KernelIdeal.Launch
import proofs.«126040_j66219805770053_2_alg».proof.Proof.SegChain
import Idealize.ShloMosaic.Lib.Pipeline.Frame
import Idealize.ShloMosaic.Lib.StableHlo.Run

-- the fold over a stretch of some twenty operations is rewritten to depth: one level per operation and per argument
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

/-- The contents of a buffer of shape s and element type e. -/
local notation "𝒞[" s ", " e "]" => BufTy.Contents (Elt F) (BufTy.mk s e)

/-- %c_1, %6, %7: the fourth stretch up to the concatenation. -/
abbrev H3a : List (HloOp τ sig (Elt F)) :=
  [ StableHlo.nullary main_c_1 (constantI S_ 32 4294967295#32),
    StableHlo.unary main_c_1 main_v6 (broadcastInDim S16x1 ![] bcast_S_S16x1 : 𝒞[S_, .i32] → 𝒞[S16x1, .i32]),
    StableHlo.unary main_v5 main_v7 ((extractStridedSlice S16x4095 ![0, 0] · slices_S16x4096_S16x4095_0_0) : 𝒞[S16x4096, .i32] → 𝒞[S16x4095, .i32]) ]

/-- %8 alone: the column of -1 followed by the first 4095 columns of the running maximum. -/
abbrev Kc : List (HloOp τ sig (Elt F)) :=
  [ StableHlo.binary main_v6 main_v7 main_v8 ((fun a b => concatenate S16x4096 1 [⟨S16x1, a⟩, ⟨S16x4095, b⟩] concatenates_S16x1_S16x4095_S16x4096_d1) : 𝒞[S16x1, .i32] → 𝒞[S16x4095, .i32] → 𝒞[S16x4096, .i32]) ]

/-- %c_2: the fourth stretch after the concatenation. -/
abbrev H3b : List (HloOp τ sig (Elt F)) :=
  [ StableHlo.nullary main_c_2 (constantI S_ 32 0#32) ]

theorem hostOps0_3_split : (hostOps0_3 : List (HloOp τ sig (Elt F))) = H3a ++ (Kc ++ H3b) := rfl

/-- %c … %7. -/
abbrev KA : List (HloOp τ sig (Elt F)) := hostOps0 ++ (hostOps0_1 ++ (hostOps0_2 ++ H3a))

/-- %c_2 … %9. -/
abbrev KB : List (HloOp τ sig (Elt F)) := H3b ++ hostOps0_4

/-- The concatenation of a 16×1 and a 16×4095 array along the row. -/
def catK (a : IVec S16x1 32) (b : IVec S16x4095 32) : IVec S16x4096 32 :=
  concatenate S16x4096 1 [⟨S16x1, a⟩, ⟨S16x4095, b⟩] concatenates_S16x1_S16x4095_S16x4096_d1

theorem s8_eq_catK (W : Cert.Seg.Words) : Cert.Seg.s8 W = catK Cert.Seg.s6 (Cert.Seg.s7 W) := rfl

/-! ### before the concatenation -/

theorem KA_v1 (V : Valuation τ sig (Elt F)) : after KA V ⟪main_v1⟫ = Cert.Seg.s1 (V ⟪main_arg0⟫) := by
  simp only [KA, hostOps0, hostOps0_1, hostOps0_2, H3a, List.cons_append, List.nil_append]
  after_results_simp
  rfl

theorem KA_v6 (V : Valuation τ sig (Elt F)) : after KA V ⟪main_v6⟫ = Cert.Seg.s6 := by
  simp only [KA, hostOps0, hostOps0_1, hostOps0_2, H3a, List.cons_append, List.nil_append]
  after_results_simp
  rfl

theorem KA_v7 (V : Valuation τ sig (Elt F)) : after KA V ⟪main_v7⟫ = Cert.Seg.s7 (V ⟪main_arg0⟫) := by
  simp only [KA, hostOps0, hostOps0_1, hostOps0_2, H3a, List.cons_append, List.nil_append]
  after_results_simp
  rfl

theorem KA_arg0 (V : Valuation τ sig (Elt F)) : after KA V ⟪main_arg0⟫ = V ⟪main_arg0⟫ := by
  simp only [KA, hostOps0, hostOps0_1, hostOps0_2, H3a, List.cons_append, List.nil_append]
  after_results_simp

/-! ### the concatenation -/

theorem Kc_v8 (V : Valuation τ sig (Elt F)) : after Kc V ⟪main_v8⟫ = catK (V ⟪main_v6⟫) (V ⟪main_v7⟫) := by
  simp only [Kc, after_cons, after_nil]
  exact binary_result main_v6 main_v7 main_v8 _ _ _ _ V

theorem Kc_keep (V : Valuation τ sig (Elt F)) {r : Ref sig .tc} (h : r ≠ main_v8) : after Kc V ⟪r⟫ = V ⟪r⟫ := by
  simp only [Kc, after_cons, after_nil]
  exact binary_result_ne main_v6 main_v7 main_v8 _ _ _ _ V h

/-! ### after the concatenation -/

theorem KB_v9 (V : Valuation τ sig (Elt F)) (W : Cert.Seg.Words) (h8 : V ⟪main_v8⟫ = Cert.Seg.s8 W) :
    after KB V ⟪main_v9⟫ = Cert.Seg.s9 W := by
  simp only [KB, H3b, hostOps0_4, List.cons_append, List.nil_append]
  after_results_simp
  simp only [h8]
  rfl

theorem KB_arg0 (V : Valuation τ sig (Elt F)) : after KB V ⟪main_arg0⟫ = V ⟪main_arg0⟫ := by
  simp only [KB, H3b, hostOps0_4, List.cons_append, List.nil_append]
  after_results_simp

theorem KB_v1 (V : Valuation τ sig (Elt F)) : after KB V ⟪main_v1⟫ = V ⟪main_v1⟫ := by
  simp only [KB, H3b, hostOps0_4, List.cons_append, List.nil_append]
  after_results_simp

theorem KB_v8 (V : Valuation τ sig (Elt F)) : after KB V ⟪main_v8⟫ = V ⟪main_v8⟫ := by
  simp only [KB, H3b, hostOps0_4, List.cons_append, List.nil_append]
  after_results_simp

end Cert.KernelIdeal.Hand

end
-- ==== Proof.KerHostW1.lean ====
/-
  The sixth generated stretch of the kernel's host operations (the word id read along the row at the clamped,
  shifted running maximum), from any contents V that holds the word ids W and the clamped position: the previous word
  id, as the segment-id chain defines it.  The buffers it does not write keep their contents.
-/
import proofs.«126040_j66219805770053_2_alg».proof.Proof.Gen.KernelIdeal.Launch
import proofs.«126040_j66219805770053_2_alg».proof.Proof.SegChain
import Idealize.ShloMosaic.Lib.StableHlo.Run

-- the fold over a stretch of some twenty operations is rewritten to depth: one level per operation and per argument
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

theorem K1_v10 (V : Valuation τ sig (Elt F)) (W : Cert.Seg.Words) (h0 : V ⟪main_arg0⟫ = W)
    (h9 : V ⟪main_v9⟫ = Cert.Seg.s9 W) : after hostOps0_5 V ⟪main_v10⟫ = Cert.Seg.s10 W := by
  subst h0
  simp only [hostOps0_5]
  after_results_simp
  simp only [h9]
  rfl

theorem K1_arg0 (V : Valuation τ sig (Elt F)) : after hostOps0_5 V ⟪main_arg0⟫ = V ⟪main_arg0⟫ := by
  simp only [hostOps0_5]
  after_results_simp

theorem K1_v1 (V : Valuation τ sig (Elt F)) : after hostOps0_5 V ⟪main_v1⟫ = V ⟪main_v1⟫ := by
  simp only [hostOps0_5]
  after_results_simp

theorem K1_v8 (V : Valuation τ sig (Elt F)) : after hostOps0_5 V ⟪main_v8⟫ = V ⟪main_v8⟫ := by
  simp only [hostOps0_5]
  after_results_simp

end Cert.KernelIdeal.Hand

end
-- ==== Proof.KerHostW2.lean ====
/-
  The last four generated stretches of the kernel's host operations (the start-of-segment mask, its running sum,
  the segment id), from any contents V that holds the word ids W, the validity mask, the shifted running maximum and
  the previous word id: the segment id, as the segment-id chain defines it.
-/
import proofs.«126040_j66219805770053_2_alg».proof.Proof.Gen.KernelIdeal.Launch
import proofs.«126040_j66219805770053_2_alg».proof.Proof.SegChain
import Idealize.ShloMosaic.Lib.StableHlo.Run

-- the fold over a stretch of some twenty operations is rewritten to depth: one level per operation and per argument
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

-- the array operations stay folded: the equations below compare compositions of them argument by argument and never
-- need what one of them computes
attribute [local irreducible] Host.reduceWindow Host.reduce Host.gather Host.scatterAdd Host.divf broadcastInDim
  extractStridedSlice concatenate shapeCast select cmpi maxsi minsi addi subi muli andi ori extui uitofp maximumf
  iotaInDim constantI constant

/-- A TensorCore reference as the device buffer it names. -/
local notation "⟪" r "⟫" => (Proc.devRef (τ := τ) Proc.tc r : DevRef τ sig)

/-- %c_3 … %20. -/
abbrev K2 : List (HloOp τ sig (Elt F)) := hostOps0_6 ++ (hostOps0_7 ++ (hostOps0_8 ++ hostOps0_9))

theorem K2_v20 (V : Valuation τ sig (Elt F)) (W : Cert.Seg.Words) (h0 : V ⟪main_arg0⟫ = W)
    (h1 : V ⟪main_v1⟫ = Cert.Seg.s1 W) (h8 : V ⟪main_v8⟫ = Cert.Seg.s8 W) (h10 : V ⟪main_v10⟫ = Cert.Seg.s10 W) :
    after K2 V ⟪main_v20⟫ = Cert.Seg.s20 W := by
  subst h0
  simp only [K2, hostOps0_6, hostOps0_7, hostOps0_8, hostOps0_9, List.cons_append, List.nil_append]
  after_results_simp
  simp only [h1, h8, h10]
  rfl

theorem K2_arg0 (V : Valuation τ sig (Elt F)) : after K2 V ⟪main_arg0⟫ = V ⟪main_arg0⟫ := by
  simp only [K2, hostOps0_6, hostOps0_7, hostOps0_8, hostOps0_9, List.cons_append, List.nil_append]
  after_results_simp

theorem K2_v1 (V : Valuation τ sig (Elt F)) : after K2 V ⟪main_v1⟫ = V ⟪main_v1⟫ := by
  simp only [K2, hostOps0_6, hostOps0_7, hostOps0_8, hostOps0_9, List.cons_append, List.nil_append]
  after_results_simp

end Cert.KernelIdeal.Hand

end
-- ==== Proof.KerHost.lean ====
/-
  The kernel's host prefix computes the reference's segment ids.  The ten generated stretches of host operations before
  the region are, in order, the first twenty values of the reference's computation written in the kernel's own
  namespace; read stretch by stretch (kv k is the contents after the first k groups of stretches) the buffer %20
  holds  segOf W  and the buffer %1 holds  validOf W,  W the launch contents of the first argument, when the region is
  entered.
-/
import proofs.«126040_j66219805770053_2_alg».proof.Proof.KerData
import proofs.«126040_j66219805770053_2_alg».proof.Proof.KerHostW0
import proofs.«126040_j66219805770053_2_alg».proof.Proof.KerHostW1
import proofs.«126040_j66219805770053_2_alg».proof.Proof.KerHostW2
import proofs.«126040_j66219805770053_2_alg».proof.Proof.SegChain
import Idealize.ShloMosaic.Lib.Pipeline.Frame

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

/-- A TensorCore reference as the device buffer it names. -/
local notation "⟪" r "⟫" => (Proc.devRef (τ := τ) Proc.tc r : DevRef τ sig)

/-- The ten stretches in five groups: up to the concatenation, the concatenation, the clamp, the gather, the rest. -/
theorem flatten_opss : List.flatten (opss (F := F)) = KA ++ (Kc ++ (KB ++ (hostOps0_5 ++ K2))) := rfl

def kv1 (V0 : Valuation τ sig (Elt F)) : Valuation τ sig (Elt F) := after KA V0
def kv2 (V0 : Valuation τ sig (Elt F)) : Valuation τ sig (Elt F) := after Kc (kv1 V0)
def kv3 (V0 : Valuation τ sig (Elt F)) : Valuation τ sig (Elt F) := after KB (kv2 V0)
def kv4 (V0 : Valuation τ sig (Elt F)) : Valuation τ sig (Elt F) := after hostOps0_5 (kv3 V0)
def kv5 (V0 : Valuation τ sig (Elt F)) : Valuation τ sig (Elt F) := after K2 (kv4 V0)

theorem after_prefix (V0 : Valuation τ sig (Elt F)) : after (List.flatten (opss (F := F))) V0 = kv5 V0 := by
  rw [flatten_opss, after_append, after_append, after_append, after_append]
  rfl

section
variable (V0 : Valuation τ sig (Elt F))

theorem kv1_arg0 : kv1 V0 ⟪main_arg0⟫ = V0 ⟪main_arg0⟫ := KA_arg0 V0
theorem kv1_v1 : kv1 V0 ⟪main_v1⟫ = Cert.Seg.s1 (V0 ⟪main_arg0⟫) := KA_v1 V0
theorem kv1_v6 : kv1 V0 ⟪main_v6⟫ = Cert.Seg.s6 := KA_v6 V0
theorem kv1_v7 : kv1 V0 ⟪main_v7⟫ = Cert.Seg.s7 (V0 ⟪main_arg0⟫) := KA_v7 V0

theorem kv2_arg0 : kv2 V0 ⟪main_arg0⟫ = V0 ⟪main_arg0⟫ := (Kc_keep _ (by decide)).trans (kv1_arg0 V0)
theorem kv2_v1 : kv2 V0 ⟪main_v1⟫ = Cert.Seg.s1 (V0 ⟪main_arg0⟫) := (Kc_keep _ (by decide)).trans (kv1_v1 V0)
theorem kv2_v8 : kv2 V0 ⟪main_v8⟫ = Cert.Seg.s8 (V0 ⟪main_arg0⟫) := by
  unfold kv2
  rw [Kc_v8, kv1_v6, kv1_v7, s8_eq_catK]

theorem kv3_arg0 : kv3 V0 ⟪main_arg0⟫ = V0 ⟪main_arg0⟫ := (KB_arg0 _).trans (kv2_arg0 V0)
theorem kv3_v1 : kv3 V0 ⟪main_v1⟫ = Cert.Seg.s1 (V0 ⟪main_arg0⟫) := (KB_v1 _).trans (kv2_v1 V0)
theorem kv3_v8 : kv3 V0 ⟪main_v8⟫ = Cert.Seg.s8 (V0 ⟪main_arg0⟫) := (KB_v8 _).trans (kv2_v8 V0)
theorem kv3_v9 : kv3 V0 ⟪main_v9⟫ = Cert.Seg.s9 (V0 ⟪main_arg0⟫) := KB_v9 _ _ (kv2_v8 V0)

theorem kv4_arg0 : kv4 V0 ⟪main_arg0⟫ = V0 ⟪main_arg0⟫ := (K1_arg0 _).trans (kv3_arg0 V0)
theorem kv4_v1 : kv4 V0 ⟪main_v1⟫ = Cert.Seg.s1 (V0 ⟪main_arg0⟫) := (K1_v1 _).trans (kv3_v1 V0)
theorem kv4_v8 : kv4 V0 ⟪main_v8⟫ = Cert.Seg.s8 (V0 ⟪main_arg0⟫) := (K1_v8 _).trans (kv3_v8 V0)
theorem kv4_v10 : kv4 V0 ⟪main_v10⟫ = Cert.Seg.s10 (V0 ⟪main_arg0⟫) := K1_v10 _ _ (kv3_arg0 V0) (kv3_v9 V0)

theorem kv5_v1 : kv5 V0 ⟪main_v1⟫ = Cert.Seg.s1 (V0 ⟪main_arg0⟫) := (K2_v1 _).trans (kv4_v1 V0)
theorem kv5_v20 : kv5 V0 ⟪main_v20⟫ = Cert.Seg.s20 (V0 ⟪main_arg0⟫) :=
  K2_v20 _ _ (kv4_arg0 V0) (kv4_v1 V0) (kv4_v8 V0) (kv4_v10 V0)

end

variable (m : (ℓ : Loc nD τ sig) → Buf (Elt F) ℓ)

/-- When the region is entered, %20 holds the segment ids of the launch's word ids. -/
theorem V_seg (c : Dev nD) :
    (V m c main_v20 : S16x4096.Idx → BitVec 32) = Cert.Seg.segOf (m ((c.tc : Thread nD τ).loc main_arg0)) := by
  show after (List.flatten (opss (F := F))) (fun b => m (c, b)) ⟪main_v20⟫ = _
  rw [after_prefix]
  exact kv5_v20 _

/-- When the region is entered, %1 holds the validity mask of the launch's word ids. -/
theorem V_valid (c : Dev nD) :
    (V m c main_v1 : S16x4096.Idx → BitVec 1) = Cert.Seg.validOf (m ((c.tc : Thread nD τ).loc main_arg0)) := by
  show after (List.flatten (opss (F := F))) (fun b => m (c, b)) ⟪main_v1⟫ = _
  rw [after_prefix]
  exact kv5_v1 _

end Cert.KernelIdeal.Hand

end
-- ==== Proof.KerDataB.lean ====
import proofs.«126040_j66219805770053_2_alg».proof.Proof.Gen.Kernel.Launch
import proofs.«126040_j66219805770053_2_alg».proof.Proof.Gen.Kernel.Points
import proofs.«126040_j66219805770053_2_alg».proof.Proof.Gen.Kernel.Skeleton
import Idealize.ShloMosaic.Lib.Pipeline.Kit
import Idealize.ShloMosaic.Lib.Pipeline.Frame
import Idealize.ShloMosaic.Lib.Pipeline.FrameBody
import Idealize.ShloMosaic.Lib.Tactic

/-! The proof data of the kernel's one region: the arrays as the region finds them (after the ten
stretches of host operations), the blocks of the segment ids and of the values each grid point
sees, the invariant that carries the two scratch buffers along a row of the grid, and what each
window's staging buffer holds after the body. A grid point is t = qi * 32 + ki: qi the q-block,
ki the k-block. -/

/-! The body's arithmetic over the k-blocks of one q-block, as recursions over the payloads
(the word-level program's copy of the definitions the idealized program's proof data use). -/

namespace Cert.Kernel.Acc
open Idealize.ShloMosaic Cert.Kernel Cert.Kernel.Gen
variable {F : FTy → Type} [FloatOps F]

/-- the accumulator scratch after the body has run at k-blocks 0 … n of one q-block: sq the q-block
of the segment ids, sk j / vk j the j-th k-block of the segment ids / of the values -/
noncomputable def acc (sq : Vec F S16x128 .i32) (sk : Nat → Vec F S16x128 .i32)
    (vk : Nat → Vec F S16x128x512 .f32) : Nat → FVec F S16x128x512 .f32
  | 0 => k0_pay6 sq (sk 0) (vk 0) k0_pay2
  | n + 1 => k0_pay6 sq (sk (n + 1)) (vk (n + 1)) (acc sq sk vk n)

/-- the counter scratch after k-blocks 0 … n -/
noncomputable def cnt (sq : Vec F S16x128 .i32) (sk : Nat → Vec F S16x128 .i32) :
    Nat → FVec F S16x128 .f32
  | 0 => k0_pay7 sq (sk 0) k0_pay3
  | n + 1 => k0_pay7 sq (sk (n + 1)) (cnt sq sk n)

/-- what the body stores into the output block at the last k-block -/
noncomputable def outBlock (sq : Vec F S16x128 .i32) (sk : Nat → Vec F S16x128 .i32)
    (vk : Nat → Vec F S16x128x512 .f32) : FVec F S16x128x512 .f32 :=
  k0_pay1 (k0_pay4 sq) (cnt sq sk 31) (acc sq sk vk 31)

end Cert.Kernel.Acc

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The host operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9]

/-- Core c's buffers when the region is entered: the launch memory after every host operation. -/
abbrev V (c : Dev nD) (b : Ref sig .tc) : Buf (Elt F) ((c : Thread nD τ).loc b) :=
  StableHlo.after (List.flatten (opss (F := F))) (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub⟩

theorem opss_fresh : (opss (F := F)).Forall fun ops => ops.Forall fun op => op.fresh = ∅ := by
  simp only [List.Forall]; repeat' constructor

/-- The program up to the region: the ten stretches run on the unscoped buffers, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

/-! ## The grid -/

theorem cfgN : cfg0.N = 1024 := N_0

/-- The point of t's row at k-block j. -/
def rowPt (t : Fin cfg0.N) (j : Nat) : Fin cfg0.N :=
  ⟨(t.val / 32) * 32 + j % 32, by
    have h : t.val < 1024 := lt_of_lt_of_eq t.isLt cfgN
    exact lt_of_lt_of_eq (show (t.val / 32) * 32 + j % 32 < 1024 by omega) cfgN.symm⟩

/-! ## The blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The q-block of the segment ids in t's row. -/
def sq (c : Dev nD) (t : Fin cfg0.N) : Vec F S16x128 .i32 := iblk m c 0 t
/-- The j-th k-block of the segment ids. -/
def sk (c : Dev nD) (t : Fin cfg0.N) (j : Nat) : Vec F S16x128 .i32 := iblk m c 1 (rowPt t j)
/-- The j-th k-block of the values. -/
def vk (c : Dev nD) (t : Fin cfg0.N) (j : Nat) : Vec F S16x128x512 .f32 := iblk m c 2 (rowPt t j)

/-! ## The body's two conditions on the k-block -/

/-- The first conditional's condition: the k-block is the first of its row. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 32 = 0 :=
  (by decide +kernel : ∀ t : Fin grid0.N, cond1 (grid0.coords t) ↔ t.val % 32 = 0)

/-- The second conditional's condition: the k-block is the last of its row. -/
abbrev cond2 (i : grid0.Coords) : Prop := k0_cond2 i = 1#1
theorem hcond2 : ∀ t : Fin cfg0.N, cond2 (grid0.coords t) ↔ t.val % 32 = 31 :=
  (by decide +kernel : ∀ t : Fin grid0.N, cond2 (grid0.coords t) ↔ t.val % 32 = 31)

/-- The output window is idle off the last k-block, live at it, and not written back off it. -/
theorem idle3 : ∀ t : Fin cfg0.N, ¬cond2 (grid0.coords t) → cfg0.idle 3 (grid0.coords t) = true := by decide +kernel
theorem live3 : ∀ t : Fin cfg0.N, cond2 (grid0.coords t) → cfg0.idle 3 (grid0.coords t) = false := by decide +kernel
theorem noFlush3 (t : Fin cfg0.N) (h : ¬cond2 (grid0.coords t)) : (cfg0.win 3).flush t = false := by
  cases hf : (cfg0.win 3).flush t
  · rfl
  · exact absurd ((hcond2 t).mpr ((flush0_3 t).mp hf)) h

/-! ## The scratch buffers and the invariant -/

/-- The accumulator and the counter, as the body is handed them. -/
abbrev scM0 : Memref sig .tc .vmem S16x128x512 .f32 := Memref.whole cc0_scratch0
abbrev scM1 : Memref sig .tc .vmem S16x128 .f32 := Memref.whole cc0_scratch1

/-- The core's scoped buffers no window stages, as memrefs owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The invariant before position n (after the body at point n - 1): at the start of a row of the grid the
    two scratch buffers hold anything (the body overwrites them at the first k-block); inside a row, after
    k-block ki = (n - 1) % 32 they hold the accumulator and the counter over the k-blocks 0 … ki. -/
def PhiAt (c : Dev nD) (n : ℕ) (hn : n ≤ cfg0.N) : sProp 𝕄 :=
  if h : n % 32 = 0 then
    iprop((∃ d, owns (c : Thread nD τ) scM0 fullShare d) ∗ (∃ d, owns (c : Thread nD τ) scM1 fullShare d))
  else
    iprop(owns (c : Thread nD τ) scM0 fullShare
            (Acc.acc (sq m c ⟨n - 1, by omega⟩) (sk m c ⟨n - 1, by omega⟩) (vk m c ⟨n - 1, by omega⟩) ((n - 1) % 32))
        ∗ owns (c : Thread nD τ) scM1 fullShare
            (Acc.cnt (sq m c ⟨n - 1, by omega⟩) (sk m c ⟨n - 1, by omega⟩) ((n - 1) % 32)))

/-! ## The proof data -/

/-- The proof data of the one pipeline on core c: the arrays as the region finds them; after the body each
    input's buffer at its block, the output's at the block the last k-block stores; the two windows on the
    segment-id array each hold half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Acc.outBlock (sq m c t) (sk m c t) (vk m c t)
  Φ t := PhiAt m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAt m c t.val (Nat.le_of_lt t.isLt) := by
  dsimp only [dats]; simp only [Fin.coe_castSucc]
theorem Phi_succ (c : Dev nD) (t : Fin cfg0.N) :
    (dats m 0 c).Φ t.succ = PhiAt m c (t.val + 1) t.isLt := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = Acc.outBlock (sq m c t) (sk m c t) (vk m c t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

end Cert.Kernel.Hand

end
-- ==== Proof.KerBodyB.lean ====
import proofs.«126040_j66219805770053_2_alg».proof.Proof.KerDataB
import Idealize.ShloMosaic.Lib.Pipeline.Value

/-! The kernel body as three triples, one per position of the k-block in its row: the first (the two
scratch buffers are reset, then accumulated into), a middle one (accumulated into), the last
(accumulated into, then the output block is stored from them). Each is stated over any whole
staging memrefs, with the contents every buffer ends with written out over the payloads. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading back a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

section ReadBack
variable {S : Shape} {e : EltTy} {sp : Space}

/-- A load of the whole box of a whole buffer reads its contents. -/
theorem readAt_unit_zero_unread (M : Memref sig .tc sp S e) (hM : M.IsWhole) {off : Fin S.rank → Nat} (h : off = fun _ => 0)
    (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h]

/-- A store of the whole box, last, leaves its payload, whatever was stored before. -/
theorem read_writes_cons_unit_zero (M : Memref sig .tc sp S e) (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

end ReadBack

/-! ## A middle k-block -/

set_option maxHeartbeats 1000000 in
/-- Off the first and the last k-block the body adds this k-block's term to the accumulator and to the
    counter; the three input buffers are left as found and the output's is not touched. -/
theorem runB (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : ¬cond1 i) (hc2 : ¬cond2 i)
    (x0 x1 : Vec F S16x128 .i32) (x2 : Vec F S16x128x512 .f32) (a : Vec F S16x128x512 .f32) (n : Vec F S16x128 .f32)
    (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg6 fullShare a ∗ owns (c : Thread nD τ) arg7 fullShare n
          ∗ (iprop(owns (c : Thread nD τ) arg2 fullShare x0 ∗ owns (c : Thread nD τ) arg3 fullShare x1 ∗ owns (c : Thread nD τ) arg4 fullShare x2
                ∗ owns (c : Thread nD τ) arg6 fullShare (k0_pay6 x0 x1 x2 a) ∗ owns (c : Thread nD τ) arg7 fullShare (k0_pay7 x0 x1 n)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, readAt_unit_zero_unread arg6 harg6 hz3]
  · iexists _; isplitr
    swap; · iexact H7
    ipureintro
    sl_unfold_run_names
    rw [read_writes_cons_unit_zero arg7 _ hz2, readAt_unit_zero_unread arg2 harg2 hz2, readAt_unit_zero_unread arg3 harg3 hz2,
      readAt_unit_zero_unread arg7 harg7 hz2]

/-! ## The first k-block of a row -/

set_option maxHeartbeats 1000000 in
/-- At the first k-block the body resets the accumulator and the counter to zero — whatever they held —
    and then adds this k-block's term to each. -/
theorem runA (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : cond1 i) (hc2 : ¬cond2 i)
    (x0 x1 : Vec F S16x128 .i32) (x2 : Vec F S16x128x512 .f32)
    (E : Set ℕ) (K : PUnit → sProp 𝕄) :
    iprop(owns (c : Thread nD τ) arg2 fullShare x0 ∗ owns (c : Thread nD τ) arg3 fullShare x1 ∗ owns (c : Thread nD τ) arg4 fullShare x2
          ∗ (∃ d, owns (c : Thread nD τ) arg6 fullShare d) ∗ (∃ d, owns (c : Thread nD τ) arg7 fullShare d)
          ∗ (iprop(owns (c : Thread nD τ) arg2 fullShare x0 ∗ owns (c : Thread nD τ) arg3 fullShare x1 ∗ owns (c : Thread nD τ) arg4 fullShare x2
                ∗ owns (c : Thread nD τ) arg6 fullShare (k0_pay6 x0 x1 x2 k0_pay2) ∗ owns (c : Thread nD τ) arg7 fullShare (k0_pay7 x0 x1 k0_pay3)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%d6, %f6, -, H6⟩, ⟨%d7, %f7, -, H7⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, View.readCov_unit_zero arg6.view hz3]
  · iexists _; isplitr
    swap; · iexact H7
    ipureintro
    sl_unfold_run_names
    rw [read_writes_cons_unit_zero arg7 _ hz2, readAt_unit_zero_unread arg2 harg2 hz2, readAt_unit_zero_unread arg3 harg3 hz2,
      View.readCov_unit_zero arg7.view hz2]

/-! ## The last k-block of a row -/

set_option maxHeartbeats 1000000 in
/-- At the last k-block the body adds this k-block's term to the accumulator and to the counter, and
    stores the output block computed from the q-block of the segment ids, the counter and the accumulator
    — whatever the output's buffer held. -/
theorem runC (c : Dev nD) (i : grid0.Coords)
    (arg2 : Memref sig .tc .vmem S16x128 .i32) (harg2 : arg2.IsWhole) (arg3 : Memref sig .tc .vmem S16x128 .i32) (harg3 : arg3.IsWhole)
    (arg4 : Memref sig .tc .vmem S16x128x512 .f32) (harg4 : arg4.IsWhole) (arg5 : Memref sig .tc .vmem S16x128x512 .f32) (harg5 : arg5.IsWhole)
    (arg6 : Memref sig .tc .vmem S16x128x512 .f32) (harg6 : arg6.IsWhole) (arg7 : Memref sig .tc .vmem S16x128 .f32) (harg7 : arg7.IsWhole)
    (hc1 : ¬cond1 i) (hc2 : cond2 i)
    (x0 x1 : Vec F S16x128 .i32) (x2 : Vec F S16x128x512 .f32) (a : Vec F S16x128x512 .f32) (n : Vec F S16x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
          ∗ owns (c : Thread nD τ) arg6 fullShare a ∗ owns (c : Thread nD τ) arg7 fullShare n
          ∗ (iprop(owns (c : Thread nD τ) arg2 fullShare x0 ∗ owns (c : Thread nD τ) arg3 fullShare x1 ∗ owns (c : Thread nD τ) arg4 fullShare x2
                ∗ owns (c : Thread nD τ) arg5 fullShare (k0_pay1 (k0_pay4 x0) (k0_pay7 x0 x1 n) (k0_pay6 x0 x1 x2 a))
                ∗ owns (c : Thread nD τ) arg6 fullShare (k0_pay6 x0 x1 x2 a) ∗ owns (c : Thread nD τ) arg7 fullShare (k0_pay7 x0 x1 n)) -∗ K ⟨⟩))
      ⊢ wp frame (wpE (defs₀ (F := F)) Variants.none c none) E
          (cc0__opap_kernel i arg2 harg2 arg3 harg3 arg4 harg4 arg5 harg5 arg6 harg6 arg7 harg7) K := by
  simp only [cc0__opap_kernel_eq_skeleton]; unfold cc0__opap_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    sl_unfold_run_names
    rw [read_writes_cons_unit_zero arg5 _ hz3, View.readCov_unit_zero arg7.view hz2, View.readCov_unit_zero arg6.view hz3,
      readAt_unit_zero_unread arg2 harg2 hz2, readAt_unit_zero_unread arg3 harg3 hz2,
      readAt_unit_zero_unread arg4 harg4 hz3, readAt_unit_zero_unread arg6 harg6 hz3, readAt_unit_zero_unread arg7 harg7 hz2]
  isplitl [H6]
  · iexists _; isplitr
    swap; · iexact H6
    ipureintro
    sl_unfold_run_names
    rw [read_writes_cons_unit_zero arg6 _ hz3, readAt_unit_zero_unread arg2 harg2 hz2, readAt_unit_zero_unread arg3 harg3 hz2,
      readAt_unit_zero_unread arg4 harg4 hz3, readAt_unit_zero_unread arg6 harg6 hz3]
  · iexists _; isplitr
    swap; · iexact H7
    ipureintro
    sl_unfold_run_names
    rw [read_writes_cons_unit_zero arg7 _ hz2, readAt_unit_zero_unread arg2 harg2 hz2, readAt_unit_zero_unread arg3 harg3 hz2,
      readAt_unit_zero_unread arg7 harg7 hz2]

/-! ## Points of one row see the same q-block and the same k-blocks -/

variable (m : (ℓ : Loc nD τ sig) → Buf (Elt F) ℓ)

theorem rowPt_self (t : Fin cfg0.N) : rowPt t (t.val % 32) = t :=
  Fin.ext (by show t.val / 32 * 32 + t.val % 32 % 32 = t.val; omega)

theorem rowPt_congr {t t' : Fin cfg0.N} (h : t.val / 32 = t'.val / 32) : rowPt t = rowPt t' :=
  funext fun j => Fin.ext (by show t.val / 32 * 32 + j % 32 = t'.val / 32 * 32 + j % 32; rw [h])

theorem sk_congr (c : Dev nD) {t t' : Fin cfg0.N} (h : t.val / 32 = t'.val / 32) : sk m c t = sk m c t' := by
  funext j; unfold sk; rw [rowPt_congr h]
theorem vk_congr (c : Dev nD) {t t' : Fin cfg0.N} (h : t.val / 32 = t'.val / 32) : vk m c t = vk m c t' := by
  funext j; unfold vk; rw [rowPt_congr h]

/-- The q-window's block index is that of the first point of the row. -/
theorem index0_row : ∀ t : Fin cfg0.N, (cfg0.win 0).index t = (cfg0.win 0).index (rowPt t 0) :=
  (by decide +kernel : ∀ t : Fin grid0.N, win0_0.index t = win0_0.index (rowPt t 0))

/-- What a fetch of an input window puts in its buffer is the window's block. -/
theorem fetched_0 (c : Dev nD) (t : Fin cfg0.N) (d) : (dats m 0 c).fetched 0 t d = iblk m c 0 t := by
  unfold Dat.fetched Dat.blockOf iblk; rw [A_eq]; try rfl

theorem sq_row (c : Dev nD) (t : Fin cfg0.N) : sq m c t = sq m c (rowPt t 0) := by
  have h1 := fetched_0 m c t (sq m c t)
  have h2 := fetched_0 m c (rowPt t 0) (sq m c t)
  unfold sq; rw [← h1, ← h2]
  exact (dats m 0 c).fetched_congr 0 (index0_row t) rfl _

theorem sq_congr (c : Dev nD) {t t' : Fin cfg0.N} (h : t.val / 32 = t'.val / 32) : sq m c t = sq m c t' := by
  rw [sq_row m c t, sq_row m c t', rowPt_congr h]

/-! ## The invariant at the three kinds of position -/

theorem PhiAt_start (c : Dev nD) (n : ℕ) (hn : n ≤ cfg0.N) (h : n % 32 = 0) :
    PhiAt m c n hn = iprop((∃ d, owns (c : Thread nD τ) scM0 fullShare d) ∗ (∃ d, owns (c : Thread nD τ) scM1 fullShare d)) := by
  unfold PhiAt; rw [dif_pos h]

theorem PhiAt_in (c : Dev nD) (n : ℕ) (hn : n ≤ cfg0.N) (h : ¬n % 32 = 0) (p : Fin cfg0.N) (hp : p.val = n - 1) :
    PhiAt m c n hn = iprop(owns (c : Thread nD τ) scM0 fullShare (Acc.acc (sq m c p) (sk m c p) (vk m c p) ((n - 1) % 32))
        ∗ owns (c : Thread nD τ) scM1 fullShare (Acc.cnt (sq m c p) (sk m c p) ((n - 1) % 32))) := by
  unfold PhiAt; rw [dif_neg h]
  obtain ⟨pv, pp⟩ := p
  dsimp only at hp; subst hp; rfl

/-- After the body at a point that is not the last of its row: the scratches over the k-blocks up to it. -/
theorem PhiAt_after (c : Dev nD) (t : Fin cfg0.N) (h : ¬(t.val + 1) % 32 = 0) :
    PhiAt m c (t.val + 1) t.isLt = iprop(owns (c : Thread nD τ) scM0 fullShare (Acc.acc (sq m c t) (sk m c t) (vk m c t) (t.val % 32))
        ∗ owns (c : Thread nD τ) scM1 fullShare (Acc.cnt (sq m c t) (sk m c t) (t.val % 32))) := by
  rw [PhiAt_in m c _ _ h t (Nat.add_sub_cancel t.val 1).symm, Nat.add_sub_cancel]

/-- Before the body at a point that is not the first of its row: the scratches over the k-blocks before it. -/
theorem PhiAt_before (c : Dev nD) (t : Fin cfg0.N) (h : ¬t.val % 32 = 0) :
    PhiAt m c t.val (Nat.le_of_lt t.isLt) = iprop(owns (c : Thread nD τ) scM0 fullShare (Acc.acc (sq m c t) (sk m c t) (vk m c t) (t.val % 32 - 1))
        ∗ owns (c : Thread nD τ) scM1 fullShare (Acc.cnt (sq m c t) (sk m c t) (t.val % 32 - 1))) := by
  have hlt : t.val - 1 < cfg0.N := Nat.lt_of_le_of_lt (Nat.sub_le _ _) t.isLt
  have hrow : (⟨t.val - 1, hlt⟩ : Fin cfg0.N).val / 32 = t.val / 32 := by
    show (t.val - 1) / 32 = t.val / 32; omega
  rw [PhiAt_in m c _ _ h ⟨t.val - 1, hlt⟩ rfl, sq_congr m c hrow, sk_congr m c hrow, vk_congr m c hrow,
    show (t.val - 1) % 32 = t.val % 32 - 1 from by omega]

/-! ## The body obligation -/

/-- Each window's current staging memref at point t, as the pipeline passes it, and its wholeness. -/
abbrev ms0 (t : Fin cfg0.N) : Memref sig .tc .vmem S16x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x512 .f32 := win0_3.stage (cfg0.slots t 3)
abbrev hs3 (t : Fin cfg0.N) : (ms3 t).IsWhole := hstage0_3 ((cfg0.slots t 3).cast nbuf0_3)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem live012 (w : Fin cfg0.W) (t : Fin cfg0.N) (h : w ≠ 3) : cfg0.idle w (grid0.coords t) = false := by
  fin_cases w <;> first | rfl | exact absurd rfl h

/-- The inputs are never idle: each is handed back at its block. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live012 0 t (by decide)], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live012 1 t (by decide)], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live012 2 t (by decide)], after_2]
/-- The output is live at the last k-block of a row. -/
theorem leaves_3_live (c : Dev nD) (t : Fin cfg0.N) (h : cond2 (grid0.coords t)) :
    (dats m 0 c).leavesExact 3 t = owns (c : Thread nD τ) (ms3 t) fullShare (Acc.outBlock (sq m c t) (sk m c t) (vk m c t)) := by
  rw [show (dats m 0 c).leavesExact 3 t = owns (c : Thread nD τ) (ms3 t) fullShare ((dats m 0 c).after 3 t) from by
    unfold Dat.leavesExact; rw [live3 t h], after_3]

set_option maxHeartbeats 4000000 in
/-- The body at any point. The inputs' buffers hold their blocks; by the position of the k-block in its row
    one of the three triples applies; the invariant hands the body the two scratch buffers at anything
    (first k-block) or over the k-blocks before this one, and takes them back over the k-blocks up to this
    one, or at anything after the last k-block; the output's buffer is untouched off the last k-block and
    ends at the output block at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [Phi_castSucc, Phi_succ, leaves_0, leaves_1, leaves_2]
  have hN : t.val < 1024 := lt_of_lt_of_eq t.isLt cfgN
  have e0 : (iblk m c 0 t : Vec F S16x128 .i32) = sq m c t := rfl
  have e1 : (iblk m c 1 t : Vec F S16x128 .i32) = sk m c t (t.val % 32) := by unfold sk; rw [rowPt_self]
  have e2 : (iblk m c 2 t : Vec F S16x128x512 .f32) = vk m c t (t.val % 32) := by unfold vk; rw [rowPt_self]
  by_cases h0 : t.val % 32 = 0
  · -- the first k-block of the row
    have hc1 : cond1 (grid0.coords t) := (hcond1 t).mpr h0
    have hc2 : ¬cond2 (grid0.coords t) := fun h => by have := (hcond2 t).mp h; omega
    rw [Dat.leavesExact_idle (dats m 0 c) 3 t (idle3 t hc2) (noFlush3 t hc2)]
    rw [PhiAt_start m c _ _ h0, PhiAt_after m c t (by omega)]
    have hacc : Acc.acc (sq m c t) (sk m c t) (vk m c t) (t.val % 32)
        = k0_pay6 (iblk m c 0 t) (iblk m c 1 t) (iblk m c 2 t) k0_pay2 := by
      rw [e0, e1, e2, h0]; rfl
    have hcnt : Acc.cnt (sq m c t) (sk m c t) (t.val % 32) = k0_pay7 (iblk m c 0 t) (iblk m c 1 t) k0_pay3 := by
      rw [e0, e1, h0]; rfl
    rw [hacc, hcnt]
    iintro ⟨⟨HS0, HS1⟩, Ho, ⟨%d0, H0⟩, ⟨%d1, H1⟩, ⟨%d2, H2⟩, H3⟩
    iapply (runA c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    iexact H3
  · obtain ⟨k, hk⟩ : ∃ k, t.val % 32 = k + 1 := ⟨t.val % 32 - 1, by omega⟩
    have hacc : Acc.acc (sq m c t) (sk m c t) (vk m c t) (t.val % 32)
        = k0_pay6 (iblk m c 0 t) (iblk m c 1 t) (iblk m c 2 t) (Acc.acc (sq m c t) (sk m c t) (vk m c t) (t.val % 32 - 1)) := by
      rw [e0, e1, e2, hk]; rfl
    have hcnt : Acc.cnt (sq m c t) (sk m c t) (t.val % 32)
        = k0_pay7 (iblk m c 0 t) (iblk m c 1 t) (Acc.cnt (sq m c t) (sk m c t) (t.val % 32 - 1)) := by
      rw [e0, e1, hk]; rfl
    have hc1 : ¬cond1 (grid0.coords t) := fun h => h0 ((hcond1 t).mp h)
    rw [PhiAt_before m c t h0]
    by_cases h31 : t.val % 32 = 31
    · -- the last k-block of the row
      have hc2 : cond2 (grid0.coords t) := (hcond2 t).mpr h31
      rw [leaves_3_live m c t hc2, PhiAt_start m c _ _ (show (t.val + 1) % 32 = 0 by omega)]
      have hout : Acc.outBlock (sq m c t) (sk m c t) (vk m c t)
          = k0_pay1 (k0_pay4 (iblk m c 0 t))
              (k0_pay7 (iblk m c 0 t) (iblk m c 1 t) (Acc.cnt (sq m c t) (sk m c t) (t.val % 32 - 1)))
              (k0_pay6 (iblk m c 0 t) (iblk m c 1 t) (iblk m c 2 t) (Acc.acc (sq m c t) (sk m c t) (vk m c t) (t.val % 32 - 1))) := by
        rw [← hacc, ← hcnt, h31, e0]; rfl
      rw [hout]
      iintro ⟨⟨HS0, HS1⟩, Ho, ⟨%d0, H0⟩, ⟨%d1, H1⟩, ⟨%d2, H2⟩, H3⟩
      iapply (runC c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) _ _ Set.univ _)
      isplitl [H0]; · iexact H0
      isplitl [H1]; · iexact H1
      isplitl [H2]; · iexact H2
      isplitl [H3]
      · icases H3 with ⟨%d3, H3⟩; iexists _; iexact H3
      isplitl [HS0]; · iexact HS0
      isplitl [HS1]; · iexact HS1
      iintro ⟨H0, H1, H2, H3, HS0, HS1⟩
      isplitl [HS0 HS1]
      · isplitl [HS0]; · iexists _; iexact HS0
        iexists _; iexact HS1
      isplitl [Ho]; · iexact Ho
      isplitl [H0]; · iexact H0
      isplitl [H1]; · iexact H1
      isplitl [H2]; · iexact H2
      iexact H3
    · -- a middle k-block
      have hc2 : ¬cond2 (grid0.coords t) := fun h => h31 ((hcond2 t).mp h)
      rw [Dat.leavesExact_idle (dats m 0 c) 3 t (idle3 t hc2) (noFlush3 t hc2)]
      rw [PhiAt_after m c t (by omega), hacc, hcnt]
      iintro ⟨⟨HS0, HS1⟩, Ho, ⟨%d0, H0⟩, ⟨%d1, H1⟩, ⟨%d2, H2⟩, H3⟩
      iapply (runB c (grid0.coords t) (ms0 t) (hs0 t) (ms1 t) (hs1 t) (ms2 t) (hs2 t) (ms3 t) (hs3 t) scM0 (Memref.isWhole_whole _) scM1 (Memref.isWhole_whole _) hc1 hc2 (iblk m c 0 t) (iblk m c 1 t) (iblk m c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KerRunB.lean ====
import proofs.«126040_j66219805770053_2_alg».proof.Proof.KerBodyB

/-! The launch of the kernel's region and the run of the whole program: the ten stretches of host
operations, then the region, whose two windows on the segment-id array each take half of it. Every
weakly fair execution terminates; the result array ends at what the write-backs of the last k-blocks
leave, and the two argument arrays end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the
    pipeline issues. -/
def u₀ : UR sig nD τ := initOf (Pipeline.cells cfgs cellOf_inj) (Pipeline.launchToks cfgs cellOf_inj)

/-! ## The argument arrays as the region finds them -/

/-- No host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The shared array, split between its two windows -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Dat.arrays Pipeline.arrBufs
  rw [bigSep_W0]
  have himg : Finset.univ.image (Pipeline.arrRef spec0) = {main_v20, main_arg1, main_v21} := by decide
  rw [himg, bigSep_insert (by decide), bigSep_insert (by decide), bigSep_singleton]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  -- the entry contents are the region-entry valuation at each window's array
  have hA : ∀ w, (dats m 0 c).arrAt w 0 = V m c (Pipeline.arrRef spec0 w) := fun w => A_eq m c w
  simp only [hA]
  generalize V m c = Vc
  refine (show iprop((((c : Thread nD τ).loc main_v20) ↦{fullShare} Vc main_v20)
        ∗ (((c : Thread nD τ).loc main_arg1) ↦{fullShare} Vc main_arg1)
        ∗ (((c : Thread nD τ).loc main_v21) ↦{fullShare} Vc main_v21))
      ⊢ (iprop((((c : Thread nD τ).loc main_v20) ↦{fullShare.left} Vc main_v20)
        ∗ (((c : Thread nD τ).loc main_v20) ↦{fullShare.right} Vc main_v20)
        ∗ (((c : Thread nD τ).loc main_arg1) ↦{fullShare} Vc main_arg1)
        ∗ (((c : Thread nD τ).loc main_v21) ↦{fullShare} Vc main_v21)) : sProp 𝕄) from ?_)
  iintro ⟨H20, H1, H21⟩
  ihave H := (pointsTo_share (PosShare.mem_left_op_right fullShare)).1 $$ H20
  icases H with ⟨Hl, Hr⟩
  isplitl [Hl]; · iexact Hl
  isplitl [Hr]; · iexact Hr
  isplitl [H1]; · iexact H1
  iexact H21

/-! ## The invariant at the two ends -/

theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest_eq, show (dats m 0 c).Φ 0 = PhiAt m c 0 (Nat.zero_le _) from rfl, PhiAt_start m c 0 _ rfl]
  iintro ⟨-, H⟩; iexact H

theorem hout (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [scopedRest_eq, show (dats m 0 c).Φ (Fin.last cfg0.N) = PhiAt m c cfg0.N (Nat.le_refl _) from rfl,
    PhiAt_start m c _ _ (by rw [cfgN])]
  iintro H; isplitr; · iempintro
  iexact H

/-! ## The run -/

/-- What bypasses the region: the unscoped buffers no window stages, at their region-entry contents. -/
abbrev Zc (c : Dev nD) : sProp 𝕄 :=
  Pipeline.unscopedRest (Ix := Unit) (Name := ℕ) (U := UR sig nD τ) (Lvl := ℕ) spec0 c (V m c)

/-- and what is read of them at the end. -/
def QY (c : Dev nD) (s : MemSt nD τ sig (Elt F)) : Prop :=
  ∀ b ∈ Pipeline.restRefs sig spec0, s.mem ((c.tc : Thread nD τ).loc b) = V m c b

theorem hX (c : Dev nD) : Zc m c ⊢ iprop((emp : sProp 𝕄) ∗ Zc m c) := by
  iintro H; isplitr; · iempintro
  iexact H

theorem hY (c : Dev nD) (s' : Phys nD τ sig (Elt F)) :
    iprop((emp : sProp 𝕄) ∗ Zc m c ∗ SI s') ⊢ |={Set.univ}=> iprop(⌜QY m c s'.mem⌝ ∗ SI s') := by
  iintro ⟨-, HU, HSI⟩
  unfold Zc Pipeline.unscopedRest QY
  imodintro
  iapply (pointsTo_read_all (Pipeline.restRefs sig spec0) (fun b => (c.tc : Thread nD τ).loc b) (V m c) s')
  isplitl [HU] <;> iassumption

/-- The second argument is an input of the region: it ends at its region-entry contents, which are the launch's. -/
theorem arg1_end (c : Dev nD) : (dats m 0 c).arrAt 2 cfg0.N = m ((c.tc : Thread nD τ).loc main_arg1) :=
  ((dats m 0 c).arrAt_in 2 rfl _).trans ((A_eq m c 2).trans (V_main_arg1 m c))

set_option maxHeartbeats 4000000 in
set_option backward.isDefEq.respectTransparency.types false in
/-- From any memory with zero counters every weakly fair execution of the program on the TensorCores
    terminates; the result array ends at what the library computes from the proof data — the launch
    contents overwritten, row by row of the grid, by the output blocks — and the two arguments end as
    launched. -/
theorem run_main : θ_run (defs (F := F)) (onTc (τ := τ) (main (F := F))) ⟨m, fun _ => 0, ρ⟩ (fun r => ∀ c : Dev nD,
      r.2.mem ((c.tc : Thread nD τ).loc main_v21) = (dats m 0 c).arrAt 3 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := Zc m)
    (hX := hX m) (hin := hin m) (hout := hout m)
    (QY := QY m) (hY := hY m)
    (hQ := fun s h c => ⟨(h c).1 3,
      ((h c).2 main_arg0 (Pipeline.mem_restRefs_of main_arg0 (by decide) (by decide))).trans (V_main_arg0 m c),
      ((h c).1 2).trans (arg1_end m c)⟩)

/-- What the write-back at the last k-block of a row writes: the output block of the row. -/
theorem flushed_3 (c : Dev nD) (t : Fin cfg0.N) :
    (dats m 0 c).flushed 3 t = Acc.outBlock (sq m c t) (sk m c t) (vk m c t) := by
  show (cfg0.win 3).cut (grid0.coords t) ((dats m 0 c).after 3 t) = _
  rw [after_3]; rfl

end Cert.Kernel.Hand

end
-- ==== Proof.lean ====
/-
  The certificate of the segment-mean kernel against its gather/scatter reference.

  From the word ids W (-1 = padding) both programs compute, by the same host operations, a validity mask and a
  segment id seg[b,t]: the running count of segment starts, minus one, at valid positions, and 4096 at invalid ones.

  The kernel, over a grid of (q-block, k-block) pairs, accumulates for every position t of a q-block the sum over all
  positions t' of [seg b t = seg b t'] · X b t' e and the count of such t', and at the last k-block stores
  (sum / max(count, 1)) · [seg b t < 4096].

  The reference adds the masked values (and the mask) into buckets 4097·b + seg[b,t], divides each bucket's sum by
  max(1, its count), reads bucket clip(seg[b,t], 0, 4095) back at every position, and zeroes the invalid positions.

  They agree on the extended reals because every segment id lies in [0, 4096], a valid position's id is below 4096
  (so the bucket id neither wraps nor leaves the sample, the clip is the identity, and the bucket of a valid position
  collects exactly the valid positions with the same id) and an invalid position's id is 4096 (so the kernel's factor
  is 0 there).  Only x·1 = x, 0·x = 0 and x·0 = 0 are used of the extended reals: the finiteness precondition is not needed.

  The frames: the reference is a host program whose run is read operation by operation; the kernel's region is run
  point by point, the accumulator and the counter carried in scratch between the k-blocks of a q-block, the two
  windows on the segment-id array each holding half of its share.
-/
import proofs.«126040_j66219805770053_2_alg».proof.Defs
import proofs.«126040_j66219805770053_2_alg».proof.Proof.Gen.Kernel
import proofs.«126040_j66219805770053_2_alg».proof.Proof.Gen.KernelIdeal
import proofs.«126040_j66219805770053_2_alg».proof.Proof.Gen.ReferenceIdeal
import proofs.«126040_j66219805770053_2_alg».proof.Proof.Gen.Pre_finite_inputs
import proofs.«126040_j66219805770053_2_alg».proof.Proof.RefRun
import proofs.«126040_j66219805770053_2_alg».proof.Proof.Bridge
import proofs.«126040_j66219805770053_2_alg».proof.Proof.SegFacts
import proofs.«126040_j66219805770053_2_alg».proof.Proof.KerRun
import proofs.«126040_j66219805770053_2_alg».proof.Proof.KerArr
import proofs.«126040_j66219805770053_2_alg».proof.Proof.KerHost
import proofs.«126040_j66219805770053_2_alg».proof.Proof.KerRunB

noncomputable section

namespace Cert.Proof

open Idealize.ShloMosaic Idealize.ShloMosaic.ValueIdx Idealize.SL.Sem

instance instRefFacts : Cert.ReferenceIdeal.Facts := Cert.ReferenceIdeal.Gen.facts

/-- The common result: the segment mean at valid positions, zero elsewhere, as one function of the arguments. -/
def G (W : IVec Cert.ReferenceIdeal.S16x4096 32) (X : FVec Ideal Cert.ReferenceIdeal.S16x4096x512 .f32) :
    Cert.ReferenceIdeal.S16x4096x512.Idx → EReal :=
  fun i => Cert.RefTail.meanOf (Cert.Seg.segOf W) X (i 0) (i 1) (i 2)

/-- a non-negative signed word below 4096 is below 4096 unsigned. -/
theorem toNat_lt_of_toInt (s : BitVec 32) (h0 : 0 ≤ s.toInt) (h1 : s.toInt < 4096) : s.toNat < 4096 := by
  have h := BitVec.toInt_eq_toNat_cond s
  have := s.isLt
  split at h <;> omega

theorem seg_le (W : IVec Cert.ReferenceIdeal.S16x4096 32) (b : Fin 16) (t : Fin 4096) :
    (Cert.Seg.segOf W (ix2 b t)).toNat ≤ 4096 := by
  by_cases h : 0 ≤ (W (ix2 b t)).toInt
  · have := Cert.Seg.seg_valid W b t h
    exact Nat.le_of_lt (toNat_lt_of_toInt _ this.1 this.2)
  · rw [Cert.Seg.seg_invalid W b t (by omega)]; decide

theorem seg_lt_of_valid (W : IVec Cert.ReferenceIdeal.S16x4096 32) (b : Fin 16) (t : Fin 4096)
    (h : Cert.Seg.validOf W (ix2 b t) = 1#1) : (Cert.Seg.segOf W (ix2 b t)).toNat < 4096 := by
  have := Cert.Seg.seg_valid W b t ((Cert.Seg.valid_iff W b t).1 h)
  exact toNat_lt_of_toInt _ this.1 this.2

theorem seg_of_invalid (W : IVec Cert.ReferenceIdeal.S16x4096 32) (b : Fin 16) (t : Fin 4096)
    (h : Cert.Seg.validOf W (ix2 b t) ≠ 1#1) : Cert.Seg.segOf W (ix2 b t) = 4096#32 :=
  Cert.Seg.seg_invalid W b t (by
    have := mt (Cert.Seg.valid_iff W b t).2 h
    omega)

/-- The reference's result is the common function. -/
theorem ref_is_G (W : IVec Cert.ReferenceIdeal.S16x4096 32) (X : FVec Ideal Cert.ReferenceIdeal.S16x4096x512 .f32) :
    Cert.RefTail.out (Cert.Seg.validOf W) (Cert.Seg.segOf W) X = G W X := by
  funext i
  obtain ⟨b, t, e, rfl⟩ : ∃ (b : Fin 16) (t : Fin 4096) (e : Fin 512), i = ix3 b t e := ⟨i 0, i 1, i 2, eq_ix3 i⟩
  exact Cert.RefTail.out_eq_meanOf _ _ X (seg_le W) (seg_lt_of_valid W) (seg_of_invalid W) b t e

/-- The kernel's accumulated value over the segment ids is the common function. -/
theorem kerOut_is_G (W : IVec Cert.ReferenceIdeal.S16x4096 32) (X : FVec Ideal Cert.ReferenceIdeal.S16x4096x512 .f32) :
    Cert.KernelIdeal.Acc.kerOut (Cert.Seg.segOf W) X = G W X := by
  funext i
  obtain ⟨b, t, e, rfl⟩ : ∃ (b : Fin 16) (t : Fin 4096) (e : Fin 512), i = ix3 b t e := ⟨i 0, i 1, i 2, eq_ix3 i⟩
  rfl

/-- The idealized kernel's run, its result array named by the common function. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21)
          = G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run (Cert.KernelIdeal.defs (F := Ideal)) _ _).mono
    (fun r h c => ⟨(h c).1.trans (by
        rw [Cert.KernelIdeal.Hand.final3 m c, Cert.KernelIdeal.Hand.V_seg m c, Cert.KernelIdeal.Hand.V_main_arg1 m c]
        exact kerOut_is_G _ _), (h c).2.1, (h c).2.2⟩)
    (Cert.KernelIdeal.Hand.run_main (F := Ideal) m ρ)

/-- The reference runs and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun r h c => ⟨(h c).2.1, (h c).2.2⟩)
    (Cert.ReferenceIdeal.RefValue.run (F := Ideal) m ρ)

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c => ⟨(h c).2.1, (h c).2.2⟩) (kernel_run m ρ)

/-- The word-level kernel runs and leaves its arguments unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun r h c => ⟨(h c).2.1, (h c).2.2⟩)
    (Cert.Kernel.Hand.run_main (F := Bits) m ρ)

/-- Both idealized programs, from memories agreeing on the arguments, end at the common function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_run m ρ, ?_⟩
  refine (θ_run (Cert.ReferenceIdeal.defs (F := Ideal)) _ _).mono (fun r h c => ⟨?_, (h c).2.1, (h c).2.2⟩)
    (Cert.ReferenceIdeal.RefValue.run (F := Ideal) m' ρ')
  rw [(h c).1]
  unfold Cert.ReferenceIdeal.RefValue.res_out
  rw [ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
